-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S3 : Shape := ⟨1, ![3]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3 : S_.BroadcastsInDim S3 (![] : Fin 0 → Fin S3.rank)
  reducesTo_S3_S_d0 : S3.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128 .f32) (main_arg10 : FVec F S128x64 .f32) (main_arg11 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S3x128x128 .f32) (main_arg7 : FVec F S3x128 .f32) (main_arg8 : FVec F S384x128 .f32) (main_arg9 : FVec F S128 .f32) (main_arg10 : FVec F S128x64 .f32) (main_arg11 : FVec F S64 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S384x128 .f32 := Host.absf main_arg8
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x1600000 32) (main_arg2 : IVec S50000 32) (main_arg3 : FVec F S3 .f32) (main_arg4 : FVec F S3x128x128 .f32) (main_arg5 : FVec F S3x128 .f32) (main_arg6 : FVec F S3x128x128 .f32) (main_arg7 : FVec F S3x128 .f32) (main_arg8 : FVec F S384x128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3 .f32 := Host.absf main_arg3
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S3 : Shape := ⟨1, ![3]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x1 : Shape := ⟨2, ![1, 1]⟩
abbrev S1x128 : Shape := ⟨2, ![1, 128]⟩
abbrev S1x128x128 : Shape := ⟨3, ![1, 128, 128]⟩
abbrev S128x128 : Shape := ⟨2, ![128, 128]⟩
abbrev S5000x128 : Shape := ⟨2, ![5000, 128]⟩
abbrev S64x128 : Shape := ⟨2, ![64, 128]⟩
abbrev S50000x1 : Shape := ⟨2, ![50000, 1]⟩
abbrev S64x384 : Shape := ⟨2, ![64, 384]⟩
abbrev S64x1 : Shape := ⟨2, ![64, 1]⟩
abbrev S1x64 : Shape := ⟨2, ![1, 64]⟩
abbrev S384 : Shape := ⟨1, ![384]⟩
abbrev S1x384 : Shape := ⟨2, ![1, 384]⟩

abbrev nBuf : Space → Nat
  | .hbm => 137
  | .vmem => 40
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S3, .f32⟩
  | 4 => ⟨S3x128x128, .f32⟩
  | 5 => ⟨S3x128, .f32⟩
  | 6 => ⟨S3x128x128, .f32⟩
  | 7 => ⟨S3x128, .f32⟩
  | 8 => ⟨S384x128, .f32⟩
  | 9 => ⟨S128, .f32⟩
  | 10 => ⟨S128x64, .f32⟩
  | 11 => ⟨S64, .f32⟩
  | 12 => ⟨S3x128x128, .bf16⟩
  | 13 => ⟨S3x128x128, .bf16⟩
  | 14 => ⟨S50000x128, .bf16⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .bf16⟩
  | 26 => ⟨S1600000x128, .f32⟩
  | 27 => ⟨S1x1600000, .i32⟩
  | 28 => ⟨S1600000, .i32⟩
  | 29 => ⟨S_, .f32⟩
  | 30 => ⟨S50000x128, .f32⟩
  | 31 => ⟨S1600000x1, .i32⟩
  | 32 => ⟨S50000x128, .f32⟩
  | 33 => ⟨S1, .f32⟩
  | 34 => ⟨S_, .f32⟩
  | 35 => ⟨S1x1, .f32⟩
  | 36 => ⟨S1x128, .f32⟩
  | 37 => ⟨S128, .f32⟩
  | 38 => ⟨S1x128, .f32⟩
  | 39 => ⟨S1x128, .f32⟩
  | 40 => ⟨S128, .f32⟩
  | 41 => ⟨S1x128, .f32⟩
  | 42 => ⟨S1x128x128, .bf16⟩
  | 43 => ⟨S128x128, .bf16⟩
  | 44 => ⟨S1x128x128, .bf16⟩
  | 45 => ⟨S128x128, .bf16⟩
  | 46 => ⟨S50000x128, .f32⟩
  | 47 => ⟨S_, .f32⟩
  | 48 => ⟨S64x128, .f32⟩
  | 49 => ⟨S50000x1, .i32⟩
  | 50 => ⟨S64x128, .f32⟩
  | 51 => ⟨S50000x128, .bf16⟩
  | 52 => ⟨S1x1600000, .i32⟩
  | 53 => ⟨S1600000, .i32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .bf16⟩
  | 63 => ⟨S1600000x128, .f32⟩
  | 64 => ⟨S1x1600000, .i32⟩
  | 65 => ⟨S1600000, .i32⟩
  | 66 => ⟨S_, .f32⟩
  | 67 => ⟨S50000x128, .f32⟩
  | 68 => ⟨S1600000x1, .i32⟩
  | 69 => ⟨S50000x128, .f32⟩
  | 70 => ⟨S1, .f32⟩
  | 71 => ⟨S_, .f32⟩
  | 72 => ⟨S1x1, .f32⟩
  | 73 => ⟨S1x128, .f32⟩
  | 74 => ⟨S128, .f32⟩
  | 75 => ⟨S1x128, .f32⟩
  | 76 => ⟨S1x128, .f32⟩
  | 77 => ⟨S128, .f32⟩
  | 78 => ⟨S1x128, .f32⟩
  | 79 => ⟨S1x128x128, .bf16⟩
  | 80 => ⟨S128x128, .bf16⟩
  | 81 => ⟨S1x128x128, .bf16⟩
  | 82 => ⟨S128x128, .bf16⟩
  | 83 => ⟨S50000x128, .f32⟩
  | 84 => ⟨S_, .f32⟩
  | 85 => ⟨S64x128, .f32⟩
  | 86 => ⟨S50000x1, .i32⟩
  | 87 => ⟨S64x128, .f32⟩
  | 88 => ⟨S50000x128, .bf16⟩
  | 89 => ⟨S1x1600000, .i32⟩
  | 90 => ⟨S1600000, .i32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .bf16⟩
  | 100 => ⟨S1600000x128, .f32⟩
  | 101 => ⟨S1x1600000, .i32⟩
  | 102 => ⟨S1600000, .i32⟩
  | 103 => ⟨S_, .f32⟩
  | 104 => ⟨S50000x128, .f32⟩
  | 105 => ⟨S1600000x1, .i32⟩
  | 106 => ⟨S50000x128, .f32⟩
  | 107 => ⟨S1, .f32⟩
  | 108 => ⟨S_, .f32⟩
  | 109 => ⟨S1x1, .f32⟩
  | 110 => ⟨S1x128, .f32⟩
  | 111 => ⟨S128, .f32⟩
  | 112 => ⟨S1x128, .f32⟩
  | 113 => ⟨S1x128, .f32⟩
  | 114 => ⟨S128, .f32⟩
  | 115 => ⟨S1x128, .f32⟩
  | 116 => ⟨S1x128x128, .bf16⟩
  | 117 => ⟨S128x128, .bf16⟩
  | 118 => ⟨S1x128x128, .bf16⟩
  | 119 => ⟨S128x128, .bf16⟩
  | 120 => ⟨S50000x128, .f32⟩
  | 121 => ⟨S_, .f32⟩
  | 122 => ⟨S64x128, .f32⟩
  | 123 => ⟨S50000x1, .i32⟩
  | 124 => ⟨S64x128, .f32⟩
  | 125 => ⟨S64x384, .f32⟩
  | 126 => ⟨S_, .f32⟩
  | 127 => ⟨S50000x1, .f32⟩
  | _ => ⟨S50000x128, .f32⟩

abbrev hbmTy0_1 (i : Nat) : BufTy := match i % 128 with
  | 0 => ⟨S_, .f32⟩
  | 1 => ⟨S64x1, .f32⟩
  | 2 => ⟨S50000x1, .i32⟩
  | 3 => ⟨S64x1, .f32⟩
  | 4 => ⟨S384x128, .bf16⟩
  | 5 => ⟨S128x64, .bf16⟩
  | 6 => ⟨S1x128, .f32⟩
  | 7 => ⟨S1x64, .f32⟩
  | 8 => ⟨S1x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x1, .f32⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x1, .f32⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x1, .f32⟩
  | .local _ .vmem, ⟨27, _⟩ => ⟨S128x128, .bf16⟩
  | .local _ .vmem, ⟨28, _⟩ => ⟨S1x128, .f32⟩
  | .local _ .vmem, ⟨29, _⟩ => ⟨S128x128, .bf16⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S64x384, .f32⟩
  | .local _ .vmem, ⟨34, _⟩ => ⟨S64x1, .f32⟩
  | .local _ .vmem, ⟨35, _⟩ => ⟨S384x128, .bf16⟩
  | .local _ .vmem, ⟨36, _⟩ => ⟨S1x128, .f32⟩
  | .local _ .vmem, ⟨37, _⟩ => ⟨S128x64, .bf16⟩
  | .local _ .vmem, ⟨38, _⟩ => ⟨S1x64, .f32⟩
  | .local _ .vmem, ⟨39, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_2 : Ref sig .tc := ⟨.hbm, 54, rfl⟩
abbrev main_v38 : Ref sig .tc := ⟨.hbm, 55, rfl⟩
abbrev main_v39 : Ref sig .tc := ⟨.hbm, 56, rfl⟩
abbrev main_c_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_6 : Ref sig .tc := ⟨.hbm, 91, rfl⟩
abbrev main_v71 : Ref sig .tc := ⟨.hbm, 92, rfl⟩
abbrev main_v72 : Ref sig .tc := ⟨.hbm, 93, rfl⟩
abbrev main_c_7 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_8 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_9 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_10 : Ref sig .tc := ⟨.hbm, 126, rfl⟩
abbrev main_v102 : Ref sig .tc := ⟨.hbm, 127, rfl⟩
abbrev main_cst_11 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x384 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S384x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  bitsLt_bf16_f32 : FTy.bits .bf16 < FTy.bits .f32
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S50000x128 : S_.BroadcastsInDim S50000x128 (![] : Fin 0 → Fin S50000x128.rank)
  slices_S3_S1_0 : S3.Slices ![0] S1
  shapeCasts_S1_S_ : S1.ShapeCasts S_
  shapeCasts_S_S1x1 : S_.ShapeCasts S1x1
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S50000_S50000x1_0 : S50000.BroadcastsInDim S50000x1 (![0] : Fin 1 → Fin S50000x1.rank)
  slices_S3_S1_1 : S3.Slices ![1] S1
  slices_S3x128_S1x128_1_0 : S3x128.Slices ![1, 0] S1x128
  slices_S3x128x128_S1x128x128_1_0_0 : S3x128x128.Slices ![1, 0, 0] S1x128x128
  slices_S3_S1_2 : S3.Slices ![2] S1
  slices_S3x128_S1x128_2_0 : S3x128.Slices ![2, 0] S1x128
  slices_S3x128x128_S1x128x128_2_0_0 : S3x128x128.Slices ![2, 0, 0] S1x128x128
  concatenates_S64x128_S64x128_S64x128_S64x384_d1 : Shape.Concatenates [S64x128, S64x128, S64x128] S64x384 1
  bcast_S_S50000x1 : S_.BroadcastsInDim S50000x1 (![] : Fin 0 → Fin S50000x1.rank)
  bcast_S_S64x1 : S_.BroadcastsInDim S64x1 (![] : Fin 0 → Fin S64x1.rank)
  shapeCasts_S64_S1x64 : S64.ShapeCasts S1x64
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x384 : S64x1.Broadcasts S64x384
  reduces_S64x384_S384 : S64x384.Reduces [0] S384
  shapeCasts_S384_S1x384 : S384.ShapeCasts S1x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1
  dot_S1x384_S384x128_S1x128_1_0_0_1_n_n_wf : DotDims.WF S1x384 S384x128 S1x128 [1] [0] [0] [1] [] []
  dot_S1x128_S128x64_S1x64_1_0_0_1_n_n_wf : DotDims.WF S1x128 S128x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x384.size a ≤ S64x384.size a
  hwx3_0 : ∀ i : grid3.Coords, EltTy.bits .f32 = 32 ∨ (Rect.block (s := S64x384) S64x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S384x128.size a ≤ S384x128.size a
  hwx3_2 : ∀ i : grid3.Coords, EltTy.bits .bf16 = 32 ∨ (Rect.block (s := S384x128) S384x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .bf16 = 32 ∨ (Rect.block (s := S128x64) S128x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S1x384_S384x128_S1x128_1_0_0_1_n_n : DotDims S1x384 S384x128 S1x128 where
  lhsContracting := [1]
  rhsContracting := [0]
  lhsNonContracting := [0]
  rhsNonContracting := [1]
  lhsBatch := []
  rhsBatch := []
  wf := dot_S1x384_S384x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v64) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v94) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v96) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v97) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v101) S64x384.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v105) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v106) S384x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v108) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v107) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v109) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v110) S1x64.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S3 : Shape := ⟨1, ![3]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x64 : Shape := ⟨2, ![128, 64]⟩
abbrev S64 : Shape := ⟨1, ![64]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S50000x384 : Shape := ⟨2, ![50000, 384]⟩
abbrev S64x384 : Shape := ⟨2, ![64, 384]⟩
abbrev S50000x1 : Shape := ⟨2, ![50000, 1]⟩
abbrev S64x1 : Shape := ⟨2, ![64, 1]⟩
abbrev S384 : Shape := ⟨1, ![384]⟩
abbrev S1x384 : Shape := ⟨2, ![1, 384]⟩
abbrev S1x64 : Shape := ⟨2, ![1, 64]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S3, .f32⟩
  | 4 => ⟨S3x128x128, .f32⟩
  | 5 => ⟨S3x128, .f32⟩
  | 6 => ⟨S3x128x128, .f32⟩
  | 7 => ⟨S3x128, .f32⟩
  | 8 => ⟨S384x128, .f32⟩
  | 9 => ⟨S128, .f32⟩
  | 10 => ⟨S128x64, .f32⟩
  | 11 => ⟨S64, .f32⟩
  | 12 => ⟨S1, .f32⟩
  | 13 => ⟨S_, .f32⟩
  | 14 => ⟨S1x128x128, .f32⟩
  | 15 => ⟨S128x128, .f32⟩
  | 16 => ⟨S1x128, .f32⟩
  | 17 => ⟨S128, .f32⟩
  | 18 => ⟨S1x128x128, .f32⟩
  | 19 => ⟨S128x128, .f32⟩
  | 20 => ⟨S1x128, .f32⟩
  | 21 => ⟨S128, .f32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S1x1600000, .i32⟩
  | 34 => ⟨S1600000, .i32⟩
  | 35 => ⟨S_, .f32⟩
  | 36 => ⟨S50000x128, .f32⟩
  | 37 => ⟨S1600000x1, .i32⟩
  | 38 => ⟨S50000x128, .f32⟩
  | 39 => ⟨S_, .f32⟩
  | 40 => ⟨S_, .f32⟩
  | 41 => ⟨S50000x128, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S1, .f32⟩
  | 56 => ⟨S_, .f32⟩
  | 57 => ⟨S1x128x128, .f32⟩
  | 58 => ⟨S128x128, .f32⟩
  | 59 => ⟨S1x128, .f32⟩
  | 60 => ⟨S128, .f32⟩
  | 61 => ⟨S1x128x128, .f32⟩
  | 62 => ⟨S128x128, .f32⟩
  | 63 => ⟨S1x128, .f32⟩
  | 64 => ⟨S128, .f32⟩
  | 65 => ⟨S1x1600000, .i32⟩
  | 66 => ⟨S1600000, .i32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S1x1600000, .i32⟩
  | 77 => ⟨S1600000, .i32⟩
  | 78 => ⟨S_, .f32⟩
  | 79 => ⟨S50000x128, .f32⟩
  | 80 => ⟨S1600000x1, .i32⟩
  | 81 => ⟨S50000x128, .f32⟩
  | 82 => ⟨S_, .f32⟩
  | 83 => ⟨S_, .f32⟩
  | 84 => ⟨S50000x128, .f32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1, .f32⟩
  | 99 => ⟨S_, .f32⟩
  | 100 => ⟨S1x128x128, .f32⟩
  | 101 => ⟨S128x128, .f32⟩
  | 102 => ⟨S1x128, .f32⟩
  | 103 => ⟨S128, .f32⟩
  | 104 => ⟨S1x128x128, .f32⟩
  | 105 => ⟨S128x128, .f32⟩
  | 106 => ⟨S1x128, .f32⟩
  | 107 => ⟨S128, .f32⟩
  | 108 => ⟨S1x1600000, .i32⟩
  | 109 => ⟨S1600000, .i32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S1x1600000, .i32⟩
  | 120 => ⟨S1600000, .i32⟩
  | 121 => ⟨S_, .f32⟩
  | 122 => ⟨S50000x128, .f32⟩
  | 123 => ⟨S1600000x1, .i32⟩
  | 124 => ⟨S50000x128, .f32⟩
  | 125 => ⟨S_, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S50000x384, .f32⟩
  | 14 => ⟨S_, .f32⟩
  | 15 => ⟨S64x384, .f32⟩
  | 16 => ⟨S50000x1, .i32⟩
  | 17 => ⟨S64x384, .f32⟩
  | 18 => ⟨S_, .f32⟩
  | 19 => ⟨S50000x1, .f32⟩
  | 20 => ⟨S_, .f32⟩
  | 21 => ⟨S64x1, .f32⟩
  | 22 => ⟨S50000x1, .i32⟩
  | 23 => ⟨S64x1, .f32⟩
  | 24 => ⟨S_, .f32⟩
  | 25 => ⟨S64x1, .f32⟩
  | 26 => ⟨S64x1, .f32⟩
  | 27 => ⟨S64x384, .f32⟩
  | 28 => ⟨S64x384, .f32⟩
  | 29 => ⟨S_, .f32⟩
  | 30 => ⟨S384, .f32⟩
  | 31 => ⟨S1x384, .f32⟩
  | 32 => ⟨S1x128, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S1x64, .f32⟩
  | 39 => ⟨S1x64, .f32⟩
  | 40 => ⟨S1x64, .f32⟩
  | 41 => ⟨S_, .f32⟩
  | 42 => ⟨S1x64, .f32⟩
  | 43 => ⟨S1x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_3 : Ref sig .tc := ⟨.hbm, 67, rfl⟩
abbrev main_v50 : Ref sig .tc := ⟨.hbm, 68, rfl⟩
abbrev main_v51 : Ref sig .tc := ⟨.hbm, 69, rfl⟩
abbrev main_c_4 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_6 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_7 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_c_8 : Ref sig .tc := ⟨.hbm, 110, rfl⟩
abbrev main_v88 : Ref sig .tc := ⟨.hbm, 111, rfl⟩
abbrev main_v89 : Ref sig .tc := ⟨.hbm, 112, rfl⟩
abbrev main_c_9 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_10 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_11 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_12 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_13 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_14 : Ref sig .tc := ⟨.hbm, 146, rfl⟩
abbrev main_v118 : Ref sig .tc := ⟨.hbm, 147, rfl⟩
abbrev main_cst_15 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_16 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_17 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_18 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_19 : Ref sig .tc := ⟨.hbm, 169, rfl⟩
abbrev main_v136 : Ref sig .tc := ⟨.hbm, 170, rfl⟩
abbrev main_v137 : Ref sig .tc := ⟨.hbm, 171, rfl⟩

abbrev nD : Nat := 1
abbrev τ : Topo := Topo.v7x

variable {F : FTy → Type} [FloatOps F]

class Facts₀ : Prop where
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  bcast_S_S64x384 : S_.BroadcastsInDim S64x384 (![] : Fin 0 → Fin S64x384.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x384_0_1 : S64x1.BroadcastsInDim S64x384 (![0, 1] : Fin 2 → Fin S64x384.rank)
  reducesTo_S64x384_S384_d0 : S64x384.ReducesTo [0] S384
  h_S_ : 0 < S_.numel
  bcast_S384_S1x384_1 : S384.BroadcastsInDim S1x384 (![1] : Fin 1 → Fin S1x384.rank)
  bcast_S_S1x128 : S_.BroadcastsInDim S1x128 (![] : Fin 0 → Fin S1x128.rank)
  bcast_S64_S1x64_1 : S64.BroadcastsInDim S1x64 (![1] : Fin 1 → Fin S1x64.rank)
  bcast_S_S1x64 : S_.BroadcastsInDim S1x64 (![] : Fin 0 → Fin S1x64.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S64x384_S50000x1_S50000x384_1_0_0_1_wf : ScatterDims.WF S64x384 S50000x1 S50000x384 [1] [0] [0] 1
  scatter_S64x1_S50000x1_S50000x1_1_0_0_1_wf : ScatterDims.WF S64x1 S50000x1 S50000x1 [1] [0] [0] 1
  dot_S1x384_S384x128_S1x128_1_0_0_1_n_n_wf : DotDims.WF S1x384 S384x128 S1x128 [1] [0] [0] [1] [] []
  dot_S1x128_S128x64_S1x64_1_0_0_1_n_n_wf : DotDims.WF S1x128 S128x64 S1x64 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x384_S50000x1_S50000x384_1_0_0_1 : ScatterDims S64x384 S50000x1 S50000x384 where
  updateWindowDims := [1]
  insertedWindowDims := [0]
  scatterDimsToOperandDims := [0]
  indexVectorDim := 1
  wf := scatter_S64x384_S50000x1_S50000x384_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S1x384_S384x128_S1x128_1_0_0_1_n_n : DotDims S1x384 S384x128 S1x128 where
  lhsContracting := [1]
  rhsContracting := [0]
  lhsNonContracting := [0]
  rhsNonContracting := [1]
  lhsBatch := []
  rhsBatch := []
  wf := dot_S1x384_S384x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

class Facts : Prop extends Facts₀ where

variable [Facts]
-- ==== Proof.WordLayer0.lean ====
/-
  Region 0 of the program: the multilayer-perceptron stage of graph-isomorphism layer 1,
  `out = max((1+eps)·h + agg) W1 + b1, 0) W2 + b2`, tiled over ten row blocks of 5000 nodes.
  Everything here is stated at the contents `V` the region finds in the core's buffers, and at any
  float instance: a window's block at a grid point; what one run of the body leaves in the output's
  staging buffer (a single store of the whole 5000×128 block, its value the body's arithmetic on the
  seven input blocks); that the body, run on staging buffers holding the input blocks, ends with the
  inputs untouched and the output at that value; and from it the pipeline's per-point obligation.
-/
import proofs.«110857_j32409823216461_2_alg».proof.Proof.Gen.Kernel.Launch
import proofs.«110857_j32409823216461_2_alg».proof.Proof.Gen.Kernel.Skeleton
import proofs.«110857_j32409823216461_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `5000·t … 5000·t+4999` of a tiled array, the whole
    array of a resident one, read off the contents the region finds. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or an
    earlier one did and the block index has not moved since. -/
theorem held0_0 {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- Input window 1's staging buffer holds its block at every point, whether the point fetched it or an
    earlier one did and the block index has not moved since. -/
theorem held0_1 {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- Input window 2's staging buffer holds its block at every point, whether the point fetched it or an
    earlier one did and the block index has not moved since. -/
theorem held0_2 {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- Input window 3's staging buffer holds its block at every point, whether the point fetched it or an
    earlier one did and the block index has not moved since. -/
theorem held0_3 {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)

/-- Input window 4's staging buffer holds its block at every point, whether the point fetched it or an
    earlier one did and the block index has not moved since. -/
theorem held0_4 {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-- Input window 5's staging buffer holds its block at every point, whether the point fetched it or an
    earlier one did and the block index has not moved since. -/
theorem held0_5 {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)

/-- Input window 6's staging buffer holds its block at every point, whether the point fetched it or an
    earlier one did and the block index has not moved since. -/
theorem held0_6 {c : Dev nD} (dat : Dat τ (Elt F) Unit ℕ (UR sig nD τ) ℕ cfg0 c) (hA : dat.A 6 = V c (Pipeline.arrRef spec0 6))
    (hafter : ∀ t, dat.after 6 t = blockAt0 V c 6 t) (t : Fin cfg0.N) (d) : dat.before 6 t d = blockAt0 V c 6 t :=
  (dat.before_in_eq_fetched 6 rfl (fun _ => rfl) (fun _ _ _ => rfl) (fun t => by rw [hafter]; unfold Dat.blockOf blockAt0; rw [hA]; try rfl) t d).trans
    (by unfold Dat.fetched Dat.blockOf blockAt0; rw [hA]; try rfl)

/-- The whole 5000×128 block, the 1×1 cell, a whole 128×128 weight and a whole 1×128 bias row: the
    rectangles the body loads and stores through. -/
abbrev rows0 : Rect S5000x128 := Rect.unit (s := S5000x128) ![0, 0] S5000x128.size inb_S5000x128_S5000x128_0_0
abbrev cell0 : Rect S1x1 := Rect.unit (s := S1x1) ![0, 0] S1x1.size inb_S1x1_S1x1_0_0
abbrev weight0 : Rect S128x128 := Rect.unit (s := S128x128) ![0, 0] S128x128.size inb_S128x128_S128x128_0_0
abbrev bias0 : Rect S1x128 := Rect.unit (s := S1x128) ![0, 0] S1x128.size inb_S1x128_S1x128_0_0

/-- What one run of the body leaves in the output's staging buffer: its one store, of the whole block,
    of the layer's arithmetic on the seven input blocks. -/
def stored0 (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32) : Vec F S5000x128 .f32 :=
  View.canon [⟨rows0, k0_pay1 (View.ld x0 rows0) (View.ld x1 rows0) (View.ld x2 cell0) (View.ld x3 weight0) (View.ld x4 bias0) (View.ld x5 weight0) (View.ld x6 bias0)⟩]

/-- The one store covers the buffer. -/
theorem stored0_cover (p0 : Vec F S5000x128 .f32) (y : S5000x128.Idx) :
    ∃ pc ∈ ([⟨rows0, p0⟩] : List (View.Piece (Elt F) S5000x128 .f32)), y ∈ pc.1.set :=
  View.cover_of_tiled [⟨rows0, p0⟩] S5000x128.size (by rfl) y

set_option maxHeartbeats 1000000 in
/-- The body on whole staging buffers, the inputs' holding `x0 … x6` and the output's anything, runs to the
    end with the inputs' as they were and the output's at `stored0` of them. -/
theorem body_run0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored0 x0 x1 x2 x3 x4 x5 x6)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored0_cover _)

/-- The pipeline's proof data on core `c`: the arrays as the region finds them; after the body at point `t`
    each input's buffer still at its block and the output's at `stored0` of the input blocks; nothing owed. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => blockAt0 V c 6 t
    | ⟨7, _⟩ => stored0 (blockAt0 V c 0 t) (blockAt0 V c 1 t) (blockAt0 V c 2 t) (blockAt0 V c 3 t) (blockAt0 V c 4 t) (blockAt0 V c 5 t) (blockAt0 V c 6 t)
  Φ _ := Pipeline.ΦA spec0 c
  q _ := fullShare
  owed _ := 0

theorem data0_A (c : Dev nD) (w : Fin cfg0.W) : (data0 V c).A w = V c (Pipeline.arrRef spec0 w) := by
  dsimp only [data0]

theorem data0_after_0 (c : Dev nD) (t : Fin cfg0.N) : (data0 V c).after 0 t = blockAt0 V c 0 t := by dsimp only [data0]
theorem data0_after_1 (c : Dev nD) (t : Fin cfg0.N) : (data0 V c).after 1 t = blockAt0 V c 1 t := by dsimp only [data0]
theorem data0_after_2 (c : Dev nD) (t : Fin cfg0.N) : (data0 V c).after 2 t = blockAt0 V c 2 t := by dsimp only [data0]
theorem data0_after_3 (c : Dev nD) (t : Fin cfg0.N) : (data0 V c).after 3 t = blockAt0 V c 3 t := by dsimp only [data0]
theorem data0_after_4 (c : Dev nD) (t : Fin cfg0.N) : (data0 V c).after 4 t = blockAt0 V c 4 t := by dsimp only [data0]
theorem data0_after_5 (c : Dev nD) (t : Fin cfg0.N) : (data0 V c).after 5 t = blockAt0 V c 5 t := by dsimp only [data0]
theorem data0_after_6 (c : Dev nD) (t : Fin cfg0.N) : (data0 V c).after 6 t = blockAt0 V c 6 t := by dsimp only [data0]
theorem data0_after_7 (c : Dev nD) (t : Fin cfg0.N) : (data0 V c).after 7 t =
    stored0 (blockAt0 V c 0 t) (blockAt0 V c 1 t) (blockAt0 V c 2 t) (blockAt0 V c 3 t) (blockAt0 V c 4 t) (blockAt0 V c 5 t) (blockAt0 V c 6 t) := by dsimp only [data0]

theorem data0_before_0 (c : Dev nD) (t : Fin cfg0.N) (d) : (data0 V c).before 0 t d = blockAt0 V c 0 t :=
  held0_0 V (data0 V c) (data0_A V c 0) (data0_after_0 V c) t d
theorem data0_before_1 (c : Dev nD) (t : Fin cfg0.N) (d) : (data0 V c).before 1 t d = blockAt0 V c 1 t :=
  held0_1 V (data0 V c) (data0_A V c 1) (data0_after_1 V c) t d
theorem data0_before_2 (c : Dev nD) (t : Fin cfg0.N) (d) : (data0 V c).before 2 t d = blockAt0 V c 2 t :=
  held0_2 V (data0 V c) (data0_A V c 2) (data0_after_2 V c) t d
theorem data0_before_3 (c : Dev nD) (t : Fin cfg0.N) (d) : (data0 V c).before 3 t d = blockAt0 V c 3 t :=
  held0_3 V (data0 V c) (data0_A V c 3) (data0_after_3 V c) t d
theorem data0_before_4 (c : Dev nD) (t : Fin cfg0.N) (d) : (data0 V c).before 4 t d = blockAt0 V c 4 t :=
  held0_4 V (data0 V c) (data0_A V c 4) (data0_after_4 V c) t d
theorem data0_before_5 (c : Dev nD) (t : Fin cfg0.N) (d) : (data0 V c).before 5 t d = blockAt0 V c 5 t :=
  held0_5 V (data0 V c) (data0_A V c 5) (data0_after_5 V c) t d
theorem data0_before_6 (c : Dev nD) (t : Fin cfg0.N) (d) : (data0 V c).before 6 t d = blockAt0 V c 6 t :=
  held0_6 V (data0 V c) (data0_A V c 6) (data0_after_6 V c) t d

/-- What the body is called with at point `t`, window by window, -/
def bodyPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d)))

/-- and what it returns. -/
def bodyPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t))

/-- The body at any point: the inputs' buffers hold their blocks, so `body_run0` applies. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [data0_before_0, data0_before_1, data0_before_2, data0_before_3, data0_before_4, data0_before_5, data0_before_6]
  rw [show (data0 V c).Φ t.succ = (data0 V c).Φ t.castSucc from rfl,
    show (data0 V c).owesAt () t.succ = (data0 V c).owesAt () t.castSucc from rfl,
    data0_after_0, data0_after_1, data0_after_2, data0_after_3, data0_after_4, data0_after_5, data0_after_6, data0_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run0 c Set.univ (grid0.coords t) _ _ _ _ _ _ _ _ _ _ _ _ _ _ _ _
    (blockAt0 V c 0 t) (blockAt0 V c 1 t) (blockAt0 V c 2 t) (blockAt0 V c 3 t) (blockAt0 V c 4 t) (blockAt0 V c 5 t) (blockAt0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation0 (c : Dev nD) : BodyObligation (data0 (F := F) V c) (defs₀ (F := F)) Variants.none () Set.univ := fun t => by
  rw [bigSep_W0, bigSep_W0]
  exact body_at0 V c t

end Cert.Kernel.Layers

end
-- ==== Proof.WordLayer1.lean ====
/-
  Region 1 of the program: the multilayer-perceptron stage of graph-isomorphism layer 2,
  `out = max((1+eps)·h + agg) W1 + b1, 0) W2 + b2`, tiled over ten row blocks of 5000 nodes.
  Everything here is stated at the contents `V` the region finds in the core's buffers, and at any
  float instance: a window's block at a grid point; what one run of the body leaves in the output's
  staging buffer (a single store of the whole 5000×128 block, its value the body's arithmetic on the
  seven input blocks); that the body, run on staging buffers holding the input blocks, ends with the
  inputs untouched and the output at that value; and from it the pipeline's per-point obligation.
-/
import proofs.«110857_j32409823216461_2_alg».proof.Proof.Gen.Kernel.Launch
import proofs.«110857_j32409823216461_2_alg».proof.Proof.Gen.Kernel.Skeleton
import proofs.«110857_j32409823216461_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `5000·t … 5000·t+4999` of a tiled array, the whole
    array of a resident one, read off the contents the region finds. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or an
    earlier one did and the block index has not moved since. -/
theorem held1_0 {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- Input window 1's staging buffer holds its block at every point, whether the point fetched it or an
    earlier one did and the block index has not moved since. -/
theorem held1_1 {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- Input window 2's staging buffer holds its block at every point, whether the point fetched it or an
    earlier one did and the block index has not moved since. -/
theorem held1_2 {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- Input window 3's staging buffer holds its block at every point, whether the point fetched it or an
    earlier one did and the block index has not moved since. -/
theorem held1_3 {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)

/-- Input window 4's staging buffer holds its block at every point, whether the point fetched it or an
    earlier one did and the block index has not moved since. -/
theorem held1_4 {c : Dev nD} (dat : Dat τ (Elt F) Unit ℕ (UR sig nD τ) ℕ cfg1 c) (hA : dat.A 4 = V c (Pipeline.arrRef spec1 4))
    (hafter : ∀ t, dat.after 4 t = blockAt1 V c 4 t) (t : Fin cfg1.N) (d) : dat.before 4 t d = blockAt1 V c 4 t :=
  (dat.before_in_eq_fetched 4 rfl (fun _ => rfl) (fun _ _ _ => rfl) (fun t => by rw [hafter]; unfold Dat.blockOf blockAt1; rw [hA]; try rfl) t d).trans
    (by unfold Dat.fetched Dat.blockOf blockAt1; rw [hA]; try rfl)

/-- Input window 5's staging buffer holds its block at every point, whether the point fetched it or an
    earlier one did and the block index has not moved since. -/
theorem held1_5 {c : Dev nD} (dat : Dat τ (Elt F) Unit ℕ (UR sig nD τ) ℕ cfg1 c) (hA : dat.A 5 = V c (Pipeline.arrRef spec1 5))
    (hafter : ∀ t, dat.after 5 t = blockAt1 V c 5 t) (t : Fin cfg1.N) (d) : dat.before 5 t d = blockAt1 V c 5 t :=
  (dat.before_in_eq_fetched 5 rfl (fun _ => rfl) (fun _ _ _ => rfl) (fun t => by rw [hafter]; unfold Dat.blockOf blockAt1; rw [hA]; try rfl) t d).trans
    (by unfold Dat.fetched Dat.blockOf blockAt1; rw [hA]; try rfl)

/-- Input window 6's staging buffer holds its block at every point, whether the point fetched it or an
    earlier one did and the block index has not moved since. -/
theorem held1_6 {c : Dev nD} (dat : Dat τ (Elt F) Unit ℕ (UR sig nD τ) ℕ cfg1 c) (hA : dat.A 6 = V c (Pipeline.arrRef spec1 6))
    (hafter : ∀ t, dat.after 6 t = blockAt1 V c 6 t) (t : Fin cfg1.N) (d) : dat.before 6 t d = blockAt1 V c 6 t :=
  (dat.before_in_eq_fetched 6 rfl (fun _ => rfl) (fun _ _ _ => rfl) (fun t => by rw [hafter]; unfold Dat.blockOf blockAt1; rw [hA]; try rfl) t d).trans
    (by unfold Dat.fetched Dat.blockOf blockAt1; rw [hA]; try rfl)

/-- The whole 5000×128 block, the 1×1 cell, a whole 128×128 weight and a whole 1×128 bias row: the
    rectangles the body loads and stores through. -/
abbrev rows1 : Rect S5000x128 := Rect.unit (s := S5000x128) ![0, 0] S5000x128.size inb_S5000x128_S5000x128_0_0
abbrev cell1 : Rect S1x1 := Rect.unit (s := S1x1) ![0, 0] S1x1.size inb_S1x1_S1x1_0_0
abbrev weight1 : Rect S128x128 := Rect.unit (s := S128x128) ![0, 0] S128x128.size inb_S128x128_S128x128_0_0
abbrev bias1 : Rect S1x128 := Rect.unit (s := S1x128) ![0, 0] S1x128.size inb_S1x128_S1x128_0_0

/-- What one run of the body leaves in the output's staging buffer: its one store, of the whole block,
    of the layer's arithmetic on the seven input blocks. -/
def stored1 (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32) : Vec F S5000x128 .f32 :=
  View.canon [⟨rows1, k1_pay1 (View.ld x0 rows1) (View.ld x1 rows1) (View.ld x2 cell1) (View.ld x3 weight1) (View.ld x4 bias1) (View.ld x5 weight1) (View.ld x6 bias1)⟩]

/-- The one store covers the buffer. -/
theorem stored1_cover (p0 : Vec F S5000x128 .f32) (y : S5000x128.Idx) :
    ∃ pc ∈ ([⟨rows1, p0⟩] : List (View.Piece (Elt F) S5000x128 .f32)), y ∈ pc.1.set :=
  View.cover_of_tiled [⟨rows1, p0⟩] S5000x128.size (by rfl) y

set_option maxHeartbeats 1000000 in
/-- The body on whole staging buffers, the inputs' holding `x0 … x6` and the output's anything, runs to the
    end with the inputs' as they were and the output's at `stored1` of them. -/
theorem body_run1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored1 x0 x1 x2 x3 x4 x5 x6)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored1_cover _)

/-- The pipeline's proof data on core `c`: the arrays as the region finds them; after the body at point `t`
    each input's buffer still at its block and the output's at `stored1` of the input blocks; nothing owed. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => blockAt1 V c 5 t
    | ⟨6, _⟩ => blockAt1 V c 6 t
    | ⟨7, _⟩ => stored1 (blockAt1 V c 0 t) (blockAt1 V c 1 t) (blockAt1 V c 2 t) (blockAt1 V c 3 t) (blockAt1 V c 4 t) (blockAt1 V c 5 t) (blockAt1 V c 6 t)
  Φ _ := Pipeline.ΦA spec1 c
  q _ := fullShare
  owed _ := 0

theorem data1_A (c : Dev nD) (w : Fin cfg1.W) : (data1 V c).A w = V c (Pipeline.arrRef spec1 w) := by
  dsimp only [data1]

theorem data1_after_0 (c : Dev nD) (t : Fin cfg1.N) : (data1 V c).after 0 t = blockAt1 V c 0 t := by dsimp only [data1]
theorem data1_after_1 (c : Dev nD) (t : Fin cfg1.N) : (data1 V c).after 1 t = blockAt1 V c 1 t := by dsimp only [data1]
theorem data1_after_2 (c : Dev nD) (t : Fin cfg1.N) : (data1 V c).after 2 t = blockAt1 V c 2 t := by dsimp only [data1]
theorem data1_after_3 (c : Dev nD) (t : Fin cfg1.N) : (data1 V c).after 3 t = blockAt1 V c 3 t := by dsimp only [data1]
theorem data1_after_4 (c : Dev nD) (t : Fin cfg1.N) : (data1 V c).after 4 t = blockAt1 V c 4 t := by dsimp only [data1]
theorem data1_after_5 (c : Dev nD) (t : Fin cfg1.N) : (data1 V c).after 5 t = blockAt1 V c 5 t := by dsimp only [data1]
theorem data1_after_6 (c : Dev nD) (t : Fin cfg1.N) : (data1 V c).after 6 t = blockAt1 V c 6 t := by dsimp only [data1]
theorem data1_after_7 (c : Dev nD) (t : Fin cfg1.N) : (data1 V c).after 7 t =
    stored1 (blockAt1 V c 0 t) (blockAt1 V c 1 t) (blockAt1 V c 2 t) (blockAt1 V c 3 t) (blockAt1 V c 4 t) (blockAt1 V c 5 t) (blockAt1 V c 6 t) := by dsimp only [data1]

theorem data1_before_0 (c : Dev nD) (t : Fin cfg1.N) (d) : (data1 V c).before 0 t d = blockAt1 V c 0 t :=
  held1_0 V (data1 V c) (data1_A V c 0) (data1_after_0 V c) t d
theorem data1_before_1 (c : Dev nD) (t : Fin cfg1.N) (d) : (data1 V c).before 1 t d = blockAt1 V c 1 t :=
  held1_1 V (data1 V c) (data1_A V c 1) (data1_after_1 V c) t d
theorem data1_before_2 (c : Dev nD) (t : Fin cfg1.N) (d) : (data1 V c).before 2 t d = blockAt1 V c 2 t :=
  held1_2 V (data1 V c) (data1_A V c 2) (data1_after_2 V c) t d
theorem data1_before_3 (c : Dev nD) (t : Fin cfg1.N) (d) : (data1 V c).before 3 t d = blockAt1 V c 3 t :=
  held1_3 V (data1 V c) (data1_A V c 3) (data1_after_3 V c) t d
theorem data1_before_4 (c : Dev nD) (t : Fin cfg1.N) (d) : (data1 V c).before 4 t d = blockAt1 V c 4 t :=
  held1_4 V (data1 V c) (data1_A V c 4) (data1_after_4 V c) t d
theorem data1_before_5 (c : Dev nD) (t : Fin cfg1.N) (d) : (data1 V c).before 5 t d = blockAt1 V c 5 t :=
  held1_5 V (data1 V c) (data1_A V c 5) (data1_after_5 V c) t d
theorem data1_before_6 (c : Dev nD) (t : Fin cfg1.N) (d) : (data1 V c).before 6 t d = blockAt1 V c 6 t :=
  held1_6 V (data1 V c) (data1_A V c 6) (data1_after_6 V c) t d

/-- What the body is called with at point `t`, window by window, -/
def bodyPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d)))

/-- and what it returns. -/
def bodyPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t)
    ∗ owns (c : Thread nD τ) (st1_7 t) fullShare ((data1 V c).after 7 t))

/-- The body at any point: the inputs' buffers hold their blocks, so `body_run1` applies. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [data1_before_0, data1_before_1, data1_before_2, data1_before_3, data1_before_4, data1_before_5, data1_before_6]
  rw [show (data1 V c).Φ t.succ = (data1 V c).Φ t.castSucc from rfl,
    show (data1 V c).owesAt () t.succ = (data1 V c).owesAt () t.castSucc from rfl,
    data1_after_0, data1_after_1, data1_after_2, data1_after_3, data1_after_4, data1_after_5, data1_after_6, data1_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 c Set.univ (grid1.coords t) _ _ _ _ _ _ _ _ _ _ _ _ _ _ _ _
    (blockAt1 V c 0 t) (blockAt1 V c 1 t) (blockAt1 V c 2 t) (blockAt1 V c 3 t) (blockAt1 V c 4 t) (blockAt1 V c 5 t) (blockAt1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation1 (c : Dev nD) : BodyObligation (data1 (F := F) V c) (defs₀ (F := F)) Variants.none () Set.univ := fun t => by
  rw [bigSep_W1, bigSep_W1]
  exact body_at1 V c t

end Cert.Kernel.Layers

end
-- ==== Proof.WordLayer2.lean ====
/-
  Region 2 of the program: the multilayer-perceptron stage of graph-isomorphism layer 3,
  `out = max((1+eps)·h + agg) W1 + b1, 0) W2 + b2`, tiled over ten row blocks of 5000 nodes.
  Everything here is stated at the contents `V` the region finds in the core's buffers, and at any
  float instance: a window's block at a grid point; what one run of the body leaves in the output's
  staging buffer (a single store of the whole 5000×128 block, its value the body's arithmetic on the
  seven input blocks); that the body, run on staging buffers holding the input blocks, ends with the
  inputs untouched and the output at that value; and from it the pipeline's per-point obligation.
-/
import proofs.«110857_j32409823216461_2_alg».proof.Proof.Gen.Kernel.Launch
import proofs.«110857_j32409823216461_2_alg».proof.Proof.Gen.Kernel.Skeleton
import proofs.«110857_j32409823216461_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `5000·t … 5000·t+4999` of a tiled array, the whole
    array of a resident one, read off the contents the region finds. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or an
    earlier one did and the block index has not moved since. -/
theorem held2_0 {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- Input window 1's staging buffer holds its block at every point, whether the point fetched it or an
    earlier one did and the block index has not moved since. -/
theorem held2_1 {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- Input window 2's staging buffer holds its block at every point, whether the point fetched it or an
    earlier one did and the block index has not moved since. -/
theorem held2_2 {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)

/-- Input window 3's staging buffer holds its block at every point, whether the point fetched it or an
    earlier one did and the block index has not moved since. -/
theorem held2_3 {c : Dev nD} (dat : Dat τ (Elt F) Unit ℕ (UR sig nD τ) ℕ cfg2 c) (hA : dat.A 3 = V c (Pipeline.arrRef spec2 3))
    (hafter : ∀ t, dat.after 3 t = blockAt2 V c 3 t) (t : Fin cfg2.N) (d) : dat.before 3 t d = blockAt2 V c 3 t :=
  (dat.before_in_eq_fetched 3 rfl (fun _ => rfl) (fun _ _ _ => rfl) (fun t => by rw [hafter]; unfold Dat.blockOf blockAt2; rw [hA]; try rfl) t d).trans
    (by unfold Dat.fetched Dat.blockOf blockAt2; rw [hA]; try rfl)

/-- Input window 4's staging buffer holds its block at every point, whether the point fetched it or an
    earlier one did and the block index has not moved since. -/
theorem held2_4 {c : Dev nD} (dat : Dat τ (Elt F) Unit ℕ (UR sig nD τ) ℕ cfg2 c) (hA : dat.A 4 = V c (Pipeline.arrRef spec2 4))
    (hafter : ∀ t, dat.after 4 t = blockAt2 V c 4 t) (t : Fin cfg2.N) (d) : dat.before 4 t d = blockAt2 V c 4 t :=
  (dat.before_in_eq_fetched 4 rfl (fun _ => rfl) (fun _ _ _ => rfl) (fun t => by rw [hafter]; unfold Dat.blockOf blockAt2; rw [hA]; try rfl) t d).trans
    (by unfold Dat.fetched Dat.blockOf blockAt2; rw [hA]; try rfl)

/-- Input window 5's staging buffer holds its block at every point, whether the point fetched it or an
    earlier one did and the block index has not moved since. -/
theorem held2_5 {c : Dev nD} (dat : Dat τ (Elt F) Unit ℕ (UR sig nD τ) ℕ cfg2 c) (hA : dat.A 5 = V c (Pipeline.arrRef spec2 5))
    (hafter : ∀ t, dat.after 5 t = blockAt2 V c 5 t) (t : Fin cfg2.N) (d) : dat.before 5 t d = blockAt2 V c 5 t :=
  (dat.before_in_eq_fetched 5 rfl (fun _ => rfl) (fun _ _ _ => rfl) (fun t => by rw [hafter]; unfold Dat.blockOf blockAt2; rw [hA]; try rfl) t d).trans
    (by unfold Dat.fetched Dat.blockOf blockAt2; rw [hA]; try rfl)

/-- Input window 6's staging buffer holds its block at every point, whether the point fetched it or an
    earlier one did and the block index has not moved since. -/
theorem held2_6 {c : Dev nD} (dat : Dat τ (Elt F) Unit ℕ (UR sig nD τ) ℕ cfg2 c) (hA : dat.A 6 = V c (Pipeline.arrRef spec2 6))
    (hafter : ∀ t, dat.after 6 t = blockAt2 V c 6 t) (t : Fin cfg2.N) (d) : dat.before 6 t d = blockAt2 V c 6 t :=
  (dat.before_in_eq_fetched 6 rfl (fun _ => rfl) (fun _ _ _ => rfl) (fun t => by rw [hafter]; unfold Dat.blockOf blockAt2; rw [hA]; try rfl) t d).trans
    (by unfold Dat.fetched Dat.blockOf blockAt2; rw [hA]; try rfl)

/-- The whole 5000×128 block, the 1×1 cell, a whole 128×128 weight and a whole 1×128 bias row: the
    rectangles the body loads and stores through. -/
abbrev rows2 : Rect S5000x128 := Rect.unit (s := S5000x128) ![0, 0] S5000x128.size inb_S5000x128_S5000x128_0_0
abbrev cell2 : Rect S1x1 := Rect.unit (s := S1x1) ![0, 0] S1x1.size inb_S1x1_S1x1_0_0
abbrev weight2 : Rect S128x128 := Rect.unit (s := S128x128) ![0, 0] S128x128.size inb_S128x128_S128x128_0_0
abbrev bias2 : Rect S1x128 := Rect.unit (s := S1x128) ![0, 0] S1x128.size inb_S1x128_S1x128_0_0

/-- What one run of the body leaves in the output's staging buffer: its one store, of the whole block,
    of the layer's arithmetic on the seven input blocks. -/
def stored2 (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32) : Vec F S5000x128 .f32 :=
  View.canon [⟨rows2, k2_pay1 (View.ld x0 rows2) (View.ld x1 rows2) (View.ld x2 cell2) (View.ld x3 weight2) (View.ld x4 bias2) (View.ld x5 weight2) (View.ld x6 bias2)⟩]

/-- The one store covers the buffer. -/
theorem stored2_cover (p0 : Vec F S5000x128 .f32) (y : S5000x128.Idx) :
    ∃ pc ∈ ([⟨rows2, p0⟩] : List (View.Piece (Elt F) S5000x128 .f32)), y ∈ pc.1.set :=
  View.cover_of_tiled [⟨rows2, p0⟩] S5000x128.size (by rfl) y

set_option maxHeartbeats 1000000 in
/-- The body on whole staging buffers, the inputs' holding `x0 … x6` and the output's anything, runs to the
    end with the inputs' as they were and the output's at `stored2` of them. -/
theorem body_run2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored2 x0 x1 x2 x3 x4 x5 x6)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored2_cover _)

/-- The pipeline's proof data on core `c`: the arrays as the region finds them; after the body at point `t`
    each input's buffer still at its block and the output's at `stored2` of the input blocks; nothing owed. -/
def data2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => blockAt2 V c 5 t
    | ⟨6, _⟩ => blockAt2 V c 6 t
    | ⟨7, _⟩ => stored2 (blockAt2 V c 0 t) (blockAt2 V c 1 t) (blockAt2 V c 2 t) (blockAt2 V c 3 t) (blockAt2 V c 4 t) (blockAt2 V c 5 t) (blockAt2 V c 6 t)
  Φ _ := Pipeline.ΦA spec2 c
  q _ := fullShare
  owed _ := 0

theorem data2_A (c : Dev nD) (w : Fin cfg2.W) : (data2 V c).A w = V c (Pipeline.arrRef spec2 w) := by
  dsimp only [data2]

theorem data2_after_0 (c : Dev nD) (t : Fin cfg2.N) : (data2 V c).after 0 t = blockAt2 V c 0 t := by dsimp only [data2]
theorem data2_after_1 (c : Dev nD) (t : Fin cfg2.N) : (data2 V c).after 1 t = blockAt2 V c 1 t := by dsimp only [data2]
theorem data2_after_2 (c : Dev nD) (t : Fin cfg2.N) : (data2 V c).after 2 t = blockAt2 V c 2 t := by dsimp only [data2]
theorem data2_after_3 (c : Dev nD) (t : Fin cfg2.N) : (data2 V c).after 3 t = blockAt2 V c 3 t := by dsimp only [data2]
theorem data2_after_4 (c : Dev nD) (t : Fin cfg2.N) : (data2 V c).after 4 t = blockAt2 V c 4 t := by dsimp only [data2]
theorem data2_after_5 (c : Dev nD) (t : Fin cfg2.N) : (data2 V c).after 5 t = blockAt2 V c 5 t := by dsimp only [data2]
theorem data2_after_6 (c : Dev nD) (t : Fin cfg2.N) : (data2 V c).after 6 t = blockAt2 V c 6 t := by dsimp only [data2]
theorem data2_after_7 (c : Dev nD) (t : Fin cfg2.N) : (data2 V c).after 7 t =
    stored2 (blockAt2 V c 0 t) (blockAt2 V c 1 t) (blockAt2 V c 2 t) (blockAt2 V c 3 t) (blockAt2 V c 4 t) (blockAt2 V c 5 t) (blockAt2 V c 6 t) := by dsimp only [data2]

theorem data2_before_0 (c : Dev nD) (t : Fin cfg2.N) (d) : (data2 V c).before 0 t d = blockAt2 V c 0 t :=
  held2_0 V (data2 V c) (data2_A V c 0) (data2_after_0 V c) t d
theorem data2_before_1 (c : Dev nD) (t : Fin cfg2.N) (d) : (data2 V c).before 1 t d = blockAt2 V c 1 t :=
  held2_1 V (data2 V c) (data2_A V c 1) (data2_after_1 V c) t d
theorem data2_before_2 (c : Dev nD) (t : Fin cfg2.N) (d) : (data2 V c).before 2 t d = blockAt2 V c 2 t :=
  held2_2 V (data2 V c) (data2_A V c 2) (data2_after_2 V c) t d
theorem data2_before_3 (c : Dev nD) (t : Fin cfg2.N) (d) : (data2 V c).before 3 t d = blockAt2 V c 3 t :=
  held2_3 V (data2 V c) (data2_A V c 3) (data2_after_3 V c) t d
theorem data2_before_4 (c : Dev nD) (t : Fin cfg2.N) (d) : (data2 V c).before 4 t d = blockAt2 V c 4 t :=
  held2_4 V (data2 V c) (data2_A V c 4) (data2_after_4 V c) t d
theorem data2_before_5 (c : Dev nD) (t : Fin cfg2.N) (d) : (data2 V c).before 5 t d = blockAt2 V c 5 t :=
  held2_5 V (data2 V c) (data2_A V c 5) (data2_after_5 V c) t d
theorem data2_before_6 (c : Dev nD) (t : Fin cfg2.N) (d) : (data2 V c).before 6 t d = blockAt2 V c 6 t :=
  held2_6 V (data2 V c) (data2_A V c 6) (data2_after_6 V c) t d

/-- What the body is called with at point `t`, window by window, -/
def bodyPre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d))
    ∗ (∃ d, owns (c : Thread nD τ) (st2_4 t) fullShare ((data2 V c).before 4 t d))
    ∗ (∃ d, owns (c : Thread nD τ) (st2_5 t) fullShare ((data2 V c).before 5 t d))
    ∗ (∃ d, owns (c : Thread nD τ) (st2_6 t) fullShare ((data2 V c).before 6 t d))
    ∗ (∃ d, owns (c : Thread nD τ) (st2_7 t) fullShare ((data2 V c).before 7 t d)))

/-- and what it returns. -/
def bodyPost2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t)
    ∗ owns (c : Thread nD τ) (st2_4 t) fullShare ((data2 V c).after 4 t)
    ∗ owns (c : Thread nD τ) (st2_5 t) fullShare ((data2 V c).after 5 t)
    ∗ owns (c : Thread nD τ) (st2_6 t) fullShare ((data2 V c).after 6 t)
    ∗ owns (c : Thread nD τ) (st2_7 t) fullShare ((data2 V c).after 7 t))

/-- The body at any point: the inputs' buffers hold their blocks, so `body_run2` applies. -/
theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [data2_before_0, data2_before_1, data2_before_2, data2_before_3, data2_before_4, data2_before_5, data2_before_6]
  rw [show (data2 V c).Φ t.succ = (data2 V c).Φ t.castSucc from rfl,
    show (data2 V c).owesAt () t.succ = (data2 V c).owesAt () t.castSucc from rfl,
    data2_after_0, data2_after_1, data2_after_2, data2_after_3, data2_after_4, data2_after_5, data2_after_6, data2_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run2 c Set.univ (grid2.coords t) _ _ _ _ _ _ _ _ _ _ _ _ _ _ _ _
    (blockAt2 V c 0 t) (blockAt2 V c 1 t) (blockAt2 V c 2 t) (blockAt2 V c 3 t) (blockAt2 V c 4 t) (blockAt2 V c 5 t) (blockAt2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation2 (c : Dev nD) : BodyObligation (data2 (F := F) V c) (defs₀ (F := F)) Variants.none () Set.univ := fun t => by
  rw [bigSep_W2, bigSep_W2]
  exact body_at2 V c t

end Cert.Kernel.Layers

end
-- ==== Proof.WordHead.lean ====
/-
  Region 3 of the program: the read-out head on one grid point. From the per-graph feature sums
  [64,384] and node counts [64,1] it forms the graph means `sums / max(counts, 1)`, adds them over the 64
  graphs, and applies two dense layers with a rectifier after each: [1,384]·[384,128] + bias, then
  [1,128]·[128,64] + bias. Stated, like the layer regions, at the contents `V` the region finds and at any
  float instance: the blocks, what the body's one store leaves, the body's run, the pipeline's obligation.
-/
import proofs.«110857_j32409823216461_2_alg».proof.Proof.Gen.Kernel.Launch
import proofs.«110857_j32409823216461_2_alg».proof.Proof.Gen.Kernel.Skeleton
import proofs.«110857_j32409823216461_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one grid point: the whole array, read off the contents the region finds. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point. -/
theorem held3_0 {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- Input window 1's staging buffer holds its block at the point. -/
theorem held3_1 {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- Input window 2's staging buffer holds its block at the point. -/
theorem held3_2 {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)

/-- Input window 3's staging buffer holds its block at the point. -/
theorem held3_3 {c : Dev nD} (dat : Dat τ (Elt F) Unit ℕ (UR sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)

/-- Input window 4's staging buffer holds its block at the point. -/
theorem held3_4 {c : Dev nD} (dat : Dat τ (Elt F) Unit ℕ (UR sig nD τ) ℕ cfg3 c) (hA : dat.A 4 = V c (Pipeline.arrRef spec3 4))
    (hafter : ∀ t, dat.after 4 t = blockAt3 V c 4 t) (t : Fin cfg3.N) (d) : dat.before 4 t d = blockAt3 V c 4 t :=
  (dat.before_in_eq_fetched 4 rfl (fun _ => rfl) (fun _ _ _ => rfl) (fun t => by rw [hafter]; unfold Dat.blockOf blockAt3; rw [hA]; try rfl) t d).trans
    (by unfold Dat.fetched Dat.blockOf blockAt3; rw [hA]; try rfl)

/-- Input window 5's staging buffer holds its block at the point. -/
theorem held3_5 {c : Dev nD} (dat : Dat τ (Elt F) Unit ℕ (UR sig nD τ) ℕ cfg3 c) (hA : dat.A 5 = V c (Pipeline.arrRef spec3 5))
    (hafter : ∀ t, dat.after 5 t = blockAt3 V c 5 t) (t : Fin cfg3.N) (d) : dat.before 5 t d = blockAt3 V c 5 t :=
  (dat.before_in_eq_fetched 5 rfl (fun _ => rfl) (fun _ _ _ => rfl) (fun t => by rw [hafter]; unfold Dat.blockOf blockAt3; rw [hA]; try rfl) t d).trans
    (by unfold Dat.fetched Dat.blockOf blockAt3; rw [hA]; try rfl)

/-- The whole-array rectangles the body loads and stores through. -/
abbrev pooled3 : Rect S64x384 := Rect.unit (s := S64x384) ![0, 0] S64x384.size inb_S64x384_S64x384_0_0
abbrev counts3 : Rect S64x1 := Rect.unit (s := S64x1) ![0, 0] S64x1.size inb_S64x1_S64x1_0_0
abbrev weightA3 : Rect S384x128 := Rect.unit (s := S384x128) ![0, 0] S384x128.size inb_S384x128_S384x128_0_0
abbrev biasA3 : Rect S1x128 := Rect.unit (s := S1x128) ![0, 0] S1x128.size inb_S1x128_S1x128_0_0
abbrev weightB3 : Rect S128x64 := Rect.unit (s := S128x64) ![0, 0] S128x64.size inb_S128x64_S128x64_0_0
abbrev biasB3 : Rect S1x64 := Rect.unit (s := S1x64) ![0, 0] S1x64.size inb_S1x64_S1x64_0_0

/-- What the body leaves in the output's staging buffer: its one store, of the whole [1,64] row, of the
    head's arithmetic on the six inputs. -/
def stored3 (x0 : Vec F S64x384 .f32) (x1 : Vec F S64x1 .f32) (x2 : Vec F S384x128 .bf16) (x3 : Vec F S1x128 .f32) (x4 : Vec F S128x64 .bf16) (x5 : Vec F S1x64 .f32) : Vec F S1x64 .f32 :=
  View.canon [⟨biasB3, k3_pay1 (View.ld x0 pooled3) (View.ld x1 counts3) (View.ld x2 weightA3) (View.ld x3 biasA3) (View.ld x4 weightB3) (View.ld x5 biasB3)⟩]

theorem stored3_cover (p0 : Vec F S1x64 .f32) (y : S1x64.Idx) :
    ∃ pc ∈ ([⟨biasB3, p0⟩] : List (View.Piece (Elt F) S1x64 .f32)), y ∈ pc.1.set :=
  View.cover_of_tiled [⟨biasB3, p0⟩] S1x64.size (by rfl) y

set_option maxHeartbeats 1000000 in
/-- The body on whole staging buffers, the inputs' holding `x0 … x5` and the output's anything, runs to the
    end with the inputs' as they were and the output's at `stored3` of them. -/
theorem body_run3 (c : Dev nD) (E : Set ℕ) (i : grid3.Coords)
    (arg1 : Memref sig .tc .vmem S64x384 .f32) (harg1 : arg1.IsWhole) (arg2 : Memref sig .tc .vmem S64x1 .f32) (harg2 : arg2.IsWhole) (arg3 : Memref sig .tc .vmem S384x128 .bf16) (harg3 : arg3.IsWhole) (arg4 : Memref sig .tc .vmem S1x128 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S1x64 .f32) (harg7 : arg7.IsWhole)
    (x0 : Vec F S64x384 .f32) (x1 : Vec F S64x1 .f32) (x2 : Vec F S384x128 .bf16) (x3 : Vec F S1x128 .f32) (x4 : Vec F S128x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stored3 x0 x1 x2 x3 x4 x5)) -∗ K ⟨⟩))
      ⊢ wp frame (wpE (defs₀ (F := F)) Variants.none c none) E (cc3__head_kernel i arg1 harg1 arg2 harg2 arg3 harg3 arg4 harg4 arg5 harg5 arg6 harg6 arg7 harg7) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored3_cover _)

/-- The pipeline's proof data on core `c`. -/
def data3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => blockAt3 V c 5 t
    | ⟨6, _⟩ => stored3 (blockAt3 V c 0 t) (blockAt3 V c 1 t) (blockAt3 V c 2 t) (blockAt3 V c 3 t) (blockAt3 V c 4 t) (blockAt3 V c 5 t)
  Φ _ := Pipeline.ΦA spec3 c
  q _ := fullShare
  owed _ := 0

theorem data3_A (c : Dev nD) (w : Fin cfg3.W) : (data3 V c).A w = V c (Pipeline.arrRef spec3 w) := by
  dsimp only [data3]

theorem data3_after_0 (c : Dev nD) (t : Fin cfg3.N) : (data3 V c).after 0 t = blockAt3 V c 0 t := by dsimp only [data3]
theorem data3_after_1 (c : Dev nD) (t : Fin cfg3.N) : (data3 V c).after 1 t = blockAt3 V c 1 t := by dsimp only [data3]
theorem data3_after_2 (c : Dev nD) (t : Fin cfg3.N) : (data3 V c).after 2 t = blockAt3 V c 2 t := by dsimp only [data3]
theorem data3_after_3 (c : Dev nD) (t : Fin cfg3.N) : (data3 V c).after 3 t = blockAt3 V c 3 t := by dsimp only [data3]
theorem data3_after_4 (c : Dev nD) (t : Fin cfg3.N) : (data3 V c).after 4 t = blockAt3 V c 4 t := by dsimp only [data3]
theorem data3_after_5 (c : Dev nD) (t : Fin cfg3.N) : (data3 V c).after 5 t = blockAt3 V c 5 t := by dsimp only [data3]
theorem data3_after_6 (c : Dev nD) (t : Fin cfg3.N) : (data3 V c).after 6 t = stored3 (blockAt3 V c 0 t) (blockAt3 V c 1 t) (blockAt3 V c 2 t) (blockAt3 V c 3 t) (blockAt3 V c 4 t) (blockAt3 V c 5 t) := by dsimp only [data3]

theorem data3_before_0 (c : Dev nD) (t : Fin cfg3.N) (d) : (data3 V c).before 0 t d = blockAt3 V c 0 t :=
  held3_0 V (data3 V c) (data3_A V c 0) (data3_after_0 V c) t d
theorem data3_before_1 (c : Dev nD) (t : Fin cfg3.N) (d) : (data3 V c).before 1 t d = blockAt3 V c 1 t :=
  held3_1 V (data3 V c) (data3_A V c 1) (data3_after_1 V c) t d
theorem data3_before_2 (c : Dev nD) (t : Fin cfg3.N) (d) : (data3 V c).before 2 t d = blockAt3 V c 2 t :=
  held3_2 V (data3 V c) (data3_A V c 2) (data3_after_2 V c) t d
theorem data3_before_3 (c : Dev nD) (t : Fin cfg3.N) (d) : (data3 V c).before 3 t d = blockAt3 V c 3 t :=
  held3_3 V (data3 V c) (data3_A V c 3) (data3_after_3 V c) t d
theorem data3_before_4 (c : Dev nD) (t : Fin cfg3.N) (d) : (data3 V c).before 4 t d = blockAt3 V c 4 t :=
  held3_4 V (data3 V c) (data3_A V c 4) (data3_after_4 V c) t d
theorem data3_before_5 (c : Dev nD) (t : Fin cfg3.N) (d) : (data3 V c).before 5 t d = blockAt3 V c 5 t :=
  held3_5 V (data3 V c) (data3_A V c 5) (data3_after_5 V c) t d

def bodyPre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d))
    ∗ (∃ d, owns (c : Thread nD τ) (st3_6 t) fullShare ((data3 V c).before 6 t d)))

def bodyPost3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t)
    ∗ owns (c : Thread nD τ) (st3_6 t) fullShare ((data3 V c).after 6 t))

theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [data3_before_0, data3_before_1, data3_before_2, data3_before_3, data3_before_4, data3_before_5]
  rw [show (data3 V c).Φ t.succ = (data3 V c).Φ t.castSucc from rfl,
    show (data3 V c).owesAt () t.succ = (data3 V c).owesAt () t.castSucc from rfl,
    data3_after_0, data3_after_1, data3_after_2, data3_after_3, data3_after_4, data3_after_5, data3_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run3 c Set.univ (grid3.coords t) _ _ _ _ _ _ _ _ _ _ _ _ _ _
    (blockAt3 V c 0 t) (blockAt3 V c 1 t) (blockAt3 V c 2 t) (blockAt3 V c 3 t) (blockAt3 V c 4 t) (blockAt3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (data3 (F := F) V c) (defs₀ (F := F)) Variants.none () Set.univ := fun t => by
  rw [bigSep_W3, bigSep_W3]
  exact body_at3 V c t

end Cert.Kernel.Layers

end
-- ==== Proof.WordRun.lean ====
/-
  The whole run of the program: four host stretches, each followed by a kernel region (three layer
  stages and the read-out head). The contents of a core's buffers at every boundary are a fold from the
  launch memory: a host stretch applies its operations; a region leaves its windows' arrays at what the
  pipeline's write-backs make of them and every other buffer as it was. Each region is a segment entered
  from one boundary's contents and left at the next one's; chained, they give that every weakly fair
  execution terminates, faults nowhere, and ends with EVERY unscoped buffer at the last boundary's
  contents. Read at an argument that is the launch memory (no stretch writes an argument, no region
  changes one); read at the result buffer it is what the head's one grid point wrote.
-/
import proofs.«110857_j32409823216461_2_alg».proof.Proof.WordLayer0
import proofs.«110857_j32409823216461_2_alg».proof.Proof.WordLayer1
import proofs.«110857_j32409823216461_2_alg».proof.Proof.WordLayer2
import proofs.«110857_j32409823216461_2_alg».proof.Proof.WordHead
import proofs.«110857_j32409823216461_2_alg».proof.Proof.Gen.Kernel.Regions

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev mem0 : Dev nD → Valuation τ sig (Elt F) := fun c b => m (c, b)

/-- After host stretch 0 (region 0's entry). -/
abbrev mem1 : Dev nD → Valuation τ sig (Elt F) := fun c => StableHlo.after hostOps0 (mem0 m c)
/-- The same read at the TensorCore's references: what region 0 finds. -/
abbrev entry0 : (c : Dev nD) → (b : Ref sig .tc) → Buf (Elt F) ((c : Thread nD τ).loc b) := fun c b => mem1 m c b
/-- At region 0's exit: its windows' arrays at what the pipeline leaves (an input's as entered, the output's
    write-backs folded over the grid), every other buffer as entered. -/
def mem2 (c : Dev nD) : Valuation τ sig (Elt F) :=
  Pipeline.withArrays spec0 c (mem1 m c) fun w => (data0 (entry0 m) c).arrAt w cfg0.N
theorem mem2_arr (c : Dev nD) (w : Fin cfg0.W) :
    mem2 m c (Proc.devRef .tc (Pipeline.arrRef spec0 w)) = (data0 (entry0 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
abbrev exit0 : (c : Dev nD) → (b : Ref sig .tc) → Buf (Elt F) ((c : Thread nD τ).loc b) := fun c b => mem2 m c b
theorem exit0_arr (c : Dev nD) (w : Fin cfg0.W) : (data0 (entry0 m) c).arrAt w cfg0.N = exit0 m c (Pipeline.arrRef spec0 w) :=
  (mem2_arr m c w).symm
theorem exit0_rest (c : Dev nD) : ∀ b, b ∉ Finset.univ.image (Pipeline.arrRef spec0) → exit0 m c b = entry0 m c b :=
  fun b hb => mem2_of_ne m c b fun w e => hb (Finset.mem_image.mpr ⟨w, Finset.mem_univ _, e⟩)
theorem mem1_of (c : Dev nD) (r : Ref sig .tc) (h : r ∉ hostOps0_W) : mem1 m c r = mem0 m c r :=
  StableHlo.after_of_writes_sub hostOps0 _ hostOps0_writes h

/-- After host stretch 1 (region 1's entry). -/
abbrev mem3 : Dev nD → Valuation τ sig (Elt F) := fun c => StableHlo.after hostOps1 (mem2 m c)
/-- The same read at the TensorCore's references: what region 1 finds. -/
abbrev entry1 : (c : Dev nD) → (b : Ref sig .tc) → Buf (Elt F) ((c : Thread nD τ).loc b) := fun c b => mem3 m c b
/-- At region 1's exit: its windows' arrays at what the pipeline leaves (an input's as entered, the output's
    write-backs folded over the grid), every other buffer as entered. -/
def mem4 (c : Dev nD) : Valuation τ sig (Elt F) :=
  Pipeline.withArrays spec1 c (mem3 m c) fun w => (data1 (entry1 m) c).arrAt w cfg1.N
theorem mem4_arr (c : Dev nD) (w : Fin cfg1.W) :
    mem4 m c (Proc.devRef .tc (Pipeline.arrRef spec1 w)) = (data1 (entry1 m) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m c (Proc.devRef .tc b) = mem3 m c (Proc.devRef .tc b) := by
  unfold mem4; exact Pipeline.withArrays_of_ne spec1 c _ _ b hb
abbrev exit1 : (c : Dev nD) → (b : Ref sig .tc) → Buf (Elt F) ((c : Thread nD τ).loc b) := fun c b => mem4 m c b
theorem exit1_arr (c : Dev nD) (w : Fin cfg1.W) : (data1 (entry1 m) c).arrAt w cfg1.N = exit1 m c (Pipeline.arrRef spec1 w) :=
  (mem4_arr m c w).symm
theorem exit1_rest (c : Dev nD) : ∀ b, b ∉ Finset.univ.image (Pipeline.arrRef spec1) → exit1 m c b = entry1 m c b :=
  fun b hb => mem4_of_ne m c b fun w e => hb (Finset.mem_image.mpr ⟨w, Finset.mem_univ _, e⟩)
theorem mem3_of (c : Dev nD) (r : Ref sig .tc) (h : r ∉ hostOps1_W) : mem3 m c r = mem2 m c r :=
  StableHlo.after_of_writes_sub hostOps1 _ hostOps1_writes h

/-- After host stretch 2 (region 2's entry). -/
abbrev mem5 : Dev nD → Valuation τ sig (Elt F) := fun c => StableHlo.after hostOps2 (mem4 m c)
/-- The same read at the TensorCore's references: what region 2 finds. -/
abbrev entry2 : (c : Dev nD) → (b : Ref sig .tc) → Buf (Elt F) ((c : Thread nD τ).loc b) := fun c b => mem5 m c b
/-- At region 2's exit: its windows' arrays at what the pipeline leaves (an input's as entered, the output's
    write-backs folded over the grid), every other buffer as entered. -/
def mem6 (c : Dev nD) : Valuation τ sig (Elt F) :=
  Pipeline.withArrays spec2 c (mem5 m c) fun w => (data2 (entry2 m) c).arrAt w cfg2.N
theorem mem6_arr (c : Dev nD) (w : Fin cfg2.W) :
    mem6 m c (Proc.devRef .tc (Pipeline.arrRef spec2 w)) = (data2 (entry2 m) c).arrAt w cfg2.N := by
  unfold mem6; exact Pipeline.withArrays_arr spec2 launch2.win.arr_inj c _ _ w
theorem mem6_of_ne (c : Dev nD) (b : Ref sig .tc) (hb : ∀ w, Pipeline.arrRef spec2 w ≠ b) :
    mem6 m c (Proc.devRef .tc b) = mem5 m c (Proc.devRef .tc b) := by
  unfold mem6; exact Pipeline.withArrays_of_ne spec2 c _ _ b hb
abbrev exit2 : (c : Dev nD) → (b : Ref sig .tc) → Buf (Elt F) ((c : Thread nD τ).loc b) := fun c b => mem6 m c b
theorem exit2_arr (c : Dev nD) (w : Fin cfg2.W) : (data2 (entry2 m) c).arrAt w cfg2.N = exit2 m c (Pipeline.arrRef spec2 w) :=
  (mem6_arr m c w).symm
theorem exit2_rest (c : Dev nD) : ∀ b, b ∉ Finset.univ.image (Pipeline.arrRef spec2) → exit2 m c b = entry2 m c b :=
  fun b hb => mem6_of_ne m c b fun w e => hb (Finset.mem_image.mpr ⟨w, Finset.mem_univ _, e⟩)
theorem mem5_of (c : Dev nD) (r : Ref sig .tc) (h : r ∉ hostOps2_W) : mem5 m c r = mem4 m c r :=
  StableHlo.after_of_writes_sub hostOps2 _ hostOps2_writes h

/-- After host stretch 3 (region 3's entry). -/
abbrev mem7 : Dev nD → Valuation τ sig (Elt F) := fun c => StableHlo.after hostOps3 (mem6 m c)
/-- The same read at the TensorCore's references: what region 3 finds. -/
abbrev entry3 : (c : Dev nD) → (b : Ref sig .tc) → Buf (Elt F) ((c : Thread nD τ).loc b) := fun c b => mem7 m c b
/-- At region 3's exit: its windows' arrays at what the pipeline leaves (an input's as entered, the output's
    write-backs folded over the grid), every other buffer as entered. -/
def mem8 (c : Dev nD) : Valuation τ sig (Elt F) :=
  Pipeline.withArrays spec3 c (mem7 m c) fun w => (data3 (entry3 m) c).arrAt w cfg3.N
theorem mem8_arr (c : Dev nD) (w : Fin cfg3.W) :
    mem8 m c (Proc.devRef .tc (Pipeline.arrRef spec3 w)) = (data3 (entry3 m) c).arrAt w cfg3.N := by
  unfold mem8; exact Pipeline.withArrays_arr spec3 launch3.win.arr_inj c _ _ w
theorem mem8_of_ne (c : Dev nD) (b : Ref sig .tc) (hb : ∀ w, Pipeline.arrRef spec3 w ≠ b) :
    mem8 m c (Proc.devRef .tc b) = mem7 m c (Proc.devRef .tc b) := by
  unfold mem8; exact Pipeline.withArrays_of_ne spec3 c _ _ b hb
abbrev exit3 : (c : Dev nD) → (b : Ref sig .tc) → Buf (Elt F) ((c : Thread nD τ).loc b) := fun c b => mem8 m c b
theorem exit3_arr (c : Dev nD) (w : Fin cfg3.W) : (data3 (entry3 m) c).arrAt w cfg3.N = exit3 m c (Pipeline.arrRef spec3 w) :=
  (mem8_arr m c w).symm
theorem exit3_rest (c : Dev nD) : ∀ b, b ∉ Finset.univ.image (Pipeline.arrRef spec3) → exit3 m c b = entry3 m c b :=
  fun b hb => mem8_of_ne m c b fun w e => hb (Finset.mem_image.mpr ⟨w, Finset.mem_univ _, e⟩)
theorem mem7_of (c : Dev nD) (r : Ref sig .tc) (h : r ∉ hostOps3_W) : mem7 m c r = mem6 m c r :=
  StableHlo.after_of_writes_sub hostOps3 _ hostOps3_writes h

/-! ## The arguments end as launched -/

/-- Argument 0 ends as launched: no host stretch writes it and no region changes it. -/
theorem mem8_main_arg0 (c : Dev nD) : mem8 m c (Proc.devRef .tc main_arg0) = m ((c : Thread nD τ).loc main_arg0) :=
  calc mem8 m c (Proc.devRef .tc main_arg0)
    _ = mem7 m c (Proc.devRef .tc main_arg0) := mem8_of_ne m c main_arg0 (by decide)
    _ = mem6 m c (Proc.devRef .tc main_arg0) := mem7_of m c main_arg0 (by decide)
    _ = mem5 m c (Proc.devRef .tc main_arg0) := mem6_of_ne m c main_arg0 (by decide)
    _ = mem4 m c (Proc.devRef .tc main_arg0) := mem5_of m c main_arg0 (by decide)
    _ = mem3 m c (Proc.devRef .tc main_arg0) := mem4_of_ne m c main_arg0 (by decide)
    _ = mem2 m c (Proc.devRef .tc main_arg0) := mem3_of m c main_arg0 (by decide)
    _ = mem1 m c (Proc.devRef .tc main_arg0) := (mem2_arr m c 0).trans (((data0 (entry0 m) c).arrAt_in 0 rfl _).trans (data0_A (entry0 m) c 0))
    _ = mem0 m c (Proc.devRef .tc main_arg0) := mem1_of m c main_arg0 (by decide)
    _ = m ((c : Thread nD τ).loc main_arg0) := rfl

/-- Argument 1 ends as launched: no host stretch writes it and no region changes it. -/
theorem mem8_main_arg1 (c : Dev nD) : mem8 m c (Proc.devRef .tc main_arg1) = m ((c : Thread nD τ).loc main_arg1) :=
  calc mem8 m c (Proc.devRef .tc main_arg1)
    _ = mem7 m c (Proc.devRef .tc main_arg1) := mem8_of_ne m c main_arg1 (by decide)
    _ = mem6 m c (Proc.devRef .tc main_arg1) := mem7_of m c main_arg1 (by decide)
    _ = mem5 m c (Proc.devRef .tc main_arg1) := mem6_of_ne m c main_arg1 (by decide)
    _ = mem4 m c (Proc.devRef .tc main_arg1) := mem5_of m c main_arg1 (by decide)
    _ = mem3 m c (Proc.devRef .tc main_arg1) := mem4_of_ne m c main_arg1 (by decide)
    _ = mem2 m c (Proc.devRef .tc main_arg1) := mem3_of m c main_arg1 (by decide)
    _ = mem1 m c (Proc.devRef .tc main_arg1) := mem2_of_ne m c main_arg1 (by decide)
    _ = mem0 m c (Proc.devRef .tc main_arg1) := mem1_of m c main_arg1 (by decide)
    _ = m ((c : Thread nD τ).loc main_arg1) := rfl

/-- Argument 2 ends as launched: no host stretch writes it and no region changes it. -/
theorem mem8_main_arg2 (c : Dev nD) : mem8 m c (Proc.devRef .tc main_arg2) = m ((c : Thread nD τ).loc main_arg2) :=
  calc mem8 m c (Proc.devRef .tc main_arg2)
    _ = mem7 m c (Proc.devRef .tc main_arg2) := mem8_of_ne m c main_arg2 (by decide)
    _ = mem6 m c (Proc.devRef .tc main_arg2) := mem7_of m c main_arg2 (by decide)
    _ = mem5 m c (Proc.devRef .tc main_arg2) := mem6_of_ne m c main_arg2 (by decide)
    _ = mem4 m c (Proc.devRef .tc main_arg2) := mem5_of m c main_arg2 (by decide)
    _ = mem3 m c (Proc.devRef .tc main_arg2) := mem4_of_ne m c main_arg2 (by decide)
    _ = mem2 m c (Proc.devRef .tc main_arg2) := mem3_of m c main_arg2 (by decide)
    _ = mem1 m c (Proc.devRef .tc main_arg2) := mem2_of_ne m c main_arg2 (by decide)
    _ = mem0 m c (Proc.devRef .tc main_arg2) := mem1_of m c main_arg2 (by decide)
    _ = m ((c : Thread nD τ).loc main_arg2) := rfl

/-- Argument 3 ends as launched: no host stretch writes it and no region changes it. -/
theorem mem8_main_arg3 (c : Dev nD) : mem8 m c (Proc.devRef .tc main_arg3) = m ((c : Thread nD τ).loc main_arg3) :=
  calc mem8 m c (Proc.devRef .tc main_arg3)
    _ = mem7 m c (Proc.devRef .tc main_arg3) := mem8_of_ne m c main_arg3 (by decide)
    _ = mem6 m c (Proc.devRef .tc main_arg3) := mem7_of m c main_arg3 (by decide)
    _ = mem5 m c (Proc.devRef .tc main_arg3) := mem6_of_ne m c main_arg3 (by decide)
    _ = mem4 m c (Proc.devRef .tc main_arg3) := mem5_of m c main_arg3 (by decide)
    _ = mem3 m c (Proc.devRef .tc main_arg3) := mem4_of_ne m c main_arg3 (by decide)
    _ = mem2 m c (Proc.devRef .tc main_arg3) := mem3_of m c main_arg3 (by decide)
    _ = mem1 m c (Proc.devRef .tc main_arg3) := mem2_of_ne m c main_arg3 (by decide)
    _ = mem0 m c (Proc.devRef .tc main_arg3) := mem1_of m c main_arg3 (by decide)
    _ = m ((c : Thread nD τ).loc main_arg3) := rfl

/-- Argument 4 ends as launched: no host stretch writes it and no region changes it. -/
theorem mem8_main_arg4 (c : Dev nD) : mem8 m c (Proc.devRef .tc main_arg4) = m ((c : Thread nD τ).loc main_arg4) :=
  calc mem8 m c (Proc.devRef .tc main_arg4)
    _ = mem7 m c (Proc.devRef .tc main_arg4) := mem8_of_ne m c main_arg4 (by decide)
    _ = mem6 m c (Proc.devRef .tc main_arg4) := mem7_of m c main_arg4 (by decide)
    _ = mem5 m c (Proc.devRef .tc main_arg4) := mem6_of_ne m c main_arg4 (by decide)
    _ = mem4 m c (Proc.devRef .tc main_arg4) := mem5_of m c main_arg4 (by decide)
    _ = mem3 m c (Proc.devRef .tc main_arg4) := mem4_of_ne m c main_arg4 (by decide)
    _ = mem2 m c (Proc.devRef .tc main_arg4) := mem3_of m c main_arg4 (by decide)
    _ = mem1 m c (Proc.devRef .tc main_arg4) := mem2_of_ne m c main_arg4 (by decide)
    _ = mem0 m c (Proc.devRef .tc main_arg4) := mem1_of m c main_arg4 (by decide)
    _ = m ((c : Thread nD τ).loc main_arg4) := rfl

/-- Argument 5 ends as launched: no host stretch writes it and no region changes it. -/
theorem mem8_main_arg5 (c : Dev nD) : mem8 m c (Proc.devRef .tc main_arg5) = m ((c : Thread nD τ).loc main_arg5) :=
  calc mem8 m c (Proc.devRef .tc main_arg5)
    _ = mem7 m c (Proc.devRef .tc main_arg5) := mem8_of_ne m c main_arg5 (by decide)
    _ = mem6 m c (Proc.devRef .tc main_arg5) := mem7_of m c main_arg5 (by decide)
    _ = mem5 m c (Proc.devRef .tc main_arg5) := mem6_of_ne m c main_arg5 (by decide)
    _ = mem4 m c (Proc.devRef .tc main_arg5) := mem5_of m c main_arg5 (by decide)
    _ = mem3 m c (Proc.devRef .tc main_arg5) := mem4_of_ne m c main_arg5 (by decide)
    _ = mem2 m c (Proc.devRef .tc main_arg5) := mem3_of m c main_arg5 (by decide)
    _ = mem1 m c (Proc.devRef .tc main_arg5) := mem2_of_ne m c main_arg5 (by decide)
    _ = mem0 m c (Proc.devRef .tc main_arg5) := mem1_of m c main_arg5 (by decide)
    _ = m ((c : Thread nD τ).loc main_arg5) := rfl

/-- Argument 6 ends as launched: no host stretch writes it and no region changes it. -/
theorem mem8_main_arg6 (c : Dev nD) : mem8 m c (Proc.devRef .tc main_arg6) = m ((c : Thread nD τ).loc main_arg6) :=
  calc mem8 m c (Proc.devRef .tc main_arg6)
    _ = mem7 m c (Proc.devRef .tc main_arg6) := mem8_of_ne m c main_arg6 (by decide)
    _ = mem6 m c (Proc.devRef .tc main_arg6) := mem7_of m c main_arg6 (by decide)
    _ = mem5 m c (Proc.devRef .tc main_arg6) := mem6_of_ne m c main_arg6 (by decide)
    _ = mem4 m c (Proc.devRef .tc main_arg6) := mem5_of m c main_arg6 (by decide)
    _ = mem3 m c (Proc.devRef .tc main_arg6) := mem4_of_ne m c main_arg6 (by decide)
    _ = mem2 m c (Proc.devRef .tc main_arg6) := mem3_of m c main_arg6 (by decide)
    _ = mem1 m c (Proc.devRef .tc main_arg6) := mem2_of_ne m c main_arg6 (by decide)
    _ = mem0 m c (Proc.devRef .tc main_arg6) := mem1_of m c main_arg6 (by decide)
    _ = m ((c : Thread nD τ).loc main_arg6) := rfl

/-- Argument 7 ends as launched: no host stretch writes it and no region changes it. -/
theorem mem8_main_arg7 (c : Dev nD) : mem8 m c (Proc.devRef .tc main_arg7) = m ((c : Thread nD τ).loc main_arg7) :=
  calc mem8 m c (Proc.devRef .tc main_arg7)
    _ = mem7 m c (Proc.devRef .tc main_arg7) := mem8_of_ne m c main_arg7 (by decide)
    _ = mem6 m c (Proc.devRef .tc main_arg7) := mem7_of m c main_arg7 (by decide)
    _ = mem5 m c (Proc.devRef .tc main_arg7) := mem6_of_ne m c main_arg7 (by decide)
    _ = mem4 m c (Proc.devRef .tc main_arg7) := mem5_of m c main_arg7 (by decide)
    _ = mem3 m c (Proc.devRef .tc main_arg7) := mem4_of_ne m c main_arg7 (by decide)
    _ = mem2 m c (Proc.devRef .tc main_arg7) := mem3_of m c main_arg7 (by decide)
    _ = mem1 m c (Proc.devRef .tc main_arg7) := mem2_of_ne m c main_arg7 (by decide)
    _ = mem0 m c (Proc.devRef .tc main_arg7) := mem1_of m c main_arg7 (by decide)
    _ = m ((c : Thread nD τ).loc main_arg7) := rfl

/-- Argument 8 ends as launched: no host stretch writes it and no region changes it. -/
theorem mem8_main_arg8 (c : Dev nD) : mem8 m c (Proc.devRef .tc main_arg8) = m ((c : Thread nD τ).loc main_arg8) :=
  calc mem8 m c (Proc.devRef .tc main_arg8)
    _ = mem7 m c (Proc.devRef .tc main_arg8) := mem8_of_ne m c main_arg8 (by decide)
    _ = mem6 m c (Proc.devRef .tc main_arg8) := mem7_of m c main_arg8 (by decide)
    _ = mem5 m c (Proc.devRef .tc main_arg8) := mem6_of_ne m c main_arg8 (by decide)
    _ = mem4 m c (Proc.devRef .tc main_arg8) := mem5_of m c main_arg8 (by decide)
    _ = mem3 m c (Proc.devRef .tc main_arg8) := mem4_of_ne m c main_arg8 (by decide)
    _ = mem2 m c (Proc.devRef .tc main_arg8) := mem3_of m c main_arg8 (by decide)
    _ = mem1 m c (Proc.devRef .tc main_arg8) := mem2_of_ne m c main_arg8 (by decide)
    _ = mem0 m c (Proc.devRef .tc main_arg8) := mem1_of m c main_arg8 (by decide)
    _ = m ((c : Thread nD τ).loc main_arg8) := rfl

/-- Argument 9 ends as launched: no host stretch writes it and no region changes it. -/
theorem mem8_main_arg9 (c : Dev nD) : mem8 m c (Proc.devRef .tc main_arg9) = m ((c : Thread nD τ).loc main_arg9) :=
  calc mem8 m c (Proc.devRef .tc main_arg9)
    _ = mem7 m c (Proc.devRef .tc main_arg9) := mem8_of_ne m c main_arg9 (by decide)
    _ = mem6 m c (Proc.devRef .tc main_arg9) := mem7_of m c main_arg9 (by decide)
    _ = mem5 m c (Proc.devRef .tc main_arg9) := mem6_of_ne m c main_arg9 (by decide)
    _ = mem4 m c (Proc.devRef .tc main_arg9) := mem5_of m c main_arg9 (by decide)
    _ = mem3 m c (Proc.devRef .tc main_arg9) := mem4_of_ne m c main_arg9 (by decide)
    _ = mem2 m c (Proc.devRef .tc main_arg9) := mem3_of m c main_arg9 (by decide)
    _ = mem1 m c (Proc.devRef .tc main_arg9) := mem2_of_ne m c main_arg9 (by decide)
    _ = mem0 m c (Proc.devRef .tc main_arg9) := mem1_of m c main_arg9 (by decide)
    _ = m ((c : Thread nD τ).loc main_arg9) := rfl

/-- Argument 10 ends as launched: no host stretch writes it and no region changes it. -/
theorem mem8_main_arg10 (c : Dev nD) : mem8 m c (Proc.devRef .tc main_arg10) = m ((c : Thread nD τ).loc main_arg10) :=
  calc mem8 m c (Proc.devRef .tc main_arg10)
    _ = mem7 m c (Proc.devRef .tc main_arg10) := mem8_of_ne m c main_arg10 (by decide)
    _ = mem6 m c (Proc.devRef .tc main_arg10) := mem7_of m c main_arg10 (by decide)
    _ = mem5 m c (Proc.devRef .tc main_arg10) := mem6_of_ne m c main_arg10 (by decide)
    _ = mem4 m c (Proc.devRef .tc main_arg10) := mem5_of m c main_arg10 (by decide)
    _ = mem3 m c (Proc.devRef .tc main_arg10) := mem4_of_ne m c main_arg10 (by decide)
    _ = mem2 m c (Proc.devRef .tc main_arg10) := mem3_of m c main_arg10 (by decide)
    _ = mem1 m c (Proc.devRef .tc main_arg10) := mem2_of_ne m c main_arg10 (by decide)
    _ = mem0 m c (Proc.devRef .tc main_arg10) := mem1_of m c main_arg10 (by decide)
    _ = m ((c : Thread nD τ).loc main_arg10) := rfl

/-- Argument 11 ends as launched: no host stretch writes it and no region changes it. -/
theorem mem8_main_arg11 (c : Dev nD) : mem8 m c (Proc.devRef .tc main_arg11) = m ((c : Thread nD τ).loc main_arg11) :=
  calc mem8 m c (Proc.devRef .tc main_arg11)
    _ = mem7 m c (Proc.devRef .tc main_arg11) := mem8_of_ne m c main_arg11 (by decide)
    _ = mem6 m c (Proc.devRef .tc main_arg11) := mem7_of m c main_arg11 (by decide)
    _ = mem5 m c (Proc.devRef .tc main_arg11) := mem6_of_ne m c main_arg11 (by decide)
    _ = mem4 m c (Proc.devRef .tc main_arg11) := mem5_of m c main_arg11 (by decide)
    _ = mem3 m c (Proc.devRef .tc main_arg11) := mem4_of_ne m c main_arg11 (by decide)
    _ = mem2 m c (Proc.devRef .tc main_arg11) := mem3_of m c main_arg11 (by decide)
    _ = mem1 m c (Proc.devRef .tc main_arg11) := mem2_of_ne m c main_arg11 (by decide)
    _ = mem0 m c (Proc.devRef .tc main_arg11) := mem1_of m c main_arg11 (by decide)
    _ = m ((c : Thread nD τ).loc main_arg11) := rfl

/-! ## The proof data family and what rides along -/

/-- No pipeline has a prefetched table. -/
abbrev noTables : (p : Fin 4) → (pcfgs (F := F) p).Adm := fun p => (cfgs p).toPCfg_adm
/-- Every pipeline's proof data, each at its region's entry contents. -/
def pdata : (p : Fin 4) → (c : Dev nD) → Dat τ (Elt F) Unit ℕ (UR sig nD τ) ℕ (Pipeline.pin (pcfgs (F := F)) noTables p) c
  | ⟨0, _⟩ => fun c => data0 (entry0 m) c
  | ⟨1, _⟩ => fun c => data1 (entry1 m) c
  | ⟨2, _⟩ => fun c => data2 (entry2 m) c
  | ⟨3, _⟩ => fun c => data3 (entry3 m) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
/-- A host stretch as a segment over the unscoped references from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev lastState (c : Dev nD) : sProp 𝕄 := iprop(StableHlo.held (c : Thread nD τ) (Pipeline.ucRefs τ sig) (mem8 m c) ∗ ∃ r, prngReg c r)

/-! ## The regions as segments -/

-- a library lemma stated over the pinned configuration unifies with the printed one only when unification may
-- unfold plain definitions in a metavariable's type
set_option backward.isDefEq.respectTransparency.types false in
/-- Region 0 as a segment of the run: entered with every unscoped buffer at `mem1`, left with them at `mem2`.
    Its windows' arrays are split out of the unscoped buffers on entry and put back, at what the write-backs
    leave, on exit; the generator register rides through the invariant; nothing is owed. -/
def region0 : Pipeline.RegionSeg (pcfgs (F := F)) noTables (pdata m) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noLevels levelZero 0 fun _ _ => rfl
  pre c := iprop(StableHlo.held (c : Thread nD τ) (Pipeline.ucRefs τ sig) (mem1 m c) ∗ riding c)
  post c := iprop(StableHlo.held (c : Thread nD τ) (Pipeline.ucRefs τ sig) (mem2 m c) ∗ riding c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) noTables (pdata m) launch0.win launch0.arr_whole c
      ((pdata m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdata m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdata m) ((pdata m 0 c).share_full fun _ => rfl)
      (entry0 m c) (exit0 m c) ((pdata m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 as a segment of the run: entered with every unscoped buffer at `mem3`, left with them at `mem4`.
    Its windows' arrays are split out of the unscoped buffers on entry and put back, at what the write-backs
    leave, on exit; the generator register rides through the invariant; nothing is owed. -/
def region1 : Pipeline.RegionSeg (pcfgs (F := F)) noTables (pdata m) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noLevels levelZero 1 fun _ _ => rfl
  pre c := iprop(StableHlo.held (c : Thread nD τ) (Pipeline.ucRefs τ sig) (mem3 m c) ∗ riding c)
  post c := iprop(StableHlo.held (c : Thread nD τ) (Pipeline.ucRefs τ sig) (mem4 m c) ∗ riding c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) noTables (pdata m) launch1.win launch1.arr_whole c
      ((pdata m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdata m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdata m) ((pdata m 1 c).share_full fun _ => rfl)
      (entry1 m c) (exit1 m c) ((pdata m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 as a segment of the run: entered with every unscoped buffer at `mem5`, left with them at `mem6`.
    Its windows' arrays are split out of the unscoped buffers on entry and put back, at what the write-backs
    leave, on exit; the generator register rides through the invariant; nothing is owed. -/
def region2 : Pipeline.RegionSeg (pcfgs (F := F)) noTables (pdata m) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ noLevels levelZero 2 fun _ _ => rfl
  pre c := iprop(StableHlo.held (c : Thread nD τ) (Pipeline.ucRefs τ sig) (mem5 m c) ∗ riding c)
  post c := iprop(StableHlo.held (c : Thread nD τ) (Pipeline.ucRefs τ sig) (mem6 m c) ∗ riding c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) noTables (pdata m) launch2.win launch2.arr_whole c
      ((pdata m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdata m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdata m) ((pdata m 2 c).share_full fun _ => rfl)
      (entry2 m c) (exit2 m c) ((pdata m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 as a segment of the run: entered with every unscoped buffer at `mem7`, left with them at `mem8`.
    Its windows' arrays are split out of the unscoped buffers on entry and put back, at what the write-backs
    leave, on exit; the generator register rides through the invariant; nothing is owed. -/
def region3 : Pipeline.RegionSeg (pcfgs (F := F)) noTables (pdata m) () defs₀ noVariants noLevels levelZero 3 where
  win := launch3.win.to₀
  block_pos := launch3.block_pos
  stage_whole := launch3.stage_whole
  K := PEmpty
  osem k := k.elim
  ho := Pipeline.OwnSemFacts.none _
  hbody c := (body_obligation3 (entry3 m) c).loose
  hwaits := Pipeline.hwaits_of_owed_zero _ _ _ _ noLevels levelZero 3 fun _ _ => rfl
  pre c := iprop(StableHlo.held (c : Thread nD τ) (Pipeline.ucRefs τ sig) (mem7 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (entry3 m c)
  hentry c := by
    rw [Pipeline.ownSems0_none]
    have hsplit := Pipeline.arrays_of_unscopedBufs (p := 3) (pcfgs (F := F)) noTables (pdata m) launch3.win launch3.arr_whole c
      ((pdata m 3 c).share_full fun _ => rfl) (entry3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdata m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdata m) ((pdata m 3 c).share_full fun _ => rfl)
      (entry3 m c) (exit3 m c) ((pdata m 3 c).arrAt · cfg3.N) (exit3_arr m c) (exit3_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev allSegs : List (Pipeline.Seg (pcfgs (F := F)) noTables (pdata m) () defs₀ noVariants noLevels levelZero) :=
  [ .host (hostSeg hostOps0 hostOps0_sub hostOps0_fresh (mem0 m)),
    .region (region0 m),
    .host (hostSeg hostOps1 hostOps1_sub hostOps1_fresh (mem2 m)),
    .region (region1 m),
    .host (hostSeg hostOps2 hostOps2_sub hostOps2_fresh (mem4 m)),
    .region (region2 m),
    .host (hostSeg hostOps3 hostOps3_sub hostOps3_fresh (mem6 m)),
    .region (region3 m) ]

theorem main_is_segs (c : Dev nD) : main (F := F) c = Pipeline.Seg.run (allSegs m) := (main_chain c).trans (by chain_rfl)

set_option backward.isDefEq.respectTransparency.types false in
/-- Every weakly fair execution from memory `m` with zero counters terminates, faults nowhere, and ends with
    every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = mem8 m c b) :=
  Pipeline.θ_run_regions_kit (pcfgs (F := F)) noTables (pdata m) () cellOf_inj emb₁ defs₀ noVariants noLevels levelZero m ρ main (allSegs m)
    (fun c Q => by rw [main_is_segs m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ riding c)) (Tₙ := lastState m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem8 m c b)
    (hfin := fun c s' => by
      iintro ⟨⟨Hh, -⟩, HSI⟩
      unfold StableHlo.held
      imodintro
      iapply (pointsTo_read_all (Pipeline.ucRefs τ sig) (fun b => (((c : Thread nD τ)).1, b)) (mem8 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_unscoped main_arg0 (by decide))).trans (mem8_main_arg0 m c),
    (h c _ (mem_unscoped main_arg1 (by decide))).trans (mem8_main_arg1 m c),
    (h c _ (mem_unscoped main_arg2 (by decide))).trans (mem8_main_arg2 m c),
    (h c _ (mem_unscoped main_arg3 (by decide))).trans (mem8_main_arg3 m c),
    (h c _ (mem_unscoped main_arg4 (by decide))).trans (mem8_main_arg4 m c),
    (h c _ (mem_unscoped main_arg5 (by decide))).trans (mem8_main_arg5 m c),
    (h c _ (mem_unscoped main_arg6 (by decide))).trans (mem8_main_arg6 m c),
    (h c _ (mem_unscoped main_arg7 (by decide))).trans (mem8_main_arg7 m c),
    (h c _ (mem_unscoped main_arg8 (by decide))).trans (mem8_main_arg8 m c),
    (h c _ (mem_unscoped main_arg9 (by decide))).trans (mem8_main_arg9 m c),
    (h c _ (mem_unscoped main_arg10 (by decide))).trans (mem8_main_arg10 m c),
    (h c _ (mem_unscoped main_arg11 (by decide))).trans (mem8_main_arg11 m c)⟩) (run_all m ρ)

/-- The run with the result named: the result buffer ends at what the head's region leaves in its output array. -/
theorem run_result (ρ : Dev nD → PrngReg) : θ_run defs (onTc (τ := τ) (main (F := F))) ⟨m, fun _ => 0, ρ⟩ (fun r => ∀ c : Dev nD,
      r.2.mem ((c.tc : Thread nD τ).loc main_v110) = (data3 (entry3 m) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_unscoped main_v110 (by decide))).trans (mem8_arr m c 6),
    (h c _ (mem_unscoped main_arg0 (by decide))).trans (mem8_main_arg0 m c),
    (h c _ (mem_unscoped main_arg1 (by decide))).trans (mem8_main_arg1 m c),
    (h c _ (mem_unscoped main_arg2 (by decide))).trans (mem8_main_arg2 m c),
    (h c _ (mem_unscoped main_arg3 (by decide))).trans (mem8_main_arg3 m c),
    (h c _ (mem_unscoped main_arg4 (by decide))).trans (mem8_main_arg4 m c),
    (h c _ (mem_unscoped main_arg5 (by decide))).trans (mem8_main_arg5 m c),
    (h c _ (mem_unscoped main_arg6 (by decide))).trans (mem8_main_arg6 m c),
    (h c _ (mem_unscoped main_arg7 (by decide))).trans (mem8_main_arg7 m c),
    (h c _ (mem_unscoped main_arg8 (by decide))).trans (mem8_main_arg8 m c),
    (h c _ (mem_unscoped main_arg9 (by decide))).trans (mem8_main_arg9 m c),
    (h c _ (mem_unscoped main_arg10 (by decide))).trans (mem8_main_arg10 m c),
    (h c _ (mem_unscoped main_arg11 (by decide))).trans (mem8_main_arg11 m c)⟩) (run_all m ρ)

end Cert.Kernel.Layers

end
-- ==== Proof.IdealLayer0.lean ====
/-
  Region 0 of the program: the multilayer-perceptron stage of graph-isomorphism layer 1,
  `out = max((1+eps)·h + agg) W1 + b1, 0) W2 + b2`, tiled over ten row blocks of 5000 nodes.
  Everything here is stated at the contents `V` the region finds in the core's buffers, and at any
  float instance: a window's block at a grid point; what one run of the body leaves in the output's
  staging buffer (a single store of the whole 5000×128 block, its value the body's arithmetic on the
  seven input blocks); that the body, run on staging buffers holding the input blocks, ends with the
  inputs untouched and the output at that value; and from it the pipeline's per-point obligation.
-/
import proofs.«110857_j32409823216461_2_alg».proof.Proof.Gen.KernelIdeal.Launch
import proofs.«110857_j32409823216461_2_alg».proof.Proof.Gen.KernelIdeal.Skeleton
import proofs.«110857_j32409823216461_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `5000·t … 5000·t+4999` of a tiled array, the whole
    array of a resident one, read off the contents the region finds. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or an
    earlier one did and the block index has not moved since. -/
theorem held0_0 {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- Input window 1's staging buffer holds its block at every point, whether the point fetched it or an
    earlier one did and the block index has not moved since. -/
theorem held0_1 {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- Input window 2's staging buffer holds its block at every point, whether the point fetched it or an
    earlier one did and the block index has not moved since. -/
theorem held0_2 {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- Input window 3's staging buffer holds its block at every point, whether the point fetched it or an
    earlier one did and the block index has not moved since. -/
theorem held0_3 {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)

/-- Input window 4's staging buffer holds its block at every point, whether the point fetched it or an
    earlier one did and the block index has not moved since. -/
theorem held0_4 {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-- Input window 5's staging buffer holds its block at every point, whether the point fetched it or an
    earlier one did and the block index has not moved since. -/
theorem held0_5 {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)

/-- Input window 6's staging buffer holds its block at every point, whether the point fetched it or an
    earlier one did and the block index has not moved since. -/
theorem held0_6 {c : Dev nD} (dat : Dat τ (Elt F) Unit ℕ (UR sig nD τ) ℕ cfg0 c) (hA : dat.A 6 = V c (Pipeline.arrRef spec0 6))
    (hafter : ∀ t, dat.after 6 t = blockAt0 V c 6 t) (t : Fin cfg0.N) (d) : dat.before 6 t d = blockAt0 V c 6 t :=
  (dat.before_in_eq_fetched 6 rfl (fun _ => rfl) (fun _ _ _ => rfl) (fun t => by rw [hafter]; unfold Dat.blockOf blockAt0; rw [hA]; try rfl) t d).trans
    (by unfold Dat.fetched Dat.blockOf blockAt0; rw [hA]; try rfl)

/-- The whole 5000×128 block, the 1×1 cell, a whole 128×128 weight and a whole 1×128 bias row: the
    rectangles the body loads and stores through. -/
abbrev rows0 : Rect S5000x128 := Rect.unit (s := S5000x128) ![0, 0] S5000x128.size inb_S5000x128_S5000x128_0_0
abbrev cell0 : Rect S1x1 := Rect.unit (s := S1x1) ![0, 0] S1x1.size inb_S1x1_S1x1_0_0
abbrev weight0 : Rect S128x128 := Rect.unit (s := S128x128) ![0, 0] S128x128.size inb_S128x128_S128x128_0_0
abbrev bias0 : Rect S1x128 := Rect.unit (s := S1x128) ![0, 0] S1x128.size inb_S1x128_S1x128_0_0

/-- What one run of the body leaves in the output's staging buffer: its one store, of the whole block,
    of the layer's arithmetic on the seven input blocks. -/
def stored0 (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32) : Vec F S5000x128 .f32 :=
  View.canon [⟨rows0, k0_pay1 (View.ld x0 rows0) (View.ld x1 rows0) (View.ld x2 cell0) (View.ld x3 weight0) (View.ld x4 bias0) (View.ld x5 weight0) (View.ld x6 bias0)⟩]

/-- The one store covers the buffer. -/
theorem stored0_cover (p0 : Vec F S5000x128 .f32) (y : S5000x128.Idx) :
    ∃ pc ∈ ([⟨rows0, p0⟩] : List (View.Piece (Elt F) S5000x128 .f32)), y ∈ pc.1.set :=
  View.cover_of_tiled [⟨rows0, p0⟩] S5000x128.size (by rfl) y

set_option maxHeartbeats 1000000 in
/-- The body on whole staging buffers, the inputs' holding `x0 … x6` and the output's anything, runs to the
    end with the inputs' as they were and the output's at `stored0` of them. -/
theorem body_run0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored0 x0 x1 x2 x3 x4 x5 x6)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored0_cover _)

/-- The pipeline's proof data on core `c`: the arrays as the region finds them; after the body at point `t`
    each input's buffer still at its block and the output's at `stored0` of the input blocks; nothing owed. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => blockAt0 V c 6 t
    | ⟨7, _⟩ => stored0 (blockAt0 V c 0 t) (blockAt0 V c 1 t) (blockAt0 V c 2 t) (blockAt0 V c 3 t) (blockAt0 V c 4 t) (blockAt0 V c 5 t) (blockAt0 V c 6 t)
  Φ _ := Pipeline.ΦA spec0 c
  q _ := fullShare
  owed _ := 0

theorem data0_A (c : Dev nD) (w : Fin cfg0.W) : (data0 V c).A w = V c (Pipeline.arrRef spec0 w) := by
  dsimp only [data0]

theorem data0_after_0 (c : Dev nD) (t : Fin cfg0.N) : (data0 V c).after 0 t = blockAt0 V c 0 t := by dsimp only [data0]
theorem data0_after_1 (c : Dev nD) (t : Fin cfg0.N) : (data0 V c).after 1 t = blockAt0 V c 1 t := by dsimp only [data0]
theorem data0_after_2 (c : Dev nD) (t : Fin cfg0.N) : (data0 V c).after 2 t = blockAt0 V c 2 t := by dsimp only [data0]
theorem data0_after_3 (c : Dev nD) (t : Fin cfg0.N) : (data0 V c).after 3 t = blockAt0 V c 3 t := by dsimp only [data0]
theorem data0_after_4 (c : Dev nD) (t : Fin cfg0.N) : (data0 V c).after 4 t = blockAt0 V c 4 t := by dsimp only [data0]
theorem data0_after_5 (c : Dev nD) (t : Fin cfg0.N) : (data0 V c).after 5 t = blockAt0 V c 5 t := by dsimp only [data0]
theorem data0_after_6 (c : Dev nD) (t : Fin cfg0.N) : (data0 V c).after 6 t = blockAt0 V c 6 t := by dsimp only [data0]
theorem data0_after_7 (c : Dev nD) (t : Fin cfg0.N) : (data0 V c).after 7 t =
    stored0 (blockAt0 V c 0 t) (blockAt0 V c 1 t) (blockAt0 V c 2 t) (blockAt0 V c 3 t) (blockAt0 V c 4 t) (blockAt0 V c 5 t) (blockAt0 V c 6 t) := by dsimp only [data0]

theorem data0_before_0 (c : Dev nD) (t : Fin cfg0.N) (d) : (data0 V c).before 0 t d = blockAt0 V c 0 t :=
  held0_0 V (data0 V c) (data0_A V c 0) (data0_after_0 V c) t d
theorem data0_before_1 (c : Dev nD) (t : Fin cfg0.N) (d) : (data0 V c).before 1 t d = blockAt0 V c 1 t :=
  held0_1 V (data0 V c) (data0_A V c 1) (data0_after_1 V c) t d
theorem data0_before_2 (c : Dev nD) (t : Fin cfg0.N) (d) : (data0 V c).before 2 t d = blockAt0 V c 2 t :=
  held0_2 V (data0 V c) (data0_A V c 2) (data0_after_2 V c) t d
theorem data0_before_3 (c : Dev nD) (t : Fin cfg0.N) (d) : (data0 V c).before 3 t d = blockAt0 V c 3 t :=
  held0_3 V (data0 V c) (data0_A V c 3) (data0_after_3 V c) t d
theorem data0_before_4 (c : Dev nD) (t : Fin cfg0.N) (d) : (data0 V c).before 4 t d = blockAt0 V c 4 t :=
  held0_4 V (data0 V c) (data0_A V c 4) (data0_after_4 V c) t d
theorem data0_before_5 (c : Dev nD) (t : Fin cfg0.N) (d) : (data0 V c).before 5 t d = blockAt0 V c 5 t :=
  held0_5 V (data0 V c) (data0_A V c 5) (data0_after_5 V c) t d
theorem data0_before_6 (c : Dev nD) (t : Fin cfg0.N) (d) : (data0 V c).before 6 t d = blockAt0 V c 6 t :=
  held0_6 V (data0 V c) (data0_A V c 6) (data0_after_6 V c) t d

/-- What the body is called with at point `t`, window by window, -/
def bodyPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d)))

/-- and what it returns. -/
def bodyPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t))

/-- The body at any point: the inputs' buffers hold their blocks, so `body_run0` applies. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [data0_before_0, data0_before_1, data0_before_2, data0_before_3, data0_before_4, data0_before_5, data0_before_6]
  rw [show (data0 V c).Φ t.succ = (data0 V c).Φ t.castSucc from rfl,
    show (data0 V c).owesAt () t.succ = (data0 V c).owesAt () t.castSucc from rfl,
    data0_after_0, data0_after_1, data0_after_2, data0_after_3, data0_after_4, data0_after_5, data0_after_6, data0_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run0 c Set.univ (grid0.coords t) _ _ _ _ _ _ _ _ _ _ _ _ _ _ _ _
    (blockAt0 V c 0 t) (blockAt0 V c 1 t) (blockAt0 V c 2 t) (blockAt0 V c 3 t) (blockAt0 V c 4 t) (blockAt0 V c 5 t) (blockAt0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation0 (c : Dev nD) : BodyObligation (data0 (F := F) V c) (defs₀ (F := F)) Variants.none () Set.univ := fun t => by
  rw [bigSep_W0, bigSep_W0]
  exact body_at0 V c t

end Cert.KernelIdeal.Layers

end
-- ==== Proof.IdealLayer1.lean ====
/-
  Region 1 of the program: the multilayer-perceptron stage of graph-isomorphism layer 2,
  `out = max((1+eps)·h + agg) W1 + b1, 0) W2 + b2`, tiled over ten row blocks of 5000 nodes.
  Everything here is stated at the contents `V` the region finds in the core's buffers, and at any
  float instance: a window's block at a grid point; what one run of the body leaves in the output's
  staging buffer (a single store of the whole 5000×128 block, its value the body's arithmetic on the
  seven input blocks); that the body, run on staging buffers holding the input blocks, ends with the
  inputs untouched and the output at that value; and from it the pipeline's per-point obligation.
-/
import proofs.«110857_j32409823216461_2_alg».proof.Proof.Gen.KernelIdeal.Launch
import proofs.«110857_j32409823216461_2_alg».proof.Proof.Gen.KernelIdeal.Skeleton
import proofs.«110857_j32409823216461_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `5000·t … 5000·t+4999` of a tiled array, the whole
    array of a resident one, read off the contents the region finds. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or an
    earlier one did and the block index has not moved since. -/
theorem held1_0 {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- Input window 1's staging buffer holds its block at every point, whether the point fetched it or an
    earlier one did and the block index has not moved since. -/
theorem held1_1 {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- Input window 2's staging buffer holds its block at every point, whether the point fetched it or an
    earlier one did and the block index has not moved since. -/
theorem held1_2 {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- Input window 3's staging buffer holds its block at every point, whether the point fetched it or an
    earlier one did and the block index has not moved since. -/
theorem held1_3 {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)

/-- Input window 4's staging buffer holds its block at every point, whether the point fetched it or an
    earlier one did and the block index has not moved since. -/
theorem held1_4 {c : Dev nD} (dat : Dat τ (Elt F) Unit ℕ (UR sig nD τ) ℕ cfg1 c) (hA : dat.A 4 = V c (Pipeline.arrRef spec1 4))
    (hafter : ∀ t, dat.after 4 t = blockAt1 V c 4 t) (t : Fin cfg1.N) (d) : dat.before 4 t d = blockAt1 V c 4 t :=
  (dat.before_in_eq_fetched 4 rfl (fun _ => rfl) (fun _ _ _ => rfl) (fun t => by rw [hafter]; unfold Dat.blockOf blockAt1; rw [hA]; try rfl) t d).trans
    (by unfold Dat.fetched Dat.blockOf blockAt1; rw [hA]; try rfl)

/-- Input window 5's staging buffer holds its block at every point, whether the point fetched it or an
    earlier one did and the block index has not moved since. -/
theorem held1_5 {c : Dev nD} (dat : Dat τ (Elt F) Unit ℕ (UR sig nD τ) ℕ cfg1 c) (hA : dat.A 5 = V c (Pipeline.arrRef spec1 5))
    (hafter : ∀ t, dat.after 5 t = blockAt1 V c 5 t) (t : Fin cfg1.N) (d) : dat.before 5 t d = blockAt1 V c 5 t :=
  (dat.before_in_eq_fetched 5 rfl (fun _ => rfl) (fun _ _ _ => rfl) (fun t => by rw [hafter]; unfold Dat.blockOf blockAt1; rw [hA]; try rfl) t d).trans
    (by unfold Dat.fetched Dat.blockOf blockAt1; rw [hA]; try rfl)

/-- Input window 6's staging buffer holds its block at every point, whether the point fetched it or an
    earlier one did and the block index has not moved since. -/
theorem held1_6 {c : Dev nD} (dat : Dat τ (Elt F) Unit ℕ (UR sig nD τ) ℕ cfg1 c) (hA : dat.A 6 = V c (Pipeline.arrRef spec1 6))
    (hafter : ∀ t, dat.after 6 t = blockAt1 V c 6 t) (t : Fin cfg1.N) (d) : dat.before 6 t d = blockAt1 V c 6 t :=
  (dat.before_in_eq_fetched 6 rfl (fun _ => rfl) (fun _ _ _ => rfl) (fun t => by rw [hafter]; unfold Dat.blockOf blockAt1; rw [hA]; try rfl) t d).trans
    (by unfold Dat.fetched Dat.blockOf blockAt1; rw [hA]; try rfl)

/-- The whole 5000×128 block, the 1×1 cell, a whole 128×128 weight and a whole 1×128 bias row: the
    rectangles the body loads and stores through. -/
abbrev rows1 : Rect S5000x128 := Rect.unit (s := S5000x128) ![0, 0] S5000x128.size inb_S5000x128_S5000x128_0_0
abbrev cell1 : Rect S1x1 := Rect.unit (s := S1x1) ![0, 0] S1x1.size inb_S1x1_S1x1_0_0
abbrev weight1 : Rect S128x128 := Rect.unit (s := S128x128) ![0, 0] S128x128.size inb_S128x128_S128x128_0_0
abbrev bias1 : Rect S1x128 := Rect.unit (s := S1x128) ![0, 0] S1x128.size inb_S1x128_S1x128_0_0

/-- What one run of the body leaves in the output's staging buffer: its one store, of the whole block,
    of the layer's arithmetic on the seven input blocks. -/
def stored1 (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32) : Vec F S5000x128 .f32 :=
  View.canon [⟨rows1, k1_pay1 (View.ld x0 rows1) (View.ld x1 rows1) (View.ld x2 cell1) (View.ld x3 weight1) (View.ld x4 bias1) (View.ld x5 weight1) (View.ld x6 bias1)⟩]

/-- The one store covers the buffer. -/
theorem stored1_cover (p0 : Vec F S5000x128 .f32) (y : S5000x128.Idx) :
    ∃ pc ∈ ([⟨rows1, p0⟩] : List (View.Piece (Elt F) S5000x128 .f32)), y ∈ pc.1.set :=
  View.cover_of_tiled [⟨rows1, p0⟩] S5000x128.size (by rfl) y

set_option maxHeartbeats 1000000 in
/-- The body on whole staging buffers, the inputs' holding `x0 … x6` and the output's anything, runs to the
    end with the inputs' as they were and the output's at `stored1` of them. -/
theorem body_run1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored1 x0 x1 x2 x3 x4 x5 x6)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored1_cover _)

/-- The pipeline's proof data on core `c`: the arrays as the region finds them; after the body at point `t`
    each input's buffer still at its block and the output's at `stored1` of the input blocks; nothing owed. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => blockAt1 V c 5 t
    | ⟨6, _⟩ => blockAt1 V c 6 t
    | ⟨7, _⟩ => stored1 (blockAt1 V c 0 t) (blockAt1 V c 1 t) (blockAt1 V c 2 t) (blockAt1 V c 3 t) (blockAt1 V c 4 t) (blockAt1 V c 5 t) (blockAt1 V c 6 t)
  Φ _ := Pipeline.ΦA spec1 c
  q _ := fullShare
  owed _ := 0

theorem data1_A (c : Dev nD) (w : Fin cfg1.W) : (data1 V c).A w = V c (Pipeline.arrRef spec1 w) := by
  dsimp only [data1]

theorem data1_after_0 (c : Dev nD) (t : Fin cfg1.N) : (data1 V c).after 0 t = blockAt1 V c 0 t := by dsimp only [data1]
theorem data1_after_1 (c : Dev nD) (t : Fin cfg1.N) : (data1 V c).after 1 t = blockAt1 V c 1 t := by dsimp only [data1]
theorem data1_after_2 (c : Dev nD) (t : Fin cfg1.N) : (data1 V c).after 2 t = blockAt1 V c 2 t := by dsimp only [data1]
theorem data1_after_3 (c : Dev nD) (t : Fin cfg1.N) : (data1 V c).after 3 t = blockAt1 V c 3 t := by dsimp only [data1]
theorem data1_after_4 (c : Dev nD) (t : Fin cfg1.N) : (data1 V c).after 4 t = blockAt1 V c 4 t := by dsimp only [data1]
theorem data1_after_5 (c : Dev nD) (t : Fin cfg1.N) : (data1 V c).after 5 t = blockAt1 V c 5 t := by dsimp only [data1]
theorem data1_after_6 (c : Dev nD) (t : Fin cfg1.N) : (data1 V c).after 6 t = blockAt1 V c 6 t := by dsimp only [data1]
theorem data1_after_7 (c : Dev nD) (t : Fin cfg1.N) : (data1 V c).after 7 t =
    stored1 (blockAt1 V c 0 t) (blockAt1 V c 1 t) (blockAt1 V c 2 t) (blockAt1 V c 3 t) (blockAt1 V c 4 t) (blockAt1 V c 5 t) (blockAt1 V c 6 t) := by dsimp only [data1]

theorem data1_before_0 (c : Dev nD) (t : Fin cfg1.N) (d) : (data1 V c).before 0 t d = blockAt1 V c 0 t :=
  held1_0 V (data1 V c) (data1_A V c 0) (data1_after_0 V c) t d
theorem data1_before_1 (c : Dev nD) (t : Fin cfg1.N) (d) : (data1 V c).before 1 t d = blockAt1 V c 1 t :=
  held1_1 V (data1 V c) (data1_A V c 1) (data1_after_1 V c) t d
theorem data1_before_2 (c : Dev nD) (t : Fin cfg1.N) (d) : (data1 V c).before 2 t d = blockAt1 V c 2 t :=
  held1_2 V (data1 V c) (data1_A V c 2) (data1_after_2 V c) t d
theorem data1_before_3 (c : Dev nD) (t : Fin cfg1.N) (d) : (data1 V c).before 3 t d = blockAt1 V c 3 t :=
  held1_3 V (data1 V c) (data1_A V c 3) (data1_after_3 V c) t d
theorem data1_before_4 (c : Dev nD) (t : Fin cfg1.N) (d) : (data1 V c).before 4 t d = blockAt1 V c 4 t :=
  held1_4 V (data1 V c) (data1_A V c 4) (data1_after_4 V c) t d
theorem data1_before_5 (c : Dev nD) (t : Fin cfg1.N) (d) : (data1 V c).before 5 t d = blockAt1 V c 5 t :=
  held1_5 V (data1 V c) (data1_A V c 5) (data1_after_5 V c) t d
theorem data1_before_6 (c : Dev nD) (t : Fin cfg1.N) (d) : (data1 V c).before 6 t d = blockAt1 V c 6 t :=
  held1_6 V (data1 V c) (data1_A V c 6) (data1_after_6 V c) t d

/-- What the body is called with at point `t`, window by window, -/
def bodyPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d)))

/-- and what it returns. -/
def bodyPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t)
    ∗ owns (c : Thread nD τ) (st1_7 t) fullShare ((data1 V c).after 7 t))

/-- The body at any point: the inputs' buffers hold their blocks, so `body_run1` applies. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [data1_before_0, data1_before_1, data1_before_2, data1_before_3, data1_before_4, data1_before_5, data1_before_6]
  rw [show (data1 V c).Φ t.succ = (data1 V c).Φ t.castSucc from rfl,
    show (data1 V c).owesAt () t.succ = (data1 V c).owesAt () t.castSucc from rfl,
    data1_after_0, data1_after_1, data1_after_2, data1_after_3, data1_after_4, data1_after_5, data1_after_6, data1_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run1 c Set.univ (grid1.coords t) _ _ _ _ _ _ _ _ _ _ _ _ _ _ _ _
    (blockAt1 V c 0 t) (blockAt1 V c 1 t) (blockAt1 V c 2 t) (blockAt1 V c 3 t) (blockAt1 V c 4 t) (blockAt1 V c 5 t) (blockAt1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation1 (c : Dev nD) : BodyObligation (data1 (F := F) V c) (defs₀ (F := F)) Variants.none () Set.univ := fun t => by
  rw [bigSep_W1, bigSep_W1]
  exact body_at1 V c t

end Cert.KernelIdeal.Layers

end
-- ==== Proof.IdealLayer2.lean ====
/-
  Region 2 of the program: the multilayer-perceptron stage of graph-isomorphism layer 3,
  `out = max((1+eps)·h + agg) W1 + b1, 0) W2 + b2`, tiled over ten row blocks of 5000 nodes.
  Everything here is stated at the contents `V` the region finds in the core's buffers, and at any
  float instance: a window's block at a grid point; what one run of the body leaves in the output's
  staging buffer (a single store of the whole 5000×128 block, its value the body's arithmetic on the
  seven input blocks); that the body, run on staging buffers holding the input blocks, ends with the
  inputs untouched and the output at that value; and from it the pipeline's per-point obligation.
-/
import proofs.«110857_j32409823216461_2_alg».proof.Proof.Gen.KernelIdeal.Launch
import proofs.«110857_j32409823216461_2_alg».proof.Proof.Gen.KernelIdeal.Skeleton
import proofs.«110857_j32409823216461_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `5000·t … 5000·t+4999` of a tiled array, the whole
    array of a resident one, read off the contents the region finds. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetched it or an
    earlier one did and the block index has not moved since. -/
theorem held2_0 {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- Input window 1's staging buffer holds its block at every point, whether the point fetched it or an
    earlier one did and the block index has not moved since. -/
theorem held2_1 {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- Input window 2's staging buffer holds its block at every point, whether the point fetched it or an
    earlier one did and the block index has not moved since. -/
theorem held2_2 {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)

/-- Input window 3's staging buffer holds its block at every point, whether the point fetched it or an
    earlier one did and the block index has not moved since. -/
theorem held2_3 {c : Dev nD} (dat : Dat τ (Elt F) Unit ℕ (UR sig nD τ) ℕ cfg2 c) (hA : dat.A 3 = V c (Pipeline.arrRef spec2 3))
    (hafter : ∀ t, dat.after 3 t = blockAt2 V c 3 t) (t : Fin cfg2.N) (d) : dat.before 3 t d = blockAt2 V c 3 t :=
  (dat.before_in_eq_fetched 3 rfl (fun _ => rfl) (fun _ _ _ => rfl) (fun t => by rw [hafter]; unfold Dat.blockOf blockAt2; rw [hA]; try rfl) t d).trans
    (by unfold Dat.fetched Dat.blockOf blockAt2; rw [hA]; try rfl)

/-- Input window 4's staging buffer holds its block at every point, whether the point fetched it or an
    earlier one did and the block index has not moved since. -/
theorem held2_4 {c : Dev nD} (dat : Dat τ (Elt F) Unit ℕ (UR sig nD τ) ℕ cfg2 c) (hA : dat.A 4 = V c (Pipeline.arrRef spec2 4))
    (hafter : ∀ t, dat.after 4 t = blockAt2 V c 4 t) (t : Fin cfg2.N) (d) : dat.before 4 t d = blockAt2 V c 4 t :=
  (dat.before_in_eq_fetched 4 rfl (fun _ => rfl) (fun _ _ _ => rfl) (fun t => by rw [hafter]; unfold Dat.blockOf blockAt2; rw [hA]; try rfl) t d).trans
    (by unfold Dat.fetched Dat.blockOf blockAt2; rw [hA]; try rfl)

/-- Input window 5's staging buffer holds its block at every point, whether the point fetched it or an
    earlier one did and the block index has not moved since. -/
theorem held2_5 {c : Dev nD} (dat : Dat τ (Elt F) Unit ℕ (UR sig nD τ) ℕ cfg2 c) (hA : dat.A 5 = V c (Pipeline.arrRef spec2 5))
    (hafter : ∀ t, dat.after 5 t = blockAt2 V c 5 t) (t : Fin cfg2.N) (d) : dat.before 5 t d = blockAt2 V c 5 t :=
  (dat.before_in_eq_fetched 5 rfl (fun _ => rfl) (fun _ _ _ => rfl) (fun t => by rw [hafter]; unfold Dat.blockOf blockAt2; rw [hA]; try rfl) t d).trans
    (by unfold Dat.fetched Dat.blockOf blockAt2; rw [hA]; try rfl)

/-- Input window 6's staging buffer holds its block at every point, whether the point fetched it or an
    earlier one did and the block index has not moved since. -/
theorem held2_6 {c : Dev nD} (dat : Dat τ (Elt F) Unit ℕ (UR sig nD τ) ℕ cfg2 c) (hA : dat.A 6 = V c (Pipeline.arrRef spec2 6))
    (hafter : ∀ t, dat.after 6 t = blockAt2 V c 6 t) (t : Fin cfg2.N) (d) : dat.before 6 t d = blockAt2 V c 6 t :=
  (dat.before_in_eq_fetched 6 rfl (fun _ => rfl) (fun _ _ _ => rfl) (fun t => by rw [hafter]; unfold Dat.blockOf blockAt2; rw [hA]; try rfl) t d).trans
    (by unfold Dat.fetched Dat.blockOf blockAt2; rw [hA]; try rfl)

/-- The whole 5000×128 block, the 1×1 cell, a whole 128×128 weight and a whole 1×128 bias row: the
    rectangles the body loads and stores through. -/
abbrev rows2 : Rect S5000x128 := Rect.unit (s := S5000x128) ![0, 0] S5000x128.size inb_S5000x128_S5000x128_0_0
abbrev cell2 : Rect S1x1 := Rect.unit (s := S1x1) ![0, 0] S1x1.size inb_S1x1_S1x1_0_0
abbrev weight2 : Rect S128x128 := Rect.unit (s := S128x128) ![0, 0] S128x128.size inb_S128x128_S128x128_0_0
abbrev bias2 : Rect S1x128 := Rect.unit (s := S1x128) ![0, 0] S1x128.size inb_S1x128_S1x128_0_0

/-- What one run of the body leaves in the output's staging buffer: its one store, of the whole block,
    of the layer's arithmetic on the seven input blocks. -/
def stored2 (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32) : Vec F S5000x128 .f32 :=
  View.canon [⟨rows2, k2_pay1 (View.ld x0 rows2) (View.ld x1 rows2) (View.ld x2 cell2) (View.ld x3 weight2) (View.ld x4 bias2) (View.ld x5 weight2) (View.ld x6 bias2)⟩]

/-- The one store covers the buffer. -/
theorem stored2_cover (p0 : Vec F S5000x128 .f32) (y : S5000x128.Idx) :
    ∃ pc ∈ ([⟨rows2, p0⟩] : List (View.Piece (Elt F) S5000x128 .f32)), y ∈ pc.1.set :=
  View.cover_of_tiled [⟨rows2, p0⟩] S5000x128.size (by rfl) y

set_option maxHeartbeats 1000000 in
/-- The body on whole staging buffers, the inputs' holding `x0 … x6` and the output's anything, runs to the
    end with the inputs' as they were and the output's at `stored2` of them. -/
theorem body_run2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S1x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S1x1 .f32) (x3 : Vec F S128x128 .bf16) (x4 : Vec F S1x128 .f32) (x5 : Vec F S128x128 .bf16) (x6 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored2 x0 x1 x2 x3 x4 x5 x6)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored2_cover _)

/-- The pipeline's proof data on core `c`: the arrays as the region finds them; after the body at point `t`
    each input's buffer still at its block and the output's at `stored2` of the input blocks; nothing owed. -/
def data2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => blockAt2 V c 5 t
    | ⟨6, _⟩ => blockAt2 V c 6 t
    | ⟨7, _⟩ => stored2 (blockAt2 V c 0 t) (blockAt2 V c 1 t) (blockAt2 V c 2 t) (blockAt2 V c 3 t) (blockAt2 V c 4 t) (blockAt2 V c 5 t) (blockAt2 V c 6 t)
  Φ _ := Pipeline.ΦA spec2 c
  q _ := fullShare
  owed _ := 0

theorem data2_A (c : Dev nD) (w : Fin cfg2.W) : (data2 V c).A w = V c (Pipeline.arrRef spec2 w) := by
  dsimp only [data2]

theorem data2_after_0 (c : Dev nD) (t : Fin cfg2.N) : (data2 V c).after 0 t = blockAt2 V c 0 t := by dsimp only [data2]
theorem data2_after_1 (c : Dev nD) (t : Fin cfg2.N) : (data2 V c).after 1 t = blockAt2 V c 1 t := by dsimp only [data2]
theorem data2_after_2 (c : Dev nD) (t : Fin cfg2.N) : (data2 V c).after 2 t = blockAt2 V c 2 t := by dsimp only [data2]
theorem data2_after_3 (c : Dev nD) (t : Fin cfg2.N) : (data2 V c).after 3 t = blockAt2 V c 3 t := by dsimp only [data2]
theorem data2_after_4 (c : Dev nD) (t : Fin cfg2.N) : (data2 V c).after 4 t = blockAt2 V c 4 t := by dsimp only [data2]
theorem data2_after_5 (c : Dev nD) (t : Fin cfg2.N) : (data2 V c).after 5 t = blockAt2 V c 5 t := by dsimp only [data2]
theorem data2_after_6 (c : Dev nD) (t : Fin cfg2.N) : (data2 V c).after 6 t = blockAt2 V c 6 t := by dsimp only [data2]
theorem data2_after_7 (c : Dev nD) (t : Fin cfg2.N) : (data2 V c).after 7 t =
    stored2 (blockAt2 V c 0 t) (blockAt2 V c 1 t) (blockAt2 V c 2 t) (blockAt2 V c 3 t) (blockAt2 V c 4 t) (blockAt2 V c 5 t) (blockAt2 V c 6 t) := by dsimp only [data2]

theorem data2_before_0 (c : Dev nD) (t : Fin cfg2.N) (d) : (data2 V c).before 0 t d = blockAt2 V c 0 t :=
  held2_0 V (data2 V c) (data2_A V c 0) (data2_after_0 V c) t d
theorem data2_before_1 (c : Dev nD) (t : Fin cfg2.N) (d) : (data2 V c).before 1 t d = blockAt2 V c 1 t :=
  held2_1 V (data2 V c) (data2_A V c 1) (data2_after_1 V c) t d
theorem data2_before_2 (c : Dev nD) (t : Fin cfg2.N) (d) : (data2 V c).before 2 t d = blockAt2 V c 2 t :=
  held2_2 V (data2 V c) (data2_A V c 2) (data2_after_2 V c) t d
theorem data2_before_3 (c : Dev nD) (t : Fin cfg2.N) (d) : (data2 V c).before 3 t d = blockAt2 V c 3 t :=
  held2_3 V (data2 V c) (data2_A V c 3) (data2_after_3 V c) t d
theorem data2_before_4 (c : Dev nD) (t : Fin cfg2.N) (d) : (data2 V c).before 4 t d = blockAt2 V c 4 t :=
  held2_4 V (data2 V c) (data2_A V c 4) (data2_after_4 V c) t d
theorem data2_before_5 (c : Dev nD) (t : Fin cfg2.N) (d) : (data2 V c).before 5 t d = blockAt2 V c 5 t :=
  held2_5 V (data2 V c) (data2_A V c 5) (data2_after_5 V c) t d
theorem data2_before_6 (c : Dev nD) (t : Fin cfg2.N) (d) : (data2 V c).before 6 t d = blockAt2 V c 6 t :=
  held2_6 V (data2 V c) (data2_A V c 6) (data2_after_6 V c) t d

/-- What the body is called with at point `t`, window by window, -/
def bodyPre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d))
    ∗ (∃ d, owns (c : Thread nD τ) (st2_4 t) fullShare ((data2 V c).before 4 t d))
    ∗ (∃ d, owns (c : Thread nD τ) (st2_5 t) fullShare ((data2 V c).before 5 t d))
    ∗ (∃ d, owns (c : Thread nD τ) (st2_6 t) fullShare ((data2 V c).before 6 t d))
    ∗ (∃ d, owns (c : Thread nD τ) (st2_7 t) fullShare ((data2 V c).before 7 t d)))

/-- and what it returns. -/
def bodyPost2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t)
    ∗ owns (c : Thread nD τ) (st2_4 t) fullShare ((data2 V c).after 4 t)
    ∗ owns (c : Thread nD τ) (st2_5 t) fullShare ((data2 V c).after 5 t)
    ∗ owns (c : Thread nD τ) (st2_6 t) fullShare ((data2 V c).after 6 t)
    ∗ owns (c : Thread nD τ) (st2_7 t) fullShare ((data2 V c).after 7 t))

/-- The body at any point: the inputs' buffers hold their blocks, so `body_run2` applies. -/
theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [data2_before_0, data2_before_1, data2_before_2, data2_before_3, data2_before_4, data2_before_5, data2_before_6]
  rw [show (data2 V c).Φ t.succ = (data2 V c).Φ t.castSucc from rfl,
    show (data2 V c).owesAt () t.succ = (data2 V c).owesAt () t.castSucc from rfl,
    data2_after_0, data2_after_1, data2_after_2, data2_after_3, data2_after_4, data2_after_5, data2_after_6, data2_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run2 c Set.univ (grid2.coords t) _ _ _ _ _ _ _ _ _ _ _ _ _ _ _ _
    (blockAt2 V c 0 t) (blockAt2 V c 1 t) (blockAt2 V c 2 t) (blockAt2 V c 3 t) (blockAt2 V c 4 t) (blockAt2 V c 5 t) (blockAt2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation2 (c : Dev nD) : BodyObligation (data2 (F := F) V c) (defs₀ (F := F)) Variants.none () Set.univ := fun t => by
  rw [bigSep_W2, bigSep_W2]
  exact body_at2 V c t

end Cert.KernelIdeal.Layers

end
-- ==== Proof.IdealHead.lean ====
/-
  Region 3 of the program: the read-out head on one grid point. From the per-graph feature sums
  [64,384] and node counts [64,1] it forms the graph means `sums / max(counts, 1)`, adds them over the 64
  graphs, and applies two dense layers with a rectifier after each: [1,384]·[384,128] + bias, then
  [1,128]·[128,64] + bias. Stated, like the layer regions, at the contents `V` the region finds and at any
  float instance: the blocks, what the body's one store leaves, the body's run, the pipeline's obligation.
-/
import proofs.«110857_j32409823216461_2_alg».proof.Proof.Gen.KernelIdeal.Launch
import proofs.«110857_j32409823216461_2_alg».proof.Proof.Gen.KernelIdeal.Skeleton
import proofs.«110857_j32409823216461_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one grid point: the whole array, read off the contents the region finds. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point. -/
theorem held3_0 {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- Input window 1's staging buffer holds its block at the point. -/
theorem held3_1 {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- Input window 2's staging buffer holds its block at the point. -/
theorem held3_2 {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)

/-- Input window 3's staging buffer holds its block at the point. -/
theorem held3_3 {c : Dev nD} (dat : Dat τ (Elt F) Unit ℕ (UR sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)

/-- Input window 4's staging buffer holds its block at the point. -/
theorem held3_4 {c : Dev nD} (dat : Dat τ (Elt F) Unit ℕ (UR sig nD τ) ℕ cfg3 c) (hA : dat.A 4 = V c (Pipeline.arrRef spec3 4))
    (hafter : ∀ t, dat.after 4 t = blockAt3 V c 4 t) (t : Fin cfg3.N) (d) : dat.before 4 t d = blockAt3 V c 4 t :=
  (dat.before_in_eq_fetched 4 rfl (fun _ => rfl) (fun _ _ _ => rfl) (fun t => by rw [hafter]; unfold Dat.blockOf blockAt3; rw [hA]; try rfl) t d).trans
    (by unfold Dat.fetched Dat.blockOf blockAt3; rw [hA]; try rfl)

/-- Input window 5's staging buffer holds its block at the point. -/
theorem held3_5 {c : Dev nD} (dat : Dat τ (Elt F) Unit ℕ (UR sig nD τ) ℕ cfg3 c) (hA : dat.A 5 = V c (Pipeline.arrRef spec3 5))
    (hafter : ∀ t, dat.after 5 t = blockAt3 V c 5 t) (t : Fin cfg3.N) (d) : dat.before 5 t d = blockAt3 V c 5 t :=
  (dat.before_in_eq_fetched 5 rfl (fun _ => rfl) (fun _ _ _ => rfl) (fun t => by rw [hafter]; unfold Dat.blockOf blockAt3; rw [hA]; try rfl) t d).trans
    (by unfold Dat.fetched Dat.blockOf blockAt3; rw [hA]; try rfl)

/-- The whole-array rectangles the body loads and stores through. -/
abbrev pooled3 : Rect S64x384 := Rect.unit (s := S64x384) ![0, 0] S64x384.size inb_S64x384_S64x384_0_0
abbrev counts3 : Rect S64x1 := Rect.unit (s := S64x1) ![0, 0] S64x1.size inb_S64x1_S64x1_0_0
abbrev weightA3 : Rect S384x128 := Rect.unit (s := S384x128) ![0, 0] S384x128.size inb_S384x128_S384x128_0_0
abbrev biasA3 : Rect S1x128 := Rect.unit (s := S1x128) ![0, 0] S1x128.size inb_S1x128_S1x128_0_0
abbrev weightB3 : Rect S128x64 := Rect.unit (s := S128x64) ![0, 0] S128x64.size inb_S128x64_S128x64_0_0
abbrev biasB3 : Rect S1x64 := Rect.unit (s := S1x64) ![0, 0] S1x64.size inb_S1x64_S1x64_0_0

/-- What the body leaves in the output's staging buffer: its one store, of the whole [1,64] row, of the
    head's arithmetic on the six inputs. -/
def stored3 (x0 : Vec F S64x384 .f32) (x1 : Vec F S64x1 .f32) (x2 : Vec F S384x128 .bf16) (x3 : Vec F S1x128 .f32) (x4 : Vec F S128x64 .bf16) (x5 : Vec F S1x64 .f32) : Vec F S1x64 .f32 :=
  View.canon [⟨biasB3, k3_pay1 (View.ld x0 pooled3) (View.ld x1 counts3) (View.ld x2 weightA3) (View.ld x3 biasA3) (View.ld x4 weightB3) (View.ld x5 biasB3)⟩]

theorem stored3_cover (p0 : Vec F S1x64 .f32) (y : S1x64.Idx) :
    ∃ pc ∈ ([⟨biasB3, p0⟩] : List (View.Piece (Elt F) S1x64 .f32)), y ∈ pc.1.set :=
  View.cover_of_tiled [⟨biasB3, p0⟩] S1x64.size (by rfl) y

set_option maxHeartbeats 1000000 in
/-- The body on whole staging buffers, the inputs' holding `x0 … x5` and the output's anything, runs to the
    end with the inputs' as they were and the output's at `stored3` of them. -/
theorem body_run3 (c : Dev nD) (E : Set ℕ) (i : grid3.Coords)
    (arg1 : Memref sig .tc .vmem S64x384 .f32) (harg1 : arg1.IsWhole) (arg2 : Memref sig .tc .vmem S64x1 .f32) (harg2 : arg2.IsWhole) (arg3 : Memref sig .tc .vmem S384x128 .bf16) (harg3 : arg3.IsWhole) (arg4 : Memref sig .tc .vmem S1x128 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S1x64 .f32) (harg7 : arg7.IsWhole)
    (x0 : Vec F S64x384 .f32) (x1 : Vec F S64x1 .f32) (x2 : Vec F S384x128 .bf16) (x3 : Vec F S1x128 .f32) (x4 : Vec F S128x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stored3 x0 x1 x2 x3 x4 x5)) -∗ K ⟨⟩))
      ⊢ wp frame (wpE (defs₀ (F := F)) Variants.none c none) E (cc3__head_kernel i arg1 harg1 arg2 harg2 arg3 harg3 arg4 harg4 arg5 harg5 arg6 harg6 arg7 harg7) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored3_cover _)

/-- The pipeline's proof data on core `c`. -/
def data3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => blockAt3 V c 5 t
    | ⟨6, _⟩ => stored3 (blockAt3 V c 0 t) (blockAt3 V c 1 t) (blockAt3 V c 2 t) (blockAt3 V c 3 t) (blockAt3 V c 4 t) (blockAt3 V c 5 t)
  Φ _ := Pipeline.ΦA spec3 c
  q _ := fullShare
  owed _ := 0

theorem data3_A (c : Dev nD) (w : Fin cfg3.W) : (data3 V c).A w = V c (Pipeline.arrRef spec3 w) := by
  dsimp only [data3]

theorem data3_after_0 (c : Dev nD) (t : Fin cfg3.N) : (data3 V c).after 0 t = blockAt3 V c 0 t := by dsimp only [data3]
theorem data3_after_1 (c : Dev nD) (t : Fin cfg3.N) : (data3 V c).after 1 t = blockAt3 V c 1 t := by dsimp only [data3]
theorem data3_after_2 (c : Dev nD) (t : Fin cfg3.N) : (data3 V c).after 2 t = blockAt3 V c 2 t := by dsimp only [data3]
theorem data3_after_3 (c : Dev nD) (t : Fin cfg3.N) : (data3 V c).after 3 t = blockAt3 V c 3 t := by dsimp only [data3]
theorem data3_after_4 (c : Dev nD) (t : Fin cfg3.N) : (data3 V c).after 4 t = blockAt3 V c 4 t := by dsimp only [data3]
theorem data3_after_5 (c : Dev nD) (t : Fin cfg3.N) : (data3 V c).after 5 t = blockAt3 V c 5 t := by dsimp only [data3]
theorem data3_after_6 (c : Dev nD) (t : Fin cfg3.N) : (data3 V c).after 6 t = stored3 (blockAt3 V c 0 t) (blockAt3 V c 1 t) (blockAt3 V c 2 t) (blockAt3 V c 3 t) (blockAt3 V c 4 t) (blockAt3 V c 5 t) := by dsimp only [data3]

theorem data3_before_0 (c : Dev nD) (t : Fin cfg3.N) (d) : (data3 V c).before 0 t d = blockAt3 V c 0 t :=
  held3_0 V (data3 V c) (data3_A V c 0) (data3_after_0 V c) t d
theorem data3_before_1 (c : Dev nD) (t : Fin cfg3.N) (d) : (data3 V c).before 1 t d = blockAt3 V c 1 t :=
  held3_1 V (data3 V c) (data3_A V c 1) (data3_after_1 V c) t d
theorem data3_before_2 (c : Dev nD) (t : Fin cfg3.N) (d) : (data3 V c).before 2 t d = blockAt3 V c 2 t :=
  held3_2 V (data3 V c) (data3_A V c 2) (data3_after_2 V c) t d
theorem data3_before_3 (c : Dev nD) (t : Fin cfg3.N) (d) : (data3 V c).before 3 t d = blockAt3 V c 3 t :=
  held3_3 V (data3 V c) (data3_A V c 3) (data3_after_3 V c) t d
theorem data3_before_4 (c : Dev nD) (t : Fin cfg3.N) (d) : (data3 V c).before 4 t d = blockAt3 V c 4 t :=
  held3_4 V (data3 V c) (data3_A V c 4) (data3_after_4 V c) t d
theorem data3_before_5 (c : Dev nD) (t : Fin cfg3.N) (d) : (data3 V c).before 5 t d = blockAt3 V c 5 t :=
  held3_5 V (data3 V c) (data3_A V c 5) (data3_after_5 V c) t d

def bodyPre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d))
    ∗ (∃ d, owns (c : Thread nD τ) (st3_6 t) fullShare ((data3 V c).before 6 t d)))

def bodyPost3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t)
    ∗ owns (c : Thread nD τ) (st3_6 t) fullShare ((data3 V c).after 6 t))

theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [data3_before_0, data3_before_1, data3_before_2, data3_before_3, data3_before_4, data3_before_5]
  rw [show (data3 V c).Φ t.succ = (data3 V c).Φ t.castSucc from rfl,
    show (data3 V c).owesAt () t.succ = (data3 V c).owesAt () t.castSucc from rfl,
    data3_after_0, data3_after_1, data3_after_2, data3_after_3, data3_after_4, data3_after_5, data3_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run3 c Set.univ (grid3.coords t) _ _ _ _ _ _ _ _ _ _ _ _ _ _
    (blockAt3 V c 0 t) (blockAt3 V c 1 t) (blockAt3 V c 2 t) (blockAt3 V c 3 t) (blockAt3 V c 4 t) (blockAt3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (data3 (F := F) V c) (defs₀ (F := F)) Variants.none () Set.univ := fun t => by
  rw [bigSep_W3, bigSep_W3]
  exact body_at3 V c t

end Cert.KernelIdeal.Layers

end
-- ==== Proof.IdealRun.lean ====
/-
  The whole run of the program: four host stretches, each followed by a kernel region (three layer
  stages and the read-out head). The contents of a core's buffers at every boundary are a fold from the
  launch memory: a host stretch applies its operations; a region leaves its windows' arrays at what the
  pipeline's write-backs make of them and every other buffer as it was. Each region is a segment entered
  from one boundary's contents and left at the next one's; chained, they give that every weakly fair
  execution terminates, faults nowhere, and ends with EVERY unscoped buffer at the last boundary's
  contents. Read at an argument that is the launch memory (no stretch writes an argument, no region
  changes one); read at the result buffer it is what the head's one grid point wrote.
-/
import proofs.«110857_j32409823216461_2_alg».proof.Proof.IdealLayer0
import proofs.«110857_j32409823216461_2_alg».proof.Proof.IdealLayer1
import proofs.«110857_j32409823216461_2_alg».proof.Proof.IdealLayer2
import proofs.«110857_j32409823216461_2_alg».proof.Proof.IdealHead
import proofs.«110857_j32409823216461_2_alg».proof.Proof.Gen.KernelIdeal.Regions

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev mem0 : Dev nD → Valuation τ sig (Elt F) := fun c b => m (c, b)

/-- After host stretch 0 (region 0's entry). -/
abbrev mem1 : Dev nD → Valuation τ sig (Elt F) := fun c => StableHlo.after hostOps0 (mem0 m c)
/-- The same read at the TensorCore's references: what region 0 finds. -/
abbrev entry0 : (c : Dev nD) → (b : Ref sig .tc) → Buf (Elt F) ((c : Thread nD τ).loc b) := fun c b => mem1 m c b
/-- At region 0's exit: its windows' arrays at what the pipeline leaves (an input's as entered, the output's
    write-backs folded over the grid), every other buffer as entered. -/
def mem2 (c : Dev nD) : Valuation τ sig (Elt F) :=
  Pipeline.withArrays spec0 c (mem1 m c) fun w => (data0 (entry0 m) c).arrAt w cfg0.N
theorem mem2_arr (c : Dev nD) (w : Fin cfg0.W) :
    mem2 m c (Proc.devRef .tc (Pipeline.arrRef spec0 w)) = (data0 (entry0 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
abbrev exit0 : (c : Dev nD) → (b : Ref sig .tc) → Buf (Elt F) ((c : Thread nD τ).loc b) := fun c b => mem2 m c b
theorem exit0_arr (c : Dev nD) (w : Fin cfg0.W) : (data0 (entry0 m) c).arrAt w cfg0.N = exit0 m c (Pipeline.arrRef spec0 w) :=
  (mem2_arr m c w).symm
theorem exit0_rest (c : Dev nD) : ∀ b, b ∉ Finset.univ.image (Pipeline.arrRef spec0) → exit0 m c b = entry0 m c b :=
  fun b hb => mem2_of_ne m c b fun w e => hb (Finset.mem_image.mpr ⟨w, Finset.mem_univ _, e⟩)
theorem mem1_of (c : Dev nD) (r : Ref sig .tc) (h : r ∉ hostOps0_W) : mem1 m c r = mem0 m c r :=
  StableHlo.after_of_writes_sub hostOps0 _ hostOps0_writes h

/-- After host stretch 1 (region 1's entry). -/
abbrev mem3 : Dev nD → Valuation τ sig (Elt F) := fun c => StableHlo.after hostOps1 (mem2 m c)
/-- The same read at the TensorCore's references: what region 1 finds. -/
abbrev entry1 : (c : Dev nD) → (b : Ref sig .tc) → Buf (Elt F) ((c : Thread nD τ).loc b) := fun c b => mem3 m c b
/-- At region 1's exit: its windows' arrays at what the pipeline leaves (an input's as entered, the output's
    write-backs folded over the grid), every other buffer as entered. -/
def mem4 (c : Dev nD) : Valuation τ sig (Elt F) :=
  Pipeline.withArrays spec1 c (mem3 m c) fun w => (data1 (entry1 m) c).arrAt w cfg1.N
theorem mem4_arr (c : Dev nD) (w : Fin cfg1.W) :
    mem4 m c (Proc.devRef .tc (Pipeline.arrRef spec1 w)) = (data1 (entry1 m) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m c (Proc.devRef .tc b) = mem3 m c (Proc.devRef .tc b) := by
  unfold mem4; exact Pipeline.withArrays_of_ne spec1 c _ _ b hb
abbrev exit1 : (c : Dev nD) → (b : Ref sig .tc) → Buf (Elt F) ((c : Thread nD τ).loc b) := fun c b => mem4 m c b
theorem exit1_arr (c : Dev nD) (w : Fin cfg1.W) : (data1 (entry1 m) c).arrAt w cfg1.N = exit1 m c (Pipeline.arrRef spec1 w) :=
  (mem4_arr m c w).symm
theorem exit1_rest (c : Dev nD) : ∀ b, b ∉ Finset.univ.image (Pipeline.arrRef spec1) → exit1 m c b = entry1 m c b :=
  fun b hb => mem4_of_ne m c b fun w e => hb (Finset.mem_image.mpr ⟨w, Finset.mem_univ _, e⟩)
theorem mem3_of (c : Dev nD) (r : Ref sig .tc) (h : r ∉ hostOps1_W) : mem3 m c r = mem2 m c r :=
  StableHlo.after_of_writes_sub hostOps1 _ hostOps1_writes h

/-- After host stretch 2 (region 2's entry). -/
abbrev mem5 : Dev nD → Valuation τ sig (Elt F) := fun c => StableHlo.after hostOps2 (mem4 m c)
/-- The same read at the TensorCore's references: what region 2 finds. -/
abbrev entry2 : (c : Dev nD) → (b : Ref sig .tc) → Buf (Elt F) ((c : Thread nD τ).loc b) := fun c b => mem5 m c b
/-- At region 2's exit: its windows' arrays at what the pipeline leaves (an input's as entered, the output's
    write-backs folded over the grid), every other buffer as entered. -/
def mem6 (c : Dev nD) : Valuation τ sig (Elt F) :=
  Pipeline.withArrays spec2 c (mem5 m c) fun w => (data2 (entry2 m) c).arrAt w cfg2.N
theorem mem6_arr (c : Dev nD) (w : Fin cfg2.W) :
    mem6 m c (Proc.devRef .tc (Pipeline.arrRef spec2 w)) = (data2 (entry2 m) c).arrAt w cfg2.N := by
  unfold mem6; exact Pipeline.withArrays_arr spec2 launch2.win.arr_inj c _ _ w
theorem mem6_of_ne (c : Dev nD) (b : Ref sig .tc) (hb : ∀ w, Pipeline.arrRef spec2 w ≠ b) :
    mem6 m c (Proc.devRef .tc b) = mem5 m c (Proc.devRef .tc b) := by
  unfold mem6; exact Pipeline.withArrays_of_ne spec2 c _ _ b hb
abbrev exit2 : (c : Dev nD) → (b : Ref sig .tc) → Buf (Elt F) ((c : Thread nD τ).loc b) := fun c b => mem6 m c b
theorem exit2_arr (c : Dev nD) (w : Fin cfg2.W) : (data2 (entry2 m) c).arrAt w cfg2.N = exit2 m c (Pipeline.arrRef spec2 w) :=
  (mem6_arr m c w).symm
theorem exit2_rest (c : Dev nD) : ∀ b, b ∉ Finset.univ.image (Pipeline.arrRef spec2) → exit2 m c b = entry2 m c b :=
  fun b hb => mem6_of_ne m c b fun w e => hb (Finset.mem_image.mpr ⟨w, Finset.mem_univ _, e⟩)
theorem mem5_of (c : Dev nD) (r : Ref sig .tc) (h : r ∉ hostOps2_W) : mem5 m c r = mem4 m c r :=
  StableHlo.after_of_writes_sub hostOps2 _ hostOps2_writes h

/-- After host stretch 3 (region 3's entry). -/
abbrev mem7 : Dev nD → Valuation τ sig (Elt F) := fun c => StableHlo.after hostOps3 (mem6 m c)
/-- The same read at the TensorCore's references: what region 3 finds. -/
abbrev entry3 : (c : Dev nD) → (b : Ref sig .tc) → Buf (Elt F) ((c : Thread nD τ).loc b) := fun c b => mem7 m c b
/-- At region 3's exit: its windows' arrays at what the pipeline leaves (an input's as entered, the output's
    write-backs folded over the grid), every other buffer as entered. -/
def mem8 (c : Dev nD) : Valuation τ sig (Elt F) :=
  Pipeline.withArrays spec3 c (mem7 m c) fun w => (data3 (entry3 m) c).arrAt w cfg3.N
theorem mem8_arr (c : Dev nD) (w : Fin cfg3.W) :
    mem8 m c (Proc.devRef .tc (Pipeline.arrRef spec3 w)) = (data3 (entry3 m) c).arrAt w cfg3.N := by
  unfold mem8; exact Pipeline.withArrays_arr spec3 launch3.win.arr_inj c _ _ w
theorem mem8_of_ne (c : Dev nD) (b : Ref sig .tc) (hb : ∀ w, Pipeline.arrRef spec3 w ≠ b) :
    mem8 m c (Proc.devRef .tc b) = mem7 m c (Proc.devRef .tc b) := by
  unfold mem8; exact Pipeline.withArrays_of_ne spec3 c _ _ b hb
abbrev exit3 : (c : Dev nD) → (b : Ref sig .tc) → Buf (Elt F) ((c : Thread nD τ).loc b) := fun c b => mem8 m c b
theorem exit3_arr (c : Dev nD) (w : Fin cfg3.W) : (data3 (entry3 m) c).arrAt w cfg3.N = exit3 m c (Pipeline.arrRef spec3 w) :=
  (mem8_arr m c w).symm
theorem exit3_rest (c : Dev nD) : ∀ b, b ∉ Finset.univ.image (Pipeline.arrRef spec3) → exit3 m c b = entry3 m c b :=
  fun b hb => mem8_of_ne m c b fun w e => hb (Finset.mem_image.mpr ⟨w, Finset.mem_univ _, e⟩)
theorem mem7_of (c : Dev nD) (r : Ref sig .tc) (h : r ∉ hostOps3_W) : mem7 m c r = mem6 m c r :=
  StableHlo.after_of_writes_sub hostOps3 _ hostOps3_writes h

/-! ## The arguments end as launched -/

/-- Argument 0 ends as launched: no host stretch writes it and no region changes it. -/
theorem mem8_main_arg0 (c : Dev nD) : mem8 m c (Proc.devRef .tc main_arg0) = m ((c : Thread nD τ).loc main_arg0) :=
  calc mem8 m c (Proc.devRef .tc main_arg0)
    _ = mem7 m c (Proc.devRef .tc main_arg0) := mem8_of_ne m c main_arg0 (by decide)
    _ = mem6 m c (Proc.devRef .tc main_arg0) := mem7_of m c main_arg0 (by decide)
    _ = mem5 m c (Proc.devRef .tc main_arg0) := mem6_of_ne m c main_arg0 (by decide)
    _ = mem4 m c (Proc.devRef .tc main_arg0) := mem5_of m c main_arg0 (by decide)
    _ = mem3 m c (Proc.devRef .tc main_arg0) := mem4_of_ne m c main_arg0 (by decide)
    _ = mem2 m c (Proc.devRef .tc main_arg0) := mem3_of m c main_arg0 (by decide)
    _ = mem1 m c (Proc.devRef .tc main_arg0) := (mem2_arr m c 0).trans (((data0 (entry0 m) c).arrAt_in 0 rfl _).trans (data0_A (entry0 m) c 0))
    _ = mem0 m c (Proc.devRef .tc main_arg0) := mem1_of m c main_arg0 (by decide)
    _ = m ((c : Thread nD τ).loc main_arg0) := rfl

/-- Argument 1 ends as launched: no host stretch writes it and no region changes it. -/
theorem mem8_main_arg1 (c : Dev nD) : mem8 m c (Proc.devRef .tc main_arg1) = m ((c : Thread nD τ).loc main_arg1) :=
  calc mem8 m c (Proc.devRef .tc main_arg1)
    _ = mem7 m c (Proc.devRef .tc main_arg1) := mem8_of_ne m c main_arg1 (by decide)
    _ = mem6 m c (Proc.devRef .tc main_arg1) := mem7_of m c main_arg1 (by decide)
    _ = mem5 m c (Proc.devRef .tc main_arg1) := mem6_of_ne m c main_arg1 (by decide)
    _ = mem4 m c (Proc.devRef .tc main_arg1) := mem5_of m c main_arg1 (by decide)
    _ = mem3 m c (Proc.devRef .tc main_arg1) := mem4_of_ne m c main_arg1 (by decide)
    _ = mem2 m c (Proc.devRef .tc main_arg1) := mem3_of m c main_arg1 (by decide)
    _ = mem1 m c (Proc.devRef .tc main_arg1) := mem2_of_ne m c main_arg1 (by decide)
    _ = mem0 m c (Proc.devRef .tc main_arg1) := mem1_of m c main_arg1 (by decide)
    _ = m ((c : Thread nD τ).loc main_arg1) := rfl

/-- Argument 2 ends as launched: no host stretch writes it and no region changes it. -/
theorem mem8_main_arg2 (c : Dev nD) : mem8 m c (Proc.devRef .tc main_arg2) = m ((c : Thread nD τ).loc main_arg2) :=
  calc mem8 m c (Proc.devRef .tc main_arg2)
    _ = mem7 m c (Proc.devRef .tc main_arg2) := mem8_of_ne m c main_arg2 (by decide)
    _ = mem6 m c (Proc.devRef .tc main_arg2) := mem7_of m c main_arg2 (by decide)
    _ = mem5 m c (Proc.devRef .tc main_arg2) := mem6_of_ne m c main_arg2 (by decide)
    _ = mem4 m c (Proc.devRef .tc main_arg2) := mem5_of m c main_arg2 (by decide)
    _ = mem3 m c (Proc.devRef .tc main_arg2) := mem4_of_ne m c main_arg2 (by decide)
    _ = mem2 m c (Proc.devRef .tc main_arg2) := mem3_of m c main_arg2 (by decide)
    _ = mem1 m c (Proc.devRef .tc main_arg2) := mem2_of_ne m c main_arg2 (by decide)
    _ = mem0 m c (Proc.devRef .tc main_arg2) := mem1_of m c main_arg2 (by decide)
    _ = m ((c : Thread nD τ).loc main_arg2) := rfl

/-- Argument 3 ends as launched: no host stretch writes it and no region changes it. -/
theorem mem8_main_arg3 (c : Dev nD) : mem8 m c (Proc.devRef .tc main_arg3) = m ((c : Thread nD τ).loc main_arg3) :=
  calc mem8 m c (Proc.devRef .tc main_arg3)
    _ = mem7 m c (Proc.devRef .tc main_arg3) := mem8_of_ne m c main_arg3 (by decide)
    _ = mem6 m c (Proc.devRef .tc main_arg3) := mem7_of m c main_arg3 (by decide)
    _ = mem5 m c (Proc.devRef .tc main_arg3) := mem6_of_ne m c main_arg3 (by decide)
    _ = mem4 m c (Proc.devRef .tc main_arg3) := mem5_of m c main_arg3 (by decide)
    _ = mem3 m c (Proc.devRef .tc main_arg3) := mem4_of_ne m c main_arg3 (by decide)
    _ = mem2 m c (Proc.devRef .tc main_arg3) := mem3_of m c main_arg3 (by decide)
    _ = mem1 m c (Proc.devRef .tc main_arg3) := mem2_of_ne m c main_arg3 (by decide)
    _ = mem0 m c (Proc.devRef .tc main_arg3) := mem1_of m c main_arg3 (by decide)
    _ = m ((c : Thread nD τ).loc main_arg3) := rfl

/-- Argument 4 ends as launched: no host stretch writes it and no region changes it. -/
theorem mem8_main_arg4 (c : Dev nD) : mem8 m c (Proc.devRef .tc main_arg4) = m ((c : Thread nD τ).loc main_arg4) :=
  calc mem8 m c (Proc.devRef .tc main_arg4)
    _ = mem7 m c (Proc.devRef .tc main_arg4) := mem8_of_ne m c main_arg4 (by decide)
    _ = mem6 m c (Proc.devRef .tc main_arg4) := mem7_of m c main_arg4 (by decide)
    _ = mem5 m c (Proc.devRef .tc main_arg4) := mem6_of_ne m c main_arg4 (by decide)
    _ = mem4 m c (Proc.devRef .tc main_arg4) := mem5_of m c main_arg4 (by decide)
    _ = mem3 m c (Proc.devRef .tc main_arg4) := mem4_of_ne m c main_arg4 (by decide)
    _ = mem2 m c (Proc.devRef .tc main_arg4) := mem3_of m c main_arg4 (by decide)
    _ = mem1 m c (Proc.devRef .tc main_arg4) := mem2_of_ne m c main_arg4 (by decide)
    _ = mem0 m c (Proc.devRef .tc main_arg4) := mem1_of m c main_arg4 (by decide)
    _ = m ((c : Thread nD τ).loc main_arg4) := rfl

/-- Argument 5 ends as launched: no host stretch writes it and no region changes it. -/
theorem mem8_main_arg5 (c : Dev nD) : mem8 m c (Proc.devRef .tc main_arg5) = m ((c : Thread nD τ).loc main_arg5) :=
  calc mem8 m c (Proc.devRef .tc main_arg5)
    _ = mem7 m c (Proc.devRef .tc main_arg5) := mem8_of_ne m c main_arg5 (by decide)
    _ = mem6 m c (Proc.devRef .tc main_arg5) := mem7_of m c main_arg5 (by decide)
    _ = mem5 m c (Proc.devRef .tc main_arg5) := mem6_of_ne m c main_arg5 (by decide)
    _ = mem4 m c (Proc.devRef .tc main_arg5) := mem5_of m c main_arg5 (by decide)
    _ = mem3 m c (Proc.devRef .tc main_arg5) := mem4_of_ne m c main_arg5 (by decide)
    _ = mem2 m c (Proc.devRef .tc main_arg5) := mem3_of m c main_arg5 (by decide)
    _ = mem1 m c (Proc.devRef .tc main_arg5) := mem2_of_ne m c main_arg5 (by decide)
    _ = mem0 m c (Proc.devRef .tc main_arg5) := mem1_of m c main_arg5 (by decide)
    _ = m ((c : Thread nD τ).loc main_arg5) := rfl

/-- Argument 6 ends as launched: no host stretch writes it and no region changes it. -/
theorem mem8_main_arg6 (c : Dev nD) : mem8 m c (Proc.devRef .tc main_arg6) = m ((c : Thread nD τ).loc main_arg6) :=
  calc mem8 m c (Proc.devRef .tc main_arg6)
    _ = mem7 m c (Proc.devRef .tc main_arg6) := mem8_of_ne m c main_arg6 (by decide)
    _ = mem6 m c (Proc.devRef .tc main_arg6) := mem7_of m c main_arg6 (by decide)
    _ = mem5 m c (Proc.devRef .tc main_arg6) := mem6_of_ne m c main_arg6 (by decide)
    _ = mem4 m c (Proc.devRef .tc main_arg6) := mem5_of m c main_arg6 (by decide)
    _ = mem3 m c (Proc.devRef .tc main_arg6) := mem4_of_ne m c main_arg6 (by decide)
    _ = mem2 m c (Proc.devRef .tc main_arg6) := mem3_of m c main_arg6 (by decide)
    _ = mem1 m c (Proc.devRef .tc main_arg6) := mem2_of_ne m c main_arg6 (by decide)
    _ = mem0 m c (Proc.devRef .tc main_arg6) := mem1_of m c main_arg6 (by decide)
    _ = m ((c : Thread nD τ).loc main_arg6) := rfl

/-- Argument 7 ends as launched: no host stretch writes it and no region changes it. -/
theorem mem8_main_arg7 (c : Dev nD) : mem8 m c (Proc.devRef .tc main_arg7) = m ((c : Thread nD τ).loc main_arg7) :=
  calc mem8 m c (Proc.devRef .tc main_arg7)
    _ = mem7 m c (Proc.devRef .tc main_arg7) := mem8_of_ne m c main_arg7 (by decide)
    _ = mem6 m c (Proc.devRef .tc main_arg7) := mem7_of m c main_arg7 (by decide)
    _ = mem5 m c (Proc.devRef .tc main_arg7) := mem6_of_ne m c main_arg7 (by decide)
    _ = mem4 m c (Proc.devRef .tc main_arg7) := mem5_of m c main_arg7 (by decide)
    _ = mem3 m c (Proc.devRef .tc main_arg7) := mem4_of_ne m c main_arg7 (by decide)
    _ = mem2 m c (Proc.devRef .tc main_arg7) := mem3_of m c main_arg7 (by decide)
    _ = mem1 m c (Proc.devRef .tc main_arg7) := mem2_of_ne m c main_arg7 (by decide)
    _ = mem0 m c (Proc.devRef .tc main_arg7) := mem1_of m c main_arg7 (by decide)
    _ = m ((c : Thread nD τ).loc main_arg7) := rfl

/-- Argument 8 ends as launched: no host stretch writes it and no region changes it. -/
theorem mem8_main_arg8 (c : Dev nD) : mem8 m c (Proc.devRef .tc main_arg8) = m ((c : Thread nD τ).loc main_arg8) :=
  calc mem8 m c (Proc.devRef .tc main_arg8)
    _ = mem7 m c (Proc.devRef .tc main_arg8) := mem8_of_ne m c main_arg8 (by decide)
    _ = mem6 m c (Proc.devRef .tc main_arg8) := mem7_of m c main_arg8 (by decide)
    _ = mem5 m c (Proc.devRef .tc main_arg8) := mem6_of_ne m c main_arg8 (by decide)
    _ = mem4 m c (Proc.devRef .tc main_arg8) := mem5_of m c main_arg8 (by decide)
    _ = mem3 m c (Proc.devRef .tc main_arg8) := mem4_of_ne m c main_arg8 (by decide)
    _ = mem2 m c (Proc.devRef .tc main_arg8) := mem3_of m c main_arg8 (by decide)
    _ = mem1 m c (Proc.devRef .tc main_arg8) := mem2_of_ne m c main_arg8 (by decide)
    _ = mem0 m c (Proc.devRef .tc main_arg8) := mem1_of m c main_arg8 (by decide)
    _ = m ((c : Thread nD τ).loc main_arg8) := rfl

/-- Argument 9 ends as launched: no host stretch writes it and no region changes it. -/
theorem mem8_main_arg9 (c : Dev nD) : mem8 m c (Proc.devRef .tc main_arg9) = m ((c : Thread nD τ).loc main_arg9) :=
  calc mem8 m c (Proc.devRef .tc main_arg9)
    _ = mem7 m c (Proc.devRef .tc main_arg9) := mem8_of_ne m c main_arg9 (by decide)
    _ = mem6 m c (Proc.devRef .tc main_arg9) := mem7_of m c main_arg9 (by decide)
    _ = mem5 m c (Proc.devRef .tc main_arg9) := mem6_of_ne m c main_arg9 (by decide)
    _ = mem4 m c (Proc.devRef .tc main_arg9) := mem5_of m c main_arg9 (by decide)
    _ = mem3 m c (Proc.devRef .tc main_arg9) := mem4_of_ne m c main_arg9 (by decide)
    _ = mem2 m c (Proc.devRef .tc main_arg9) := mem3_of m c main_arg9 (by decide)
    _ = mem1 m c (Proc.devRef .tc main_arg9) := mem2_of_ne m c main_arg9 (by decide)
    _ = mem0 m c (Proc.devRef .tc main_arg9) := mem1_of m c main_arg9 (by decide)
    _ = m ((c : Thread nD τ).loc main_arg9) := rfl

/-- Argument 10 ends as launched: no host stretch writes it and no region changes it. -/
theorem mem8_main_arg10 (c : Dev nD) : mem8 m c (Proc.devRef .tc main_arg10) = m ((c : Thread nD τ).loc main_arg10) :=
  calc mem8 m c (Proc.devRef .tc main_arg10)
    _ = mem7 m c (Proc.devRef .tc main_arg10) := mem8_of_ne m c main_arg10 (by decide)
    _ = mem6 m c (Proc.devRef .tc main_arg10) := mem7_of m c main_arg10 (by decide)
    _ = mem5 m c (Proc.devRef .tc main_arg10) := mem6_of_ne m c main_arg10 (by decide)
    _ = mem4 m c (Proc.devRef .tc main_arg10) := mem5_of m c main_arg10 (by decide)
    _ = mem3 m c (Proc.devRef .tc main_arg10) := mem4_of_ne m c main_arg10 (by decide)
    _ = mem2 m c (Proc.devRef .tc main_arg10) := mem3_of m c main_arg10 (by decide)
    _ = mem1 m c (Proc.devRef .tc main_arg10) := mem2_of_ne m c main_arg10 (by decide)
    _ = mem0 m c (Proc.devRef .tc main_arg10) := mem1_of m c main_arg10 (by decide)
    _ = m ((c : Thread nD τ).loc main_arg10) := rfl

/-- Argument 11 ends as launched: no host stretch writes it and no region changes it. -/
theorem mem8_main_arg11 (c : Dev nD) : mem8 m c (Proc.devRef .tc main_arg11) = m ((c : Thread nD τ).loc main_arg11) :=
  calc mem8 m c (Proc.devRef .tc main_arg11)
    _ = mem7 m c (Proc.devRef .tc main_arg11) := mem8_of_ne m c main_arg11 (by decide)
    _ = mem6 m c (Proc.devRef .tc main_arg11) := mem7_of m c main_arg11 (by decide)
    _ = mem5 m c (Proc.devRef .tc main_arg11) := mem6_of_ne m c main_arg11 (by decide)
    _ = mem4 m c (Proc.devRef .tc main_arg11) := mem5_of m c main_arg11 (by decide)
    _ = mem3 m c (Proc.devRef .tc main_arg11) := mem4_of_ne m c main_arg11 (by decide)
    _ = mem2 m c (Proc.devRef .tc main_arg11) := mem3_of m c main_arg11 (by decide)
    _ = mem1 m c (Proc.devRef .tc main_arg11) := mem2_of_ne m c main_arg11 (by decide)
    _ = mem0 m c (Proc.devRef .tc main_arg11) := mem1_of m c main_arg11 (by decide)
    _ = m ((c : Thread nD τ).loc main_arg11) := rfl

/-! ## The proof data family and what rides along -/

/-- No pipeline has a prefetched table. -/
abbrev noTables : (p : Fin 4) → (pcfgs (F := F) p).Adm := fun p => (cfgs p).toPCfg_adm
/-- Every pipeline's proof data, each at its region's entry contents. -/
def pdata : (p : Fin 4) → (c : Dev nD) → Dat τ (Elt F) Unit ℕ (UR sig nD τ) ℕ (Pipeline.pin (pcfgs (F := F)) noTables p) c
  | ⟨0, _⟩ => fun c => data0 (entry0 m) c
  | ⟨1, _⟩ => fun c => data1 (entry1 m) c
  | ⟨2, _⟩ => fun c => data2 (entry2 m) c
  | ⟨3, _⟩ => fun c => data3 (entry3 m) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
/-- A host stretch as a segment over the unscoped references from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev lastState (c : Dev nD) : sProp 𝕄 := iprop(StableHlo.held (c : Thread nD τ) (Pipeline.ucRefs τ sig) (mem8 m c) ∗ ∃ r, prngReg c r)

/-! ## The regions as segments -/

-- a library lemma stated over the pinned configuration unifies with the printed one only when unification may
-- unfold plain definitions in a metavariable's type
set_option backward.isDefEq.respectTransparency.types false in
/-- Region 0 as a segment of the run: entered with every unscoped buffer at `mem1`, left with them at `mem2`.
    Its windows' arrays are split out of the unscoped buffers on entry and put back, at what the write-backs
    leave, on exit; the generator register rides through the invariant; nothing is owed. -/
def region0 : Pipeline.RegionSeg (pcfgs (F := F)) noTables (pdata m) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noLevels levelZero 0 fun _ _ => rfl
  pre c := iprop(StableHlo.held (c : Thread nD τ) (Pipeline.ucRefs τ sig) (mem1 m c) ∗ riding c)
  post c := iprop(StableHlo.held (c : Thread nD τ) (Pipeline.ucRefs τ sig) (mem2 m c) ∗ riding c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) noTables (pdata m) launch0.win launch0.arr_whole c
      ((pdata m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdata m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdata m) ((pdata m 0 c).share_full fun _ => rfl)
      (entry0 m c) (exit0 m c) ((pdata m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 as a segment of the run: entered with every unscoped buffer at `mem3`, left with them at `mem4`.
    Its windows' arrays are split out of the unscoped buffers on entry and put back, at what the write-backs
    leave, on exit; the generator register rides through the invariant; nothing is owed. -/
def region1 : Pipeline.RegionSeg (pcfgs (F := F)) noTables (pdata m) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noLevels levelZero 1 fun _ _ => rfl
  pre c := iprop(StableHlo.held (c : Thread nD τ) (Pipeline.ucRefs τ sig) (mem3 m c) ∗ riding c)
  post c := iprop(StableHlo.held (c : Thread nD τ) (Pipeline.ucRefs τ sig) (mem4 m c) ∗ riding c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) noTables (pdata m) launch1.win launch1.arr_whole c
      ((pdata m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdata m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdata m) ((pdata m 1 c).share_full fun _ => rfl)
      (entry1 m c) (exit1 m c) ((pdata m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 as a segment of the run: entered with every unscoped buffer at `mem5`, left with them at `mem6`.
    Its windows' arrays are split out of the unscoped buffers on entry and put back, at what the write-backs
    leave, on exit; the generator register rides through the invariant; nothing is owed. -/
def region2 : Pipeline.RegionSeg (pcfgs (F := F)) noTables (pdata m) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ noLevels levelZero 2 fun _ _ => rfl
  pre c := iprop(StableHlo.held (c : Thread nD τ) (Pipeline.ucRefs τ sig) (mem5 m c) ∗ riding c)
  post c := iprop(StableHlo.held (c : Thread nD τ) (Pipeline.ucRefs τ sig) (mem6 m c) ∗ riding c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) noTables (pdata m) launch2.win launch2.arr_whole c
      ((pdata m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdata m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdata m) ((pdata m 2 c).share_full fun _ => rfl)
      (entry2 m c) (exit2 m c) ((pdata m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 as a segment of the run: entered with every unscoped buffer at `mem7`, left with them at `mem8`.
    Its windows' arrays are split out of the unscoped buffers on entry and put back, at what the write-backs
    leave, on exit; the generator register rides through the invariant; nothing is owed. -/
def region3 : Pipeline.RegionSeg (pcfgs (F := F)) noTables (pdata m) () defs₀ noVariants noLevels levelZero 3 where
  win := launch3.win.to₀
  block_pos := launch3.block_pos
  stage_whole := launch3.stage_whole
  K := PEmpty
  osem k := k.elim
  ho := Pipeline.OwnSemFacts.none _
  hbody c := (body_obligation3 (entry3 m) c).loose
  hwaits := Pipeline.hwaits_of_owed_zero _ _ _ _ noLevels levelZero 3 fun _ _ => rfl
  pre c := iprop(StableHlo.held (c : Thread nD τ) (Pipeline.ucRefs τ sig) (mem7 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (entry3 m c)
  hentry c := by
    rw [Pipeline.ownSems0_none]
    have hsplit := Pipeline.arrays_of_unscopedBufs (p := 3) (pcfgs (F := F)) noTables (pdata m) launch3.win launch3.arr_whole c
      ((pdata m 3 c).share_full fun _ => rfl) (entry3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdata m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdata m) ((pdata m 3 c).share_full fun _ => rfl)
      (entry3 m c) (exit3 m c) ((pdata m 3 c).arrAt · cfg3.N) (exit3_arr m c) (exit3_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev allSegs : List (Pipeline.Seg (pcfgs (F := F)) noTables (pdata m) () defs₀ noVariants noLevels levelZero) :=
  [ .host (hostSeg hostOps0 hostOps0_sub hostOps0_fresh (mem0 m)),
    .region (region0 m),
    .host (hostSeg hostOps1 hostOps1_sub hostOps1_fresh (mem2 m)),
    .region (region1 m),
    .host (hostSeg hostOps2 hostOps2_sub hostOps2_fresh (mem4 m)),
    .region (region2 m),
    .host (hostSeg hostOps3 hostOps3_sub hostOps3_fresh (mem6 m)),
    .region (region3 m) ]

theorem main_is_segs (c : Dev nD) : main (F := F) c = Pipeline.Seg.run (allSegs m) := (main_chain c).trans (by chain_rfl)

set_option backward.isDefEq.respectTransparency.types false in
/-- Every weakly fair execution from memory `m` with zero counters terminates, faults nowhere, and ends with
    every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = mem8 m c b) :=
  Pipeline.θ_run_regions_kit (pcfgs (F := F)) noTables (pdata m) () cellOf_inj emb₁ defs₀ noVariants noLevels levelZero m ρ main (allSegs m)
    (fun c Q => by rw [main_is_segs m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ riding c)) (Tₙ := lastState m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem8 m c b)
    (hfin := fun c s' => by
      iintro ⟨⟨Hh, -⟩, HSI⟩
      unfold StableHlo.held
      imodintro
      iapply (pointsTo_read_all (Pipeline.ucRefs τ sig) (fun b => (((c : Thread nD τ)).1, b)) (mem8 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_unscoped main_arg0 (by decide))).trans (mem8_main_arg0 m c),
    (h c _ (mem_unscoped main_arg1 (by decide))).trans (mem8_main_arg1 m c),
    (h c _ (mem_unscoped main_arg2 (by decide))).trans (mem8_main_arg2 m c),
    (h c _ (mem_unscoped main_arg3 (by decide))).trans (mem8_main_arg3 m c),
    (h c _ (mem_unscoped main_arg4 (by decide))).trans (mem8_main_arg4 m c),
    (h c _ (mem_unscoped main_arg5 (by decide))).trans (mem8_main_arg5 m c),
    (h c _ (mem_unscoped main_arg6 (by decide))).trans (mem8_main_arg6 m c),
    (h c _ (mem_unscoped main_arg7 (by decide))).trans (mem8_main_arg7 m c),
    (h c _ (mem_unscoped main_arg8 (by decide))).trans (mem8_main_arg8 m c),
    (h c _ (mem_unscoped main_arg9 (by decide))).trans (mem8_main_arg9 m c),
    (h c _ (mem_unscoped main_arg10 (by decide))).trans (mem8_main_arg10 m c),
    (h c _ (mem_unscoped main_arg11 (by decide))).trans (mem8_main_arg11 m c)⟩) (run_all m ρ)

/-- The run with the result named: the result buffer ends at what the head's region leaves in its output array. -/
theorem run_result (ρ : Dev nD → PrngReg) : θ_run defs (onTc (τ := τ) (main (F := F))) ⟨m, fun _ => 0, ρ⟩ (fun r => ∀ c : Dev nD,
      r.2.mem ((c.tc : Thread nD τ).loc main_v110) = (data3 (entry3 m) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_unscoped main_v110 (by decide))).trans (mem8_arr m c 6),
    (h c _ (mem_unscoped main_arg0 (by decide))).trans (mem8_main_arg0 m c),
    (h c _ (mem_unscoped main_arg1 (by decide))).trans (mem8_main_arg1 m c),
    (h c _ (mem_unscoped main_arg2 (by decide))).trans (mem8_main_arg2 m c),
    (h c _ (mem_unscoped main_arg3 (by decide))).trans (mem8_main_arg3 m c),
    (h c _ (mem_unscoped main_arg4 (by decide))).trans (mem8_main_arg4 m c),
    (h c _ (mem_unscoped main_arg5 (by decide))).trans (mem8_main_arg5 m c),
    (h c _ (mem_unscoped main_arg6 (by decide))).trans (mem8_main_arg6 m c),
    (h c _ (mem_unscoped main_arg7 (by decide))).trans (mem8_main_arg7 m c),
    (h c _ (mem_unscoped main_arg8 (by decide))).trans (mem8_main_arg8 m c),
    (h c _ (mem_unscoped main_arg9 (by decide))).trans (mem8_main_arg9 m c),
    (h c _ (mem_unscoped main_arg10 (by decide))).trans (mem8_main_arg10 m c),
    (h c _ (mem_unscoped main_arg11 (by decide))).trans (mem8_main_arg11 m c)⟩) (run_all m ρ)

end Cert.KernelIdeal.Layers

end
-- ==== Proof.Spec.lean ====
/-
  The network's arithmetic over the extended reals, one output entry at a time, with no program in sight.
  A layer's entry depends on one row of the node features and of the aggregated neighbour features;
  the head's entry depends on the pooled sums and the node counts of all 64 graphs.
  The two literals are kept as the words both programs spell them with.
-/
import Idealize.ShloMosaic.PureOps.Ideal
import Idealize.ShloMosaic.Lib.ValueIdx

noncomputable section

open scoped BigOperators

namespace GinSpec

open Idealize.ShloMosaic

/-- The float words of 1 and 0, read exactly. -/
abbrev one : EReal := Ideal.ofBits .f32 0x3F800000#32
abbrev zero : EReal := Ideal.ofBits .f32 0x00000000#32

/-- Column `j` of one node's new features: with `z = (1 + e)·h + g` the node's mixed features,
    `max(z·W1 + b1, 0)·W2 + b2` at `j`. -/
def layerAt (h g : Fin 128 → EReal) (e : EReal) (W1 : Fin 128 → Fin 128 → EReal) (b1 : Fin 128 → EReal)
    (W2 : Fin 128 → Fin 128 → EReal) (b2 : Fin 128 → EReal) (j : Fin 128) : EReal :=
  (∑ k : Fin 128, max ((∑ k' : Fin 128, ((one + e) * h k' + g k') * W1 k' k) + b1 k) zero * W2 k j) + b2 j

/-- Column `j` of the read-out: with `μ k' = Σ_b sums b k' / max(counts b, 1)` the summed graph means,
    `max(max(μ·A + a, 0)·B + b, 0)` at `j`. -/
def headAt (sums : Fin 64 → Fin 384 → EReal) (counts : Fin 64 → EReal) (A : Fin 384 → Fin 128 → EReal) (a : Fin 128 → EReal)
    (B : Fin 128 → Fin 64 → EReal) (b : Fin 64 → EReal) (j : Fin 64) : EReal :=
  max ((∑ k : Fin 128, max ((∑ k' : Fin 384, (∑ g : Fin 64, Ideal.div (sums g k') (max (counts g) one)) * A k' k) + a k) zero * B k j) + b j) zero

open Idealize.ShloMosaic.ValueIdx in
/-- A layer's whole output: entry (r, j) is `layerAt` on row r of the features `h` and of the neighbour sums `g`. -/
def layerOf (h g : (⟨2, ![50000, 128]⟩ : Shape).Idx → EReal) (e : EReal) (W1 : (⟨2, ![128, 128]⟩ : Shape).Idx → EReal) (b1 : Fin 128 → EReal)
    (W2 : (⟨2, ![128, 128]⟩ : Shape).Idx → EReal) (b2 : Fin 128 → EReal) : (⟨2, ![50000, 128]⟩ : Shape).Idx → EReal :=
  fun i => layerAt (fun k' => h (ix2 (n0 := 50000) (i 0) k')) (fun k' => g (ix2 (n0 := 50000) (i 0) k')) e (fun k' k => W1 (ix2 k' k)) b1
    (fun k' k => W2 (ix2 k' k)) b2 (i 1)

open Idealize.ShloMosaic.ValueIdx in
/-- The read-out's whole [1, 64] output. -/
def headOf (sums : (⟨2, ![64, 384]⟩ : Shape).Idx → EReal) (counts : (⟨2, ![64, 1]⟩ : Shape).Idx → EReal) (A : (⟨2, ![384, 128]⟩ : Shape).Idx → EReal)
    (a : Fin 128 → EReal) (B : (⟨2, ![128, 64]⟩ : Shape).Idx → EReal) (b : Fin 64 → EReal) : (⟨2, ![1, 64]⟩ : Shape).Idx → EReal :=
  fun i => headAt (fun g k' => sums (ix2 g k')) (fun g => counts (ix2 g (0 : Fin 1))) (fun k' k => A (ix2 k' k)) a (fun k j => B (ix2 k j)) b (i 1)

end GinSpec

end
-- ==== Proof.IdealKept.lean ====
/-
  What stays put between boundaries. No host stretch writes an argument and no region changes one, so at every
  boundary an argument's buffer holds the launch contents; the two weight stacks the first stretch rounds to a
  shorter float format are written once and never again, so later stretches find them as the first one left them.
-/
import proofs.«110857_j32409823216461_2_alg».proof.Proof.IdealRun
import proofs.«110857_j32409823216461_2_alg».proof.Proof.Spec
import Idealize.ShloMosaic.Lib.StableHlo.Run
import Idealize.ShloMosaic.Lib.Pipeline.Value
import Idealize.ShloMosaic.Lib.ValueLayout

set_option maxRecDepth 16384
set_option pp.maxSteps 5000
set_option pp.deepTerms false

noncomputable section

namespace Cert.KernelIdeal.Layers

open Cert.KernelIdeal Cert.KernelIdeal.Gen GinSpec
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

theorem kept2_arg1 (c : Dev nD) : mem2 m c (Proc.devRef .tc main_arg1) = m ((c : Thread nD τ).loc main_arg1) :=
  (mem2_of_ne m c main_arg1 (by decide)).trans (mem1_of m c main_arg1 (by decide))
theorem kept2_arg2 (c : Dev nD) : mem2 m c (Proc.devRef .tc main_arg2) = m ((c : Thread nD τ).loc main_arg2) :=
  (mem2_of_ne m c main_arg2 (by decide)).trans (mem1_of m c main_arg2 (by decide))
theorem kept2_arg3 (c : Dev nD) : mem2 m c (Proc.devRef .tc main_arg3) = m ((c : Thread nD τ).loc main_arg3) :=
  (mem2_of_ne m c main_arg3 (by decide)).trans (mem1_of m c main_arg3 (by decide))
theorem kept2_arg5 (c : Dev nD) : mem2 m c (Proc.devRef .tc main_arg5) = m ((c : Thread nD τ).loc main_arg5) :=
  (mem2_of_ne m c main_arg5 (by decide)).trans (mem1_of m c main_arg5 (by decide))
theorem kept2_arg7 (c : Dev nD) : mem2 m c (Proc.devRef .tc main_arg7) = m ((c : Thread nD τ).loc main_arg7) :=
  (mem2_of_ne m c main_arg7 (by decide)).trans (mem1_of m c main_arg7 (by decide))
theorem kept2_arg8 (c : Dev nD) : mem2 m c (Proc.devRef .tc main_arg8) = m ((c : Thread nD τ).loc main_arg8) :=
  (mem2_of_ne m c main_arg8 (by decide)).trans (mem1_of m c main_arg8 (by decide))
theorem kept2_arg9 (c : Dev nD) : mem2 m c (Proc.devRef .tc main_arg9) = m ((c : Thread nD τ).loc main_arg9) :=
  (mem2_of_ne m c main_arg9 (by decide)).trans (mem1_of m c main_arg9 (by decide))
theorem kept2_arg10 (c : Dev nD) : mem2 m c (Proc.devRef .tc main_arg10) = m ((c : Thread nD τ).loc main_arg10) :=
  (mem2_of_ne m c main_arg10 (by decide)).trans (mem1_of m c main_arg10 (by decide))
theorem kept2_arg11 (c : Dev nD) : mem2 m c (Proc.devRef .tc main_arg11) = m ((c : Thread nD τ).loc main_arg11) :=
  (mem2_of_ne m c main_arg11 (by decide)).trans (mem1_of m c main_arg11 (by decide))

theorem kept4_arg1 (c : Dev nD) : mem4 m c (Proc.devRef .tc main_arg1) = m ((c : Thread nD τ).loc main_arg1) :=
  (mem4_of_ne m c main_arg1 (by decide)).trans ((mem3_of m c main_arg1 (by decide)).trans (kept2_arg1 m c))
theorem kept4_arg2 (c : Dev nD) : mem4 m c (Proc.devRef .tc main_arg2) = m ((c : Thread nD τ).loc main_arg2) :=
  (mem4_of_ne m c main_arg2 (by decide)).trans ((mem3_of m c main_arg2 (by decide)).trans (kept2_arg2 m c))
theorem kept4_arg3 (c : Dev nD) : mem4 m c (Proc.devRef .tc main_arg3) = m ((c : Thread nD τ).loc main_arg3) :=
  (mem4_of_ne m c main_arg3 (by decide)).trans ((mem3_of m c main_arg3 (by decide)).trans (kept2_arg3 m c))
theorem kept4_arg5 (c : Dev nD) : mem4 m c (Proc.devRef .tc main_arg5) = m ((c : Thread nD τ).loc main_arg5) :=
  (mem4_of_ne m c main_arg5 (by decide)).trans ((mem3_of m c main_arg5 (by decide)).trans (kept2_arg5 m c))
theorem kept4_arg7 (c : Dev nD) : mem4 m c (Proc.devRef .tc main_arg7) = m ((c : Thread nD τ).loc main_arg7) :=
  (mem4_of_ne m c main_arg7 (by decide)).trans ((mem3_of m c main_arg7 (by decide)).trans (kept2_arg7 m c))
theorem kept4_arg8 (c : Dev nD) : mem4 m c (Proc.devRef .tc main_arg8) = m ((c : Thread nD τ).loc main_arg8) :=
  (mem4_of_ne m c main_arg8 (by decide)).trans ((mem3_of m c main_arg8 (by decide)).trans (kept2_arg8 m c))
theorem kept4_arg9 (c : Dev nD) : mem4 m c (Proc.devRef .tc main_arg9) = m ((c : Thread nD τ).loc main_arg9) :=
  (mem4_of_ne m c main_arg9 (by decide)).trans ((mem3_of m c main_arg9 (by decide)).trans (kept2_arg9 m c))
theorem kept4_arg10 (c : Dev nD) : mem4 m c (Proc.devRef .tc main_arg10) = m ((c : Thread nD τ).loc main_arg10) :=
  (mem4_of_ne m c main_arg10 (by decide)).trans ((mem3_of m c main_arg10 (by decide)).trans (kept2_arg10 m c))
theorem kept4_arg11 (c : Dev nD) : mem4 m c (Proc.devRef .tc main_arg11) = m ((c : Thread nD τ).loc main_arg11) :=
  (mem4_of_ne m c main_arg11 (by decide)).trans ((mem3_of m c main_arg11 (by decide)).trans (kept2_arg11 m c))

theorem kept6_arg1 (c : Dev nD) : mem6 m c (Proc.devRef .tc main_arg1) = m ((c : Thread nD τ).loc main_arg1) :=
  (mem6_of_ne m c main_arg1 (by decide)).trans ((mem5_of m c main_arg1 (by decide)).trans (kept4_arg1 m c))
theorem kept6_arg2 (c : Dev nD) : mem6 m c (Proc.devRef .tc main_arg2) = m ((c : Thread nD τ).loc main_arg2) :=
  (mem6_of_ne m c main_arg2 (by decide)).trans ((mem5_of m c main_arg2 (by decide)).trans (kept4_arg2 m c))
theorem kept6_arg3 (c : Dev nD) : mem6 m c (Proc.devRef .tc main_arg3) = m ((c : Thread nD τ).loc main_arg3) :=
  (mem6_of_ne m c main_arg3 (by decide)).trans ((mem5_of m c main_arg3 (by decide)).trans (kept4_arg3 m c))
theorem kept6_arg5 (c : Dev nD) : mem6 m c (Proc.devRef .tc main_arg5) = m ((c : Thread nD τ).loc main_arg5) :=
  (mem6_of_ne m c main_arg5 (by decide)).trans ((mem5_of m c main_arg5 (by decide)).trans (kept4_arg5 m c))
theorem kept6_arg7 (c : Dev nD) : mem6 m c (Proc.devRef .tc main_arg7) = m ((c : Thread nD τ).loc main_arg7) :=
  (mem6_of_ne m c main_arg7 (by decide)).trans ((mem5_of m c main_arg7 (by decide)).trans (kept4_arg7 m c))
theorem kept6_arg8 (c : Dev nD) : mem6 m c (Proc.devRef .tc main_arg8) = m ((c : Thread nD τ).loc main_arg8) :=
  (mem6_of_ne m c main_arg8 (by decide)).trans ((mem5_of m c main_arg8 (by decide)).trans (kept4_arg8 m c))
theorem kept6_arg9 (c : Dev nD) : mem6 m c (Proc.devRef .tc main_arg9) = m ((c : Thread nD τ).loc main_arg9) :=
  (mem6_of_ne m c main_arg9 (by decide)).trans ((mem5_of m c main_arg9 (by decide)).trans (kept4_arg9 m c))
theorem kept6_arg10 (c : Dev nD) : mem6 m c (Proc.devRef .tc main_arg10) = m ((c : Thread nD τ).loc main_arg10) :=
  (mem6_of_ne m c main_arg10 (by decide)).trans ((mem5_of m c main_arg10 (by decide)).trans (kept4_arg10 m c))
theorem kept6_arg11 (c : Dev nD) : mem6 m c (Proc.devRef .tc main_arg11) = m ((c : Thread nD τ).loc main_arg11) :=
  (mem6_of_ne m c main_arg11 (by decide)).trans ((mem5_of m c main_arg11 (by decide)).trans (kept4_arg11 m c))

set_option maxHeartbeats 4000000 in
/-- The first weight stack as the first stretch leaves it: rounded to a shorter float format, which over the
    extended reals is the argument itself. -/
theorem made_v0 (c : Dev nD) : mem1 m c (Proc.devRef .tc main_v0) = m ((c : Thread nD τ).loc main_arg4) := by
  dsimp only [mem1, mem0, hostOps0]
  after_results_simp <;> rfl

set_option maxHeartbeats 4000000 in
/-- The second weight stack, likewise. -/
theorem made_v1 (c : Dev nD) : mem1 m c (Proc.devRef .tc main_v1) = m ((c : Thread nD τ).loc main_arg6) := by
  dsimp only [mem1, mem0, hostOps0]
  after_results_simp <;> rfl

theorem kept2_v0 (c : Dev nD) : mem2 m c (Proc.devRef .tc main_v0) = m ((c : Thread nD τ).loc main_arg4) :=
  (mem2_of_ne m c main_v0 (by decide)).trans (made_v0 m c)
theorem kept2_v1 (c : Dev nD) : mem2 m c (Proc.devRef .tc main_v1) = m ((c : Thread nD τ).loc main_arg6) :=
  (mem2_of_ne m c main_v1 (by decide)).trans (made_v1 m c)
theorem kept4_v0 (c : Dev nD) : mem4 m c (Proc.devRef .tc main_v0) = m ((c : Thread nD τ).loc main_arg4) :=
  (mem4_of_ne m c main_v0 (by decide)).trans ((mem3_of m c main_v0 (by decide)).trans (kept2_v0 m c))
theorem kept4_v1 (c : Dev nD) : mem4 m c (Proc.devRef .tc main_v1) = m ((c : Thread nD τ).loc main_arg6) :=
  (mem4_of_ne m c main_v1 (by decide)).trans ((mem3_of m c main_v1 (by decide)).trans (kept2_v1 m c))

end Cert.KernelIdeal.Layers
end
-- ==== Proof.IdealParams0.lean ====
/-
  Host stretch 0, the layer's parameters: the scalar, the two weights and the two bias rows that layer stage 1's
  region finds are the reference's own slices of the arguments — the same slice, re-laid through one more shape on
  this side (a [1,1] cell for a rank-0 scalar, a [1,128] row for a [128] vector), and for the weights rounded to a
  shorter float format, which over the extended reals is the identity.
-/
import proofs.«110857_j32409823216461_2_alg».proof.Proof.IdealKept
import proofs.«110857_j32409823216461_2_alg».proof.Proof.Gen.ReferenceIdeal.Read

set_option maxRecDepth 16384
set_option pp.maxSteps 5000
set_option pp.deepTerms false

noncomputable section

namespace Cert.KernelIdeal.Layers

open Cert.KernelIdeal Cert.KernelIdeal.Gen GinSpec
open Cert.ReferenceIdeal.Read
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

set_option maxHeartbeats 4000000 in
theorem found0_eps (c : Dev nD) : entry0 m c main_v20 (ix2 (0 : Fin 1) (0 : Fin 1)) = val_main_v1 (F := Ideal) (m ((c : Thread nD τ).loc main_arg3)) ix0 := by
  dsimp only [entry0, mem1, mem0, hostOps0]
  after_results_simp
  refine (shapeCast_apply _ _ (ix2 (0 : Fin 1) (0 : Fin 1)) ix0 rfl).trans ?_
  rfl

set_option maxHeartbeats 4000000 in
theorem found0_W1 (c : Dev nD) : entry0 m c main_v28 = val_main_v3 (F := Ideal) (m ((c : Thread nD τ).loc main_arg4)) := by
  dsimp only [entry0, mem1, mem0, hostOps0]
  after_results_simp
  rfl

set_option maxHeartbeats 4000000 in
theorem found0_b1 (c : Dev nD) (k : Fin 128) : entry0 m c main_v23 (ix2 (0 : Fin 1) k) = val_main_v5 (F := Ideal) (m ((c : Thread nD τ).loc main_arg5)) (ix1 k) := by
  dsimp only [entry0, mem1, mem0, hostOps0]
  after_results_simp
  exact shapeCast_a_1a_apply _ _ (0 : Fin 1) k

set_option maxHeartbeats 4000000 in
theorem found0_W2 (c : Dev nD) : entry0 m c main_v30 = val_main_v7 (F := Ideal) (m ((c : Thread nD τ).loc main_arg6)) := by
  dsimp only [entry0, mem1, mem0, hostOps0]
  after_results_simp
  rfl

set_option maxHeartbeats 4000000 in
theorem found0_b2 (c : Dev nD) (k : Fin 128) : entry0 m c main_v26 (ix2 (0 : Fin 1) k) = val_main_v9 (F := Ideal) (m ((c : Thread nD τ).loc main_arg7)) (ix1 k) := by
  dsimp only [entry0, mem1, mem0, hostOps0]
  after_results_simp
  exact shapeCast_a_1a_apply _ _ (0 : Fin 1) k

end Cert.KernelIdeal.Layers
end
-- ==== Proof.IdealParams1.lean ====
/-
  Host stretch 1, the layer's parameters: the scalar, the two weights and the two bias rows that layer stage 2's
  region finds are the reference's own slices of the arguments — the same slice, re-laid through one more shape on
  this side (a [1,1] cell for a rank-0 scalar, a [1,128] row for a [128] vector), and for the weights rounded to a
  shorter float format, which over the extended reals is the identity.
-/
import proofs.«110857_j32409823216461_2_alg».proof.Proof.IdealKept
import proofs.«110857_j32409823216461_2_alg».proof.Proof.Gen.ReferenceIdeal.Read

set_option maxRecDepth 16384
set_option pp.maxSteps 5000
set_option pp.deepTerms false

noncomputable section

namespace Cert.KernelIdeal.Layers

open Cert.KernelIdeal Cert.KernelIdeal.Gen GinSpec
open Cert.ReferenceIdeal.Read
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

set_option maxHeartbeats 4000000 in
theorem found1_eps (c : Dev nD) : entry1 m c main_v53 (ix2 (0 : Fin 1) (0 : Fin 1)) = val_main_v39 (F := Ideal) (m ((c : Thread nD τ).loc main_arg3)) ix0 := by
  dsimp only [entry1, mem3, hostOps1]
  after_results_simp
  rw [kept2_arg3 m c]
  refine (shapeCast_apply _ _ (ix2 (0 : Fin 1) (0 : Fin 1)) ix0 rfl).trans ?_
  rfl

set_option maxHeartbeats 4000000 in
theorem found1_W1 (c : Dev nD) : entry1 m c main_v61 = val_main_v41 (F := Ideal) (m ((c : Thread nD τ).loc main_arg4)) := by
  dsimp only [entry1, mem3, hostOps1]
  after_results_simp
  rw [kept2_v0 m c]
  rfl

set_option maxHeartbeats 4000000 in
theorem found1_b1 (c : Dev nD) (k : Fin 128) : entry1 m c main_v56 (ix2 (0 : Fin 1) k) = val_main_v43 (F := Ideal) (m ((c : Thread nD τ).loc main_arg5)) (ix1 k) := by
  dsimp only [entry1, mem3, hostOps1]
  after_results_simp
  rw [kept2_arg5 m c]
  exact shapeCast_a_1a_apply _ _ (0 : Fin 1) k

set_option maxHeartbeats 4000000 in
theorem found1_W2 (c : Dev nD) : entry1 m c main_v63 = val_main_v45 (F := Ideal) (m ((c : Thread nD τ).loc main_arg6)) := by
  dsimp only [entry1, mem3, hostOps1]
  after_results_simp
  rw [kept2_v1 m c]
  rfl

set_option maxHeartbeats 4000000 in
theorem found1_b2 (c : Dev nD) (k : Fin 128) : entry1 m c main_v59 (ix2 (0 : Fin 1) k) = val_main_v47 (F := Ideal) (m ((c : Thread nD τ).loc main_arg7)) (ix1 k) := by
  dsimp only [entry1, mem3, hostOps1]
  after_results_simp
  rw [kept2_arg7 m c]
  exact shapeCast_a_1a_apply _ _ (0 : Fin 1) k

end Cert.KernelIdeal.Layers
end
-- ==== Proof.IdealParams2.lean ====
/-
  Host stretch 2, the layer's parameters: the scalar, the two weights and the two bias rows that layer stage 3's
  region finds are the reference's own slices of the arguments — the same slice, re-laid through one more shape on
  this side (a [1,1] cell for a rank-0 scalar, a [1,128] row for a [128] vector), and for the weights rounded to a
  shorter float format, which over the extended reals is the identity.
-/
import proofs.«110857_j32409823216461_2_alg».proof.Proof.IdealKept
import proofs.«110857_j32409823216461_2_alg».proof.Proof.Gen.ReferenceIdeal.Read

set_option maxRecDepth 16384
set_option pp.maxSteps 5000
set_option pp.deepTerms false

noncomputable section

namespace Cert.KernelIdeal.Layers

open Cert.KernelIdeal Cert.KernelIdeal.Gen GinSpec
open Cert.ReferenceIdeal.Read
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

set_option maxHeartbeats 4000000 in
theorem found2_eps (c : Dev nD) : entry2 m c main_v86 (ix2 (0 : Fin 1) (0 : Fin 1)) = val_main_v77 (F := Ideal) (m ((c : Thread nD τ).loc main_arg3)) ix0 := by
  dsimp only [entry2, mem5, hostOps2]
  after_results_simp
  rw [kept4_arg3 m c]
  refine (shapeCast_apply _ _ (ix2 (0 : Fin 1) (0 : Fin 1)) ix0 rfl).trans ?_
  rfl

set_option maxHeartbeats 4000000 in
theorem found2_W1 (c : Dev nD) : entry2 m c main_v94 = val_main_v79 (F := Ideal) (m ((c : Thread nD τ).loc main_arg4)) := by
  dsimp only [entry2, mem5, hostOps2]
  after_results_simp
  rw [kept4_v0 m c]
  rfl

set_option maxHeartbeats 4000000 in
theorem found2_b1 (c : Dev nD) (k : Fin 128) : entry2 m c main_v89 (ix2 (0 : Fin 1) k) = val_main_v81 (F := Ideal) (m ((c : Thread nD τ).loc main_arg5)) (ix1 k) := by
  dsimp only [entry2, mem5, hostOps2]
  after_results_simp
  rw [kept4_arg5 m c]
  exact shapeCast_a_1a_apply _ _ (0 : Fin 1) k

set_option maxHeartbeats 4000000 in
theorem found2_W2 (c : Dev nD) : entry2 m c main_v96 = val_main_v83 (F := Ideal) (m ((c : Thread nD τ).loc main_arg6)) := by
  dsimp only [entry2, mem5, hostOps2]
  after_results_simp
  rw [kept4_v1 m c]
  rfl

set_option maxHeartbeats 4000000 in
theorem found2_b2 (c : Dev nD) (k : Fin 128) : entry2 m c main_v92 (ix2 (0 : Fin 1) k) = val_main_v85 (F := Ideal) (m ((c : Thread nD τ).loc main_arg7)) (ix1 k) := by
  dsimp only [entry2, mem5, hostOps2]
  after_results_simp
  rw [kept4_arg7 m c]
  exact shapeCast_a_1a_apply _ _ (0 : Fin 1) k

end Cert.KernelIdeal.Layers
end
-- ==== Proof.IdealParams3.lean ====
/-
  The last host stretch, the head's parameters and the node counts: the counts are the reference's own scatter-add
  of ones by graph number; the two dense weights are the arguments (rounded, which is the identity here); the two
  bias rows are the argument vectors laid as [1, n] rows.
-/
import proofs.«110857_j32409823216461_2_alg».proof.Proof.IdealKept
import proofs.«110857_j32409823216461_2_alg».proof.Proof.Gen.ReferenceIdeal.Read

set_option maxRecDepth 16384
set_option pp.maxSteps 5000
set_option pp.deepTerms false

noncomputable section

namespace Cert.KernelIdeal.Layers

open Cert.KernelIdeal Cert.KernelIdeal.Gen GinSpec
open Cert.ReferenceIdeal.Read
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

set_option maxHeartbeats 4000000 in
theorem found3_counts (c : Dev nD) : entry3 m c main_v105 = val_main_v121 (F := Ideal) (m ((c : Thread nD τ).loc main_arg2)) := by
  dsimp only [entry3, mem7, hostOps3]
  after_results_simp
  rw [kept6_arg2 m c]
  rfl

set_option maxHeartbeats 4000000 in
theorem found3_A (c : Dev nD) : entry3 m c main_v106 = (m ((c : Thread nD τ).loc main_arg8)) := by
  dsimp only [entry3, mem7, hostOps3]
  after_results_simp
  rw [kept6_arg8 m c]
  rfl

set_option maxHeartbeats 4000000 in
theorem found3_a (c : Dev nD) (k : Fin 128) : entry3 m c main_v108 (ix2 (0 : Fin 1) k) = (m ((c : Thread nD τ).loc main_arg9)) (ix1 k) := by
  dsimp only [entry3, mem7, hostOps3]
  after_results_simp
  rw [kept6_arg9 m c]
  exact shapeCast_a_1a_apply _ _ (0 : Fin 1) k

set_option maxHeartbeats 4000000 in
theorem found3_B (c : Dev nD) : entry3 m c main_v107 = (m ((c : Thread nD τ).loc main_arg10)) := by
  dsimp only [entry3, mem7, hostOps3]
  after_results_simp
  rw [kept6_arg10 m c]
  rfl

set_option maxHeartbeats 4000000 in
theorem found3_b (c : Dev nD) (j : Fin 64) : entry3 m c main_v109 (ix2 (0 : Fin 1) j) = (m ((c : Thread nD τ).loc main_arg11)) (ix1 j) := by
  dsimp only [entry3, mem7, hostOps3]
  after_results_simp
  rw [kept6_arg11 m c]
  exact shapeCast_a_1a_apply _ _ (0 : Fin 1) j

end Cert.KernelIdeal.Layers
end
-- ==== Proof.LibMatmul.lean ====
/-
  A plain matrix product read at an index, over the extended reals.

  For l : [A, K] and r : [K, B], contracted over the one shared axis with no batch axes, entry (a, b) of the
  product is the sum over k of l(a, k) · r(k, b) — for the host's dot product and for the kernel's matrix
  product into a zero accumulator alike. Generic in A, K, B.
-/
import Idealize.ShloMosaic.Lib.ValueIdx
import Idealize.ShloMosaic.PureOps.Ideal.Laws

noncomputable section

open scoped BigOperators

namespace Idealize.ShloMosaic.MatmulIdx

open Idealize.ShloMosaic Idealize.ShloMosaic.ValueIdx

/-- The dimension numbers of l @ r for l : [A, K], r : [K, B]: contract axis 1 of l with axis 0 of r. -/
abbrev mmDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

theorem lhs_row (j : (⟨2, ![A, B]⟩ : Shape).Idx) (q : (mmDims A K B wf).contr.Idx) :
    ((mmDims A K B wf).lhsIdx j q 0).val = (j 0).val := by
  unfold DotDims.lhsIdx
  rw [dif_neg (show ¬(0 : Fin (⟨2, ![A, K]⟩ : Shape).rank) ∈ (mmDims A K B wf).lhsBatch from List.not_mem_nil),
    dif_pos (show (0 : Fin (⟨2, ![A, K]⟩ : Shape).rank) ∈ (mmDims A K B wf).lhsNonContracting from List.mem_singleton.mpr rfl)]
  rfl

theorem lhs_contr (j : (⟨2, ![A, B]⟩ : Shape).Idx) (q : (mmDims A K B wf).contr.Idx) :
    ((mmDims A K B wf).lhsIdx j q 1).val = (q ⟨0, (Nat.zero_lt_one : 0 < (mmDims A K B wf).contr.rank)⟩).val :=
  (mmDims A K B wf).lhsIdx_val_of_single rfl j q

theorem rhs_contr (j : (⟨2, ![A, B]⟩ : Shape).Idx) (q : (mmDims A K B wf).contr.Idx) :
    ((mmDims A K B wf).rhsIdx j q 0).val = (q ⟨0, (Nat.zero_lt_one : 0 < (mmDims A K B wf).contr.rank)⟩).val :=
  (mmDims A K B wf).rhsIdx_val_of_single rfl j q

theorem rhs_col (j : (⟨2, ![A, B]⟩ : Shape).Idx) (q : (mmDims A K B wf).contr.Idx) :
    ((mmDims A K B wf).rhsIdx j q 1).val = (j 1).val := by
  unfold DotDims.rhsIdx
  rw [dif_neg (show ¬(1 : Fin (⟨2, ![K, B]⟩ : Shape).rank) ∈ (mmDims A K B wf).rhsBatch from List.not_mem_nil),
    dif_pos (show (1 : Fin (⟨2, ![K, B]⟩ : Shape).rank) ∈ (mmDims A K B wf).rhsNonContracting from List.mem_singleton.mpr rfl)]
  rfl

/-- The contraction's index set is the K positions of the shared axis: the sum over it is the sum over k. -/
theorem contr_sum (l : (⟨2, ![A, K]⟩ : Shape).Idx → EReal) (r : (⟨2, ![K, B]⟩ : Shape).Idx → EReal) (a : Fin A) (b : Fin B) :
    ∑ q : (mmDims A K B wf).contr.Idx, l ((mmDims A K B wf).lhsIdx (ix2 a b) q) * r ((mmDims A K B wf).rhsIdx (ix2 a b) q)
      = ∑ k : Fin K, l (ix2 a k) * r (ix2 k b) := by
  rw [← Equiv.sum_comp (contrEquiv1 (mmDims A K B wf) K rfl rfl).symm]
  refine Finset.sum_congr rfl fun k _ => ?_
  have hk := contrEquiv1_symm_val (mmDims A K B wf) K rfl rfl k
  have el : (mmDims A K B wf).lhsIdx (ix2 a b) ((contrEquiv1 (mmDims A K B wf) K rfl rfl).symm k) = ix2 a k :=
    funext fun x => Fin.ext (by
      match x with
      | ⟨0, _⟩ => exact lhs_row wf _ _
      | ⟨1, _⟩ => exact (lhs_contr wf _ _).trans hk)
  have er : (mmDims A K B wf).rhsIdx (ix2 a b) ((contrEquiv1 (mmDims A K B wf) K rfl rfl).symm k) = ix2 k b :=
    funext fun x => Fin.ext (by
      match x with
      | ⟨0, _⟩ => exact (rhs_contr wf _ _).trans hk
      | ⟨1, _⟩ => exact rhs_col wf _ _)
  rw [el, er]

/-- The host's dot product at (a, b). -/
theorem dotGeneral_ix2 {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (mmDims A K B wf) prec sched l r (ix2 a b) = ∑ k : Fin K, l (ix2 a k) * r (ix2 k b) :=
  (Ideal.dotGeneral_apply _ prec sched l r _).trans (contr_sum wf l r a b)

/-- The kernel's matrix product into a zero accumulator at (a, b). -/
theorem matmul_zero_ix2 {φ₁ φ₂ : FTy} (prec : Option ContractPrecision)
    (l : FVec Ideal ⟨2, ![A, K]⟩ φ₁) (r : FVec Ideal ⟨2, ![K, B]⟩ φ₂) (a : Fin A) (b : Fin B) :
    FloatOps.matmul (mmDims A K B wf) prec l r (constant ⟨2, ![A, B]⟩ .f32 0x00000000#32) (ix2 a b)
      = ∑ k : Fin K, l (ix2 a k) * r (ix2 k b) :=
  (Ideal.matmul_constant_zero_apply _ prec l r _).trans (contr_sum wf l r a b)

end Idealize.ShloMosaic.MatmulIdx

end
-- ==== Proof.IdealPayloads.lean ====
/-
  What the kernel bodies store, read one entry at a time over the extended reals: a layer stage's block at
  (row, column) is the layer's entry of the specification on that row of its input blocks; the head's row at a
  column is the head's entry on its whole inputs. A change of float format is the identity here, a product into a
  zero accumulator is the plain sum over the shared axis, and a one-row, one-column or one-cell array spread over
  a block reads its single row, column or cell.
-/
import proofs.«110857_j32409823216461_2_alg».proof.Proof.Gen.KernelIdeal.Skeleton
import proofs.«110857_j32409823216461_2_alg».proof.Proof.LibMatmul
import proofs.«110857_j32409823216461_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section
open scoped BigOperators
namespace Cert.KernelIdeal.Payloads
open Cert.KernelIdeal Cert.KernelIdeal.Gen Idealize.ShloMosaic Idealize.ShloMosaic.ValueIdx Idealize.ShloMosaic.MatmulIdx GinSpec

variable {α : Type}

/-- A one-cell array spread over an [a, b] block reads its cell everywhere. -/
theorem cell_spread {a b : ℕ} (v : (⟨2, ![1, 1]⟩ : Shape).Idx → α) (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An [a, 1] column spread over [a, b] reads, at (p, c), the column's entry p. -/
theorem column_spread {a b : ℕ} (v : (⟨2, ![a, 1]⟩ : Shape).Idx → α) (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem dims_eq : dot_S5000x128_S128x128_S5000x128_1_0_0_1_n_n = mmDims 5000 128 128 dot_S5000x128_S128x128_S5000x128_1_0_0_1_n_n_wf := rfl
theorem dimsA_eq : dot_S1x384_S384x128_S1x128_1_0_0_1_n_n = mmDims 1 384 128 dot_S1x384_S384x128_S1x128_1_0_0_1_n_n_wf := rfl
theorem dimsB_eq : dot_S1x128_S128x64_S1x64_1_0_0_1_n_n = mmDims 1 128 64 dot_S1x128_S128x64_S1x64_1_0_0_1_n_n_wf := rfl

/-- Layer 1's stored block read at row `p`, column `q`: the layer's arithmetic on row `p` of the node-feature and
    neighbour-sum blocks, with the resident scalar, weights and bias rows. -/
theorem pay0_at (v0 v1 : Vec Ideal S5000x128 .f32) (v3 : Vec Ideal S1x1 .f32) (v11 : Vec Ideal S128x128 .bf16) (v14 : Vec Ideal S1x128 .f32)
    (v21 : Vec Ideal S128x128 .bf16) (v24 : Vec Ideal S1x128 .f32) (p : Fin 5000) (q : Fin 128) :
    k0_pay1 (F := Ideal) v0 v1 v3 v11 v14 v21 v24 (ix2 p q)
      = layerAt (fun k' => v0 (ix2 p k')) (fun k' => v1 (ix2 p k')) (v3 (ix2 (0 : Fin 1) (0 : Fin 1))) (fun k' k => v11 (ix2 k' k)) (fun k => v14 (ix2 (0 : Fin 1) k))
          (fun k' k => v21 (ix2 k' k)) (fun k => v24 (ix2 (0 : Fin 1) k)) q := by
  unfold k0_pay1 layerAt
  simp only [shapeCast_self, dims_eq]
  unfold Idealize.ShloMosaic.matmul
  rw [addf_apply, broadcastTo_1b_ab_apply, matmul_zero_ix2]
  refine congrArg (· + v24 (ix2 (0 : Fin 1) q)) ?_
  refine Finset.sum_congr rfl fun k _ => ?_
  rw [truncf_apply, maximumf_apply, addf_apply, broadcast_apply, broadcastTo_1b_ab_apply, matmul_zero_ix2]
  refine congrArg (fun x => max (x + v14 (ix2 (0 : Fin 1) k)) zero * v21 (ix2 k q)) ?_
  refine Finset.sum_congr rfl fun k' _ => ?_
  rw [truncf_apply, addf_apply, mulf_apply, cell_spread, addf_apply, broadcast_apply]
  rfl

/-- Layer 2's stored block read at row `p`, column `q`: the layer's arithmetic on row `p` of the node-feature and
    neighbour-sum blocks, with the resident scalar, weights and bias rows. -/
theorem pay1_at (v0 v1 : Vec Ideal S5000x128 .f32) (v3 : Vec Ideal S1x1 .f32) (v11 : Vec Ideal S128x128 .bf16) (v14 : Vec Ideal S1x128 .f32)
    (v21 : Vec Ideal S128x128 .bf16) (v24 : Vec Ideal S1x128 .f32) (p : Fin 5000) (q : Fin 128) :
    k1_pay1 (F := Ideal) v0 v1 v3 v11 v14 v21 v24 (ix2 p q)
      = layerAt (fun k' => v0 (ix2 p k')) (fun k' => v1 (ix2 p k')) (v3 (ix2 (0 : Fin 1) (0 : Fin 1))) (fun k' k => v11 (ix2 k' k)) (fun k => v14 (ix2 (0 : Fin 1) k))
          (fun k' k => v21 (ix2 k' k)) (fun k => v24 (ix2 (0 : Fin 1) k)) q := by
  unfold k1_pay1 layerAt
  simp only [shapeCast_self, dims_eq]
  unfold Idealize.ShloMosaic.matmul
  rw [addf_apply, broadcastTo_1b_ab_apply, matmul_zero_ix2]
  refine congrArg (· + v24 (ix2 (0 : Fin 1) q)) ?_
  refine Finset.sum_congr rfl fun k _ => ?_
  rw [truncf_apply, maximumf_apply, addf_apply, broadcast_apply, broadcastTo_1b_ab_apply, matmul_zero_ix2]
  refine congrArg (fun x => max (x + v14 (ix2 (0 : Fin 1) k)) zero * v21 (ix2 k q)) ?_
  refine Finset.sum_congr rfl fun k' _ => ?_
  rw [truncf_apply, addf_apply, mulf_apply, cell_spread, addf_apply, broadcast_apply]
  rfl

/-- Layer 3's stored block read at row `p`, column `q`: the layer's arithmetic on row `p` of the node-feature and
    neighbour-sum blocks, with the resident scalar, weights and bias rows. -/
theorem pay2_at (v0 v1 : Vec Ideal S5000x128 .f32) (v3 : Vec Ideal S1x1 .f32) (v11 : Vec Ideal S128x128 .bf16) (v14 : Vec Ideal S1x128 .f32)
    (v21 : Vec Ideal S128x128 .bf16) (v24 : Vec Ideal S1x128 .f32) (p : Fin 5000) (q : Fin 128) :
    k2_pay1 (F := Ideal) v0 v1 v3 v11 v14 v21 v24 (ix2 p q)
      = layerAt (fun k' => v0 (ix2 p k')) (fun k' => v1 (ix2 p k')) (v3 (ix2 (0 : Fin 1) (0 : Fin 1))) (fun k' k => v11 (ix2 k' k)) (fun k => v14 (ix2 (0 : Fin 1) k))
          (fun k' k => v21 (ix2 k' k)) (fun k => v24 (ix2 (0 : Fin 1) k)) q := by
  unfold k2_pay1 layerAt
  simp only [shapeCast_self, dims_eq]
  unfold Idealize.ShloMosaic.matmul
  rw [addf_apply, broadcastTo_1b_ab_apply, matmul_zero_ix2]
  refine congrArg (· + v24 (ix2 (0 : Fin 1) q)) ?_
  refine Finset.sum_congr rfl fun k _ => ?_
  rw [truncf_apply, maximumf_apply, addf_apply, broadcast_apply, broadcastTo_1b_ab_apply, matmul_zero_ix2]
  refine congrArg (fun x => max (x + v14 (ix2 (0 : Fin 1) k)) zero * v21 (ix2 k q)) ?_
  refine Finset.sum_congr rfl fun k' _ => ?_
  rw [truncf_apply, addf_apply, mulf_apply, cell_spread, addf_apply, broadcast_apply]
  rfl

/-- The sum over the 64 graphs of a [64, 384] array, kept as a [1, 384] row, read at column k'. -/
theorem graph_sum_at (v7 : FVec Ideal S64x384 .f32) (k' : Fin 384) :
    shapeCast S1x384 (multiReduction .add [0] S384 v7 0x00000000#32 reduces_S64x384_S384 (.inl rfl) rfl) shapeCasts_S384_S1x384 (ix2 (0 : Fin 1) k')
      = ∑ g : Fin 64, v7 (ix2 g k') := by
  rw [shapeCast_a_1a_apply]
  refine (Ideal.multiReduction_add_single v7 0x00000000#32 reduces_S64x384_S384 (.inl rfl) rfl (ix1 k')).trans ?_
  exact Finset.sum_congr rfl fun g _ => congrArg v7 (funext fun ax => by
    match ax with
    | ⟨0, _⟩ => rfl
    | ⟨1, _⟩ => rfl)

/-- The head's stored row read at column `q`: the head's entry of the specification on the pooled sums, the
    counts, and the two dense layers' weights and bias rows. -/
theorem pay3_at (v0 : Vec Ideal S64x384 .f32) (v2 : Vec Ideal S64x1 .f32) (v11 : Vec Ideal S384x128 .bf16) (v14 : Vec Ideal S1x128 .f32)
    (v20 : Vec Ideal S128x64 .bf16) (v23 : Vec Ideal S1x64 .f32) (q : Fin 64) :
    k3_pay1 (F := Ideal) v0 v2 v11 v14 v20 v23 (ix2 (0 : Fin 1) q)
      = headAt (fun g k' => v0 (ix2 g k')) (fun g => v2 (ix2 g (0 : Fin 1))) (fun k' k => v11 (ix2 k' k)) (fun k => v14 (ix2 (0 : Fin 1) k))
          (fun k j => v20 (ix2 k j)) (fun j => v23 (ix2 (0 : Fin 1) j)) q := by
  unfold k3_pay1 headAt
  simp only [shapeCast_self, dimsA_eq, dimsB_eq]
  unfold Idealize.ShloMosaic.matmul
  rw [maximumf_apply, broadcast_apply, addf_apply, matmul_zero_ix2]
  refine congrArg (fun x => max (x + v23 (ix2 (0 : Fin 1) q)) zero) ?_
  refine Finset.sum_congr rfl fun k _ => ?_
  rw [truncf_apply, maximumf_apply, broadcast_apply, addf_apply, matmul_zero_ix2]
  refine congrArg (fun x => max (x + v14 (ix2 (0 : Fin 1) k)) zero * v20 (ix2 k q)) ?_
  refine Finset.sum_congr rfl fun k' _ => ?_
  rw [truncf_apply, graph_sum_at]
  refine congrArg (· * v11 (ix2 k' k)) ?_
  refine Finset.sum_congr rfl fun g _ => ?_
  rw [divf_apply, column_spread, maximumf_apply, broadcast_apply]
  rfl

end Cert.KernelIdeal.Payloads
end
-- ==== Proof.IdealLayerArray0.lean ====
/-
  Layer stage 1's output array after its region, as one function of the seven arrays the region reads.
  Grid point t writes back rows 5000·t … 5000·t + 4999, each entry the layer's arithmetic on that row of the
  features and of the neighbour sums; the ten blocks tile the 50000 rows (row r lies in block r / 5000), so the
  array ends holding that function everywhere.
-/
import proofs.«110857_j32409823216461_2_alg».proof.Proof.IdealLayer0
import proofs.«110857_j32409823216461_2_alg».proof.Proof.IdealPayloads
import proofs.«110857_j32409823216461_2_alg».proof.Proof.Spec
import Idealize.ShloMosaic.Lib.Pipeline.Value
import Idealize.ShloMosaic.Lib.ValueIdx

set_option maxRecDepth 16384
set_option pp.maxSteps 5000
set_option pp.deepTerms false

noncomputable section

namespace Cert.KernelIdeal.Layers

open Cert.KernelIdeal Cert.KernelIdeal.Gen Cert.KernelIdeal.Payloads GinSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin0 : (![0, 0] : Fin 2 → Nat) = fun _ => 0 := funext fun a => by fin_cases a <;> rfl

/-- The layer's output as a function of the region's arrays. -/
def layerOut0 (c : Dev nD) : S50000x128.Idx → Elt Ideal .f32 :=
  layerOf (V c main_arg0) (V c main_v17) (V c main_v20 (ix2 (0 : Fin 1) (0 : Fin 1))) (V c main_v28) (fun k => V c main_v23 (ix2 (0 : Fin 1) k))
    (V c main_v30) (fun k => V c main_v26 (ix2 (0 : Fin 1) k))

/-- The block index of every window at every point, decided over the grid: the three tiled windows sit at row
    block t, column block 0; the resident ones never move. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- What point `t` writes back is block `t` of `layerOut0`. -/
theorem written0 (c : Dev nD) (t : Fin cfg0.N) :
    (data0 V c).flushed 7 t = ((cfg0.win 7).blk t).view.read (Elt Ideal) (layerOut0 V c) := by
  show (cfg0.win 7).cut (grid0.coords t) ((data0 V c).after 7 t) = _
  rw [data0_after_7]
  unfold stored0
  rw [View.canon_unit_zero origin0]
  simp only [View.ld_unit_zero (S := S5000x128) origin0, View.ld_unit_zero (S := S1x1) origin0, View.ld_unit_zero (S := S128x128) origin0, View.ld_unit_zero (S := S1x128) origin0]
  funext j
  obtain ⟨p, q, rfl⟩ : ∃ (p : Fin 5000) (q : Fin 128), j = ix2 p q := ⟨j 0, j 1, eq_ix2 j⟩
  obtain ⟨e00, e01, e10, e11, e70, e71, e20, e21, e30, e31, e40, e41, e50, e51, e60, e61⟩ := block_index0 t
  have hN : cfg0.N = 10 := N_0
  have ht : t.val < 10 := hN ▸ t.isLt
  show k0_pay1 (F := Ideal) (blockAt0 V c 0 t) (blockAt0 V c 1 t) (blockAt0 V c 2 t) (blockAt0 V c 3 t) (blockAt0 V c 4 t) (blockAt0 V c 5 t) (blockAt0 V c 6 t) (ix2 p q)
      = layerOut0 V c (((cfg0.win 7).blk t).view.emb (ix2 p q))
  refine (pay0_at (blockAt0 V c 0 t) (blockAt0 V c 1 t) (blockAt0 V c 2 t) (blockAt0 V c 3 t) (blockAt0 V c 4 t) (blockAt0 V c 5 t) (blockAt0 V c 6 t) p q).trans ?_
  have hout : ((cfg0.win 7).blk t).view.emb (ix2 p q) = ix2 (n0 := 50000) (n1 := 128) ⟨t.val * 5000 + p.val, by omega⟩ q := by
    funext a; apply Fin.ext
    match a with
    | ⟨0, _⟩ => show win0_7.index t (0 : Fin 2) * 5000 + 1 * p.val = t.val * 5000 + p.val; omega
    | ⟨1, _⟩ => show win0_7.index t (1 : Fin 2) * 128 + 1 * q.val = q.val; omega
  rw [hout]
  have h0 : ∀ k' : Fin 128, blockAt0 V c 0 t (ix2 p k') = V c main_arg0 (ix2 (n0 := 50000) (n1 := 128) ⟨t.val * 5000 + p.val, by omega⟩ k') := fun k' => by
    show V c main_arg0 (((cfg0.win 0).blk t).view.emb (ix2 p k')) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k'.val = k'.val; omega
  have h1 : ∀ k' : Fin 128, blockAt0 V c 1 t (ix2 p k') = V c main_v17 (ix2 (n0 := 50000) (n1 := 128) ⟨t.val * 5000 + p.val, by omega⟩ k') := fun k' => by
    show V c main_v17 (((cfg0.win 1).blk t).view.emb (ix2 p k')) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k'.val = k'.val; omega
  have h2 : ∀ (u : Fin 1), blockAt0 V c 2 t (ix2 (0 : Fin 1) u) = V c main_v20 (ix2 (0 : Fin 1) u) := fun u => by
    show V c main_v20 (((cfg0.win 2).blk t).view.emb (ix2 (0 : Fin 1) u)) = _
    refine congrArg _ (funext fun a => Fin.ext ?_)
    match a with
    | ⟨0, _⟩ => show win0_2.index t (0 : Fin 2) * 1 + 1 * ((0 : Fin 1) : Fin 1).val = ((0 : Fin 1) : Fin 1).val; omega
    | ⟨1, _⟩ => show win0_2.index t (1 : Fin 2) * 1 + 1 * (u : Fin 1).val = (u : Fin 1).val; omega
  have h3 : ∀ (k' : Fin 128) (k : Fin 128), blockAt0 V c 3 t (ix2 k' k) = V c main_v28 (ix2 k' k) := fun k' k => by
    show V c main_v28 (((cfg0.win 3).blk t).view.emb (ix2 k' k)) = _
    refine congrArg _ (funext fun a => Fin.ext ?_)
    match a with
    | ⟨0, _⟩ => show win0_3.index t (0 : Fin 2) * 128 + 1 * (k' : Fin 128).val = (k' : Fin 128).val; omega
    | ⟨1, _⟩ => show win0_3.index t (1 : Fin 2) * 128 + 1 * (k : Fin 128).val = (k : Fin 128).val; omega
  have h4 : ∀ (k : Fin 128), blockAt0 V c 4 t (ix2 (0 : Fin 1) k) = V c main_v23 (ix2 (0 : Fin 1) k) := fun k => by
    show V c main_v23 (((cfg0.win 4).blk t).view.emb (ix2 (0 : Fin 1) k)) = _
    refine congrArg _ (funext fun a => Fin.ext ?_)
    match a with
    | ⟨0, _⟩ => show win0_4.index t (0 : Fin 2) * 1 + 1 * ((0 : Fin 1) : Fin 1).val = ((0 : Fin 1) : Fin 1).val; omega
    | ⟨1, _⟩ => show win0_4.index t (1 : Fin 2) * 128 + 1 * (k : Fin 128).val = (k : Fin 128).val; omega
  have h5 : ∀ (k' : Fin 128) (k : Fin 128), blockAt0 V c 5 t (ix2 k' k) = V c main_v30 (ix2 k' k) := fun k' k => by
    show V c main_v30 (((cfg0.win 5).blk t).view.emb (ix2 k' k)) = _
    refine congrArg _ (funext fun a => Fin.ext ?_)
    match a with
    | ⟨0, _⟩ => show win0_5.index t (0 : Fin 2) * 128 + 1 * (k' : Fin 128).val = (k' : Fin 128).val; omega
    | ⟨1, _⟩ => show win0_5.index t (1 : Fin 2) * 128 + 1 * (k : Fin 128).val = (k : Fin 128).val; omega
  have h6 : ∀ (k : Fin 128), blockAt0 V c 6 t (ix2 (0 : Fin 1) k) = V c main_v26 (ix2 (0 : Fin 1) k) := fun k => by
    show V c main_v26 (((cfg0.win 6).blk t).view.emb (ix2 (0 : Fin 1) k)) = _
    refine congrArg _ (funext fun a => Fin.ext ?_)
    match a with
    | ⟨0, _⟩ => show win0_6.index t (0 : Fin 2) * 1 + 1 * ((0 : Fin 1) : Fin 1).val = ((0 : Fin 1) : Fin 1).val; omega
    | ⟨1, _⟩ => show win0_6.index t (1 : Fin 2) * 128 + 1 * (k : Fin 128).val = (k : Fin 128).val; omega
  simp only [h0, h1, h2, h3, h4, h5, h6]
  rfl

/-- An index of the output array lies in point `t`'s block iff each coordinate is in the block's range on its axis. -/
theorem in_block0 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v31).slice (win0_7.rect t)).set ↔ _
  rw [View.set_slice_whole, Rect.mem_set_unit]
  exact Iff.rfl

/-- The output array after the region is `layerOut0`: every row lies in the block of some point, row r in block r / 5000. -/
theorem layer0_array (c : Dev nD) : (data0 V c).arrAt 7 cfg0.N = layerOut0 V c :=
  (data0 V c).arrAt_eq_of_cover 7 (layerOut0 V c) (fun t _ => written0 V c t) fun i => by
    have hi0 : (i 0).val < 50000 := (i 0).isLt
    have hi1 : (i 1).val < 128 := (i 1).isLt
    have hN : cfg0.N = 10 := N_0
    obtain ⟨t, htv⟩ : ∃ t : Fin cfg0.N, t.val = (i 0).val / 5000 := ⟨⟨(i 0).val / 5000, by rw [hN]; omega⟩, rfl⟩
    obtain ⟨-, -, -, -, e70, e71, -⟩ := block_index0 t
    refine ⟨t, flush0_7 t, ?_⟩
    rw [in_block0]
    intro a
    match a with
    | ⟨0, _⟩ => show win0_7.index t (0 : Fin 2) * 5000 ≤ (i 0).val ∧ (i 0).val < win0_7.index t (0 : Fin 2) * 5000 + 5000; omega
    | ⟨1, _⟩ => show win0_7.index t (1 : Fin 2) * 128 ≤ (i 1).val ∧ (i 1).val < win0_7.index t (1 : Fin 2) * 128 + 128; omega

end Cert.KernelIdeal.Layers

end
-- ==== Proof.IdealLayerArray1.lean ====
/-
  Layer stage 2's output array after its region, as one function of the seven arrays the region reads.
  Grid point t writes back rows 5000·t … 5000·t + 4999, each entry the layer's arithmetic on that row of the
  features and of the neighbour sums; the ten blocks tile the 50000 rows (row r lies in block r / 5000), so the
  array ends holding that function everywhere.
-/
import proofs.«110857_j32409823216461_2_alg».proof.Proof.IdealLayer1
import proofs.«110857_j32409823216461_2_alg».proof.Proof.IdealPayloads
import proofs.«110857_j32409823216461_2_alg».proof.Proof.Spec
import Idealize.ShloMosaic.Lib.Pipeline.Value
import Idealize.ShloMosaic.Lib.ValueIdx

set_option maxRecDepth 16384
set_option pp.maxSteps 5000
set_option pp.deepTerms false

noncomputable section

namespace Cert.KernelIdeal.Layers

open Cert.KernelIdeal Cert.KernelIdeal.Gen Cert.KernelIdeal.Payloads GinSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin1 : (![0, 0] : Fin 2 → Nat) = fun _ => 0 := funext fun a => by fin_cases a <;> rfl

/-- The layer's output as a function of the region's arrays. -/
def layerOut1 (c : Dev nD) : S50000x128.Idx → Elt Ideal .f32 :=
  layerOf (V c main_v31) (V c main_v50) (V c main_v53 (ix2 (0 : Fin 1) (0 : Fin 1))) (V c main_v61) (fun k => V c main_v56 (ix2 (0 : Fin 1) k))
    (V c main_v63) (fun k => V c main_v59 (ix2 (0 : Fin 1) k))

/-- The block index of every window at every point, decided over the grid: the three tiled windows sit at row
    block t, column block 0; the resident ones never move. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- What point `t` writes back is block `t` of `layerOut1`. -/
theorem written1 (c : Dev nD) (t : Fin cfg1.N) :
    (data1 V c).flushed 7 t = ((cfg1.win 7).blk t).view.read (Elt Ideal) (layerOut1 V c) := by
  show (cfg1.win 7).cut (grid1.coords t) ((data1 V c).after 7 t) = _
  rw [data1_after_7]
  unfold stored1
  rw [View.canon_unit_zero origin1]
  simp only [View.ld_unit_zero (S := S5000x128) origin1, View.ld_unit_zero (S := S1x1) origin1, View.ld_unit_zero (S := S128x128) origin1, View.ld_unit_zero (S := S1x128) origin1]
  funext j
  obtain ⟨p, q, rfl⟩ : ∃ (p : Fin 5000) (q : Fin 128), j = ix2 p q := ⟨j 0, j 1, eq_ix2 j⟩
  obtain ⟨e00, e01, e10, e11, e70, e71, e20, e21, e30, e31, e40, e41, e50, e51, e60, e61⟩ := block_index1 t
  have hN : cfg1.N = 10 := N_1
  have ht : t.val < 10 := hN ▸ t.isLt
  show k1_pay1 (F := Ideal) (blockAt1 V c 0 t) (blockAt1 V c 1 t) (blockAt1 V c 2 t) (blockAt1 V c 3 t) (blockAt1 V c 4 t) (blockAt1 V c 5 t) (blockAt1 V c 6 t) (ix2 p q)
      = layerOut1 V c (((cfg1.win 7).blk t).view.emb (ix2 p q))
  refine (pay1_at (blockAt1 V c 0 t) (blockAt1 V c 1 t) (blockAt1 V c 2 t) (blockAt1 V c 3 t) (blockAt1 V c 4 t) (blockAt1 V c 5 t) (blockAt1 V c 6 t) p q).trans ?_
  have hout : ((cfg1.win 7).blk t).view.emb (ix2 p q) = ix2 (n0 := 50000) (n1 := 128) ⟨t.val * 5000 + p.val, by omega⟩ q := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * q.val = q.val; omega
  rw [hout]
  have h0 : ∀ k' : Fin 128, blockAt1 V c 0 t (ix2 p k') = V c main_v31 (ix2 (n0 := 50000) (n1 := 128) ⟨t.val * 5000 + p.val, by omega⟩ k') := fun k' => by
    show V c main_v31 (((cfg1.win 0).blk t).view.emb (ix2 p k')) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k'.val = k'.val; omega
  have h1 : ∀ k' : Fin 128, blockAt1 V c 1 t (ix2 p k') = V c main_v50 (ix2 (n0 := 50000) (n1 := 128) ⟨t.val * 5000 + p.val, by omega⟩ k') := fun k' => by
    show V c main_v50 (((cfg1.win 1).blk t).view.emb (ix2 p k')) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k'.val = k'.val; omega
  have h2 : ∀ (u : Fin 1), blockAt1 V c 2 t (ix2 (0 : Fin 1) u) = V c main_v53 (ix2 (0 : Fin 1) u) := fun u => by
    show V c main_v53 (((cfg1.win 2).blk t).view.emb (ix2 (0 : Fin 1) u)) = _
    refine congrArg _ (funext fun a => Fin.ext ?_)
    match a with
    | ⟨0, _⟩ => show win1_2.index t (0 : Fin 2) * 1 + 1 * ((0 : Fin 1) : Fin 1).val = ((0 : Fin 1) : Fin 1).val; omega
    | ⟨1, _⟩ => show win1_2.index t (1 : Fin 2) * 1 + 1 * (u : Fin 1).val = (u : Fin 1).val; omega
  have h3 : ∀ (k' : Fin 128) (k : Fin 128), blockAt1 V c 3 t (ix2 k' k) = V c main_v61 (ix2 k' k) := fun k' k => by
    show V c main_v61 (((cfg1.win 3).blk t).view.emb (ix2 k' k)) = _
    refine congrArg _ (funext fun a => Fin.ext ?_)
    match a with
    | ⟨0, _⟩ => show win1_3.index t (0 : Fin 2) * 128 + 1 * (k' : Fin 128).val = (k' : Fin 128).val; omega
    | ⟨1, _⟩ => show win1_3.index t (1 : Fin 2) * 128 + 1 * (k : Fin 128).val = (k : Fin 128).val; omega
  have h4 : ∀ (k : Fin 128), blockAt1 V c 4 t (ix2 (0 : Fin 1) k) = V c main_v56 (ix2 (0 : Fin 1) k) := fun k => by
    show V c main_v56 (((cfg1.win 4).blk t).view.emb (ix2 (0 : Fin 1) k)) = _
    refine congrArg _ (funext fun a => Fin.ext ?_)
    match a with
    | ⟨0, _⟩ => show win1_4.index t (0 : Fin 2) * 1 + 1 * ((0 : Fin 1) : Fin 1).val = ((0 : Fin 1) : Fin 1).val; omega
    | ⟨1, _⟩ => show win1_4.index t (1 : Fin 2) * 128 + 1 * (k : Fin 128).val = (k : Fin 128).val; omega
  have h5 : ∀ (k' : Fin 128) (k : Fin 128), blockAt1 V c 5 t (ix2 k' k) = V c main_v63 (ix2 k' k) := fun k' k => by
    show V c main_v63 (((cfg1.win 5).blk t).view.emb (ix2 k' k)) = _
    refine congrArg _ (funext fun a => Fin.ext ?_)
    match a with
    | ⟨0, _⟩ => show win1_5.index t (0 : Fin 2) * 128 + 1 * (k' : Fin 128).val = (k' : Fin 128).val; omega
    | ⟨1, _⟩ => show win1_5.index t (1 : Fin 2) * 128 + 1 * (k : Fin 128).val = (k : Fin 128).val; omega
  have h6 : ∀ (k : Fin 128), blockAt1 V c 6 t (ix2 (0 : Fin 1) k) = V c main_v59 (ix2 (0 : Fin 1) k) := fun k => by
    show V c main_v59 (((cfg1.win 6).blk t).view.emb (ix2 (0 : Fin 1) k)) = _
    refine congrArg _ (funext fun a => Fin.ext ?_)
    match a with
    | ⟨0, _⟩ => show win1_6.index t (0 : Fin 2) * 1 + 1 * ((0 : Fin 1) : Fin 1).val = ((0 : Fin 1) : Fin 1).val; omega
    | ⟨1, _⟩ => show win1_6.index t (1 : Fin 2) * 128 + 1 * (k : Fin 128).val = (k : Fin 128).val; omega
  simp only [h0, h1, h2, h3, h4, h5, h6]
  rfl

/-- An index of the output array lies in point `t`'s block iff each coordinate is in the block's range on its axis. -/
theorem in_block1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v64).slice (win1_7.rect t)).set ↔ _
  rw [View.set_slice_whole, Rect.mem_set_unit]
  exact Iff.rfl

/-- The output array after the region is `layerOut1`: every row lies in the block of some point, row r in block r / 5000. -/
theorem layer1_array (c : Dev nD) : (data1 V c).arrAt 7 cfg1.N = layerOut1 V c :=
  (data1 V c).arrAt_eq_of_cover 7 (layerOut1 V c) (fun t _ => written1 V c t) fun i => by
    have hi0 : (i 0).val < 50000 := (i 0).isLt
    have hi1 : (i 1).val < 128 := (i 1).isLt
    have hN : cfg1.N = 10 := N_1
    obtain ⟨t, htv⟩ : ∃ t : Fin cfg1.N, t.val = (i 0).val / 5000 := ⟨⟨(i 0).val / 5000, by rw [hN]; omega⟩, rfl⟩
    obtain ⟨-, -, -, -, e70, e71, -⟩ := block_index1 t
    refine ⟨t, flush1_7 t, ?_⟩
    rw [in_block1]
    intro a
    match a with
    | ⟨0, _⟩ => show win1_7.index t (0 : Fin 2) * 5000 ≤ (i 0).val ∧ (i 0).val < win1_7.index t (0 : Fin 2) * 5000 + 5000; omega
    | ⟨1, _⟩ => show win1_7.index t (1 : Fin 2) * 128 ≤ (i 1).val ∧ (i 1).val < win1_7.index t (1 : Fin 2) * 128 + 128; omega

end Cert.KernelIdeal.Layers

end
-- ==== Proof.IdealLayerArray2.lean ====
/-
  Layer stage 3's output array after its region, as one function of the seven arrays the region reads.
  Grid point t writes back rows 5000·t … 5000·t + 4999, each entry the layer's arithmetic on that row of the
  features and of the neighbour sums; the ten blocks tile the 50000 rows (row r lies in block r / 5000), so the
  array ends holding that function everywhere.
-/
import proofs.«110857_j32409823216461_2_alg».proof.Proof.IdealLayer2
import proofs.«110857_j32409823216461_2_alg».proof.Proof.IdealPayloads
import proofs.«110857_j32409823216461_2_alg».proof.Proof.Spec
import Idealize.ShloMosaic.Lib.Pipeline.Value
import Idealize.ShloMosaic.Lib.ValueIdx

set_option maxRecDepth 16384
set_option pp.maxSteps 5000
set_option pp.deepTerms false

noncomputable section

namespace Cert.KernelIdeal.Layers

open Cert.KernelIdeal Cert.KernelIdeal.Gen Cert.KernelIdeal.Payloads GinSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The layer's output as a function of the region's arrays. -/
def layerOut2 (c : Dev nD) : S50000x128.Idx → Elt Ideal .f32 :=
  layerOf (V c main_v64) (V c main_v83) (V c main_v86 (ix2 (0 : Fin 1) (0 : Fin 1))) (V c main_v94) (fun k => V c main_v89 (ix2 (0 : Fin 1) k))
    (V c main_v96) (fun k => V c main_v92 (ix2 (0 : Fin 1) k))

/-- The block index of every window at every point, decided over the grid: the three tiled windows sit at row
    block t, column block 0; the resident ones never move. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- What point `t` writes back is block `t` of `layerOut2`. -/
theorem written2 (c : Dev nD) (t : Fin cfg2.N) :
    (data2 V c).flushed 7 t = ((cfg2.win 7).blk t).view.read (Elt Ideal) (layerOut2 V c) := by
  show (cfg2.win 7).cut (grid2.coords t) ((data2 V c).after 7 t) = _
  rw [data2_after_7]
  unfold stored2
  rw [View.canon_unit_zero origin2]
  simp only [View.ld_unit_zero (S := S5000x128) origin2, View.ld_unit_zero (S := S1x1) origin2, View.ld_unit_zero (S := S128x128) origin2, View.ld_unit_zero (S := S1x128) origin2]
  funext j
  obtain ⟨p, q, rfl⟩ : ∃ (p : Fin 5000) (q : Fin 128), j = ix2 p q := ⟨j 0, j 1, eq_ix2 j⟩
  obtain ⟨e00, e01, e10, e11, e70, e71, e20, e21, e30, e31, e40, e41, e50, e51, e60, e61⟩ := block_index2 t
  have hN : cfg2.N = 10 := N_2
  have ht : t.val < 10 := hN ▸ t.isLt
  show k2_pay1 (F := Ideal) (blockAt2 V c 0 t) (blockAt2 V c 1 t) (blockAt2 V c 2 t) (blockAt2 V c 3 t) (blockAt2 V c 4 t) (blockAt2 V c 5 t) (blockAt2 V c 6 t) (ix2 p q)
      = layerOut2 V c (((cfg2.win 7).blk t).view.emb (ix2 p q))
  refine (pay2_at (blockAt2 V c 0 t) (blockAt2 V c 1 t) (blockAt2 V c 2 t) (blockAt2 V c 3 t) (blockAt2 V c 4 t) (blockAt2 V c 5 t) (blockAt2 V c 6 t) p q).trans ?_
  have hout : ((cfg2.win 7).blk t).view.emb (ix2 p q) = ix2 (n0 := 50000) (n1 := 128) ⟨t.val * 5000 + p.val, by omega⟩ q := by
    funext a; apply Fin.ext
    match a with
    | ⟨0, _⟩ => show win2_7.index t (0 : Fin 2) * 5000 + 1 * p.val = t.val * 5000 + p.val; omega
    | ⟨1, _⟩ => show win2_7.index t (1 : Fin 2) * 128 + 1 * q.val = q.val; omega
  rw [hout]
  have h0 : ∀ k' : Fin 128, blockAt2 V c 0 t (ix2 p k') = V c main_v64 (ix2 (n0 := 50000) (n1 := 128) ⟨t.val * 5000 + p.val, by omega⟩ k') := fun k' => by
    show V c main_v64 (((cfg2.win 0).blk t).view.emb (ix2 p k')) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k'.val = k'.val; omega
  have h1 : ∀ k' : Fin 128, blockAt2 V c 1 t (ix2 p k') = V c main_v83 (ix2 (n0 := 50000) (n1 := 128) ⟨t.val * 5000 + p.val, by omega⟩ k') := fun k' => by
    show V c main_v83 (((cfg2.win 1).blk t).view.emb (ix2 p k')) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k'.val = k'.val; omega
  have h2 : ∀ (u : Fin 1), blockAt2 V c 2 t (ix2 (0 : Fin 1) u) = V c main_v86 (ix2 (0 : Fin 1) u) := fun u => by
    show V c main_v86 (((cfg2.win 2).blk t).view.emb (ix2 (0 : Fin 1) u)) = _
    refine congrArg _ (funext fun a => Fin.ext ?_)
    match a with
    | ⟨0, _⟩ => show win2_2.index t (0 : Fin 2) * 1 + 1 * ((0 : Fin 1) : Fin 1).val = ((0 : Fin 1) : Fin 1).val; omega
    | ⟨1, _⟩ => show win2_2.index t (1 : Fin 2) * 1 + 1 * (u : Fin 1).val = (u : Fin 1).val; omega
  have h3 : ∀ (k' : Fin 128) (k : Fin 128), blockAt2 V c 3 t (ix2 k' k) = V c main_v94 (ix2 k' k) := fun k' k => by
    show V c main_v94 (((cfg2.win 3).blk t).view.emb (ix2 k' k)) = _
    refine congrArg _ (funext fun a => Fin.ext ?_)
    match a with
    | ⟨0, _⟩ => show win2_3.index t (0 : Fin 2) * 128 + 1 * (k' : Fin 128).val = (k' : Fin 128).val; omega
    | ⟨1, _⟩ => show win2_3.index t (1 : Fin 2) * 128 + 1 * (k : Fin 128).val = (k : Fin 128).val; omega
  have h4 : ∀ (k : Fin 128), blockAt2 V c 4 t (ix2 (0 : Fin 1) k) = V c main_v89 (ix2 (0 : Fin 1) k) := fun k => by
    show V c main_v89 (((cfg2.win 4).blk t).view.emb (ix2 (0 : Fin 1) k)) = _
    refine congrArg _ (funext fun a => Fin.ext ?_)
    match a with
    | ⟨0, _⟩ => show win2_4.index t (0 : Fin 2) * 1 + 1 * ((0 : Fin 1) : Fin 1).val = ((0 : Fin 1) : Fin 1).val; omega
    | ⟨1, _⟩ => show win2_4.index t (1 : Fin 2) * 128 + 1 * (k : Fin 128).val = (k : Fin 128).val; omega
  have h5 : ∀ (k' : Fin 128) (k : Fin 128), blockAt2 V c 5 t (ix2 k' k) = V c main_v96 (ix2 k' k) := fun k' k => by
    show V c main_v96 (((cfg2.win 5).blk t).view.emb (ix2 k' k)) = _
    refine congrArg _ (funext fun a => Fin.ext ?_)
    match a with
    | ⟨0, _⟩ => show win2_5.index t (0 : Fin 2) * 128 + 1 * (k' : Fin 128).val = (k' : Fin 128).val; omega
    | ⟨1, _⟩ => show win2_5.index t (1 : Fin 2) * 128 + 1 * (k : Fin 128).val = (k : Fin 128).val; omega
  have h6 : ∀ (k : Fin 128), blockAt2 V c 6 t (ix2 (0 : Fin 1) k) = V c main_v92 (ix2 (0 : Fin 1) k) := fun k => by
    show V c main_v92 (((cfg2.win 6).blk t).view.emb (ix2 (0 : Fin 1) k)) = _
    refine congrArg _ (funext fun a => Fin.ext ?_)
    match a with
    | ⟨0, _⟩ => show win2_6.index t (0 : Fin 2) * 1 + 1 * ((0 : Fin 1) : Fin 1).val = ((0 : Fin 1) : Fin 1).val; omega
    | ⟨1, _⟩ => show win2_6.index t (1 : Fin 2) * 128 + 1 * (k : Fin 128).val = (k : Fin 128).val; omega
  simp only [h0, h1, h2, h3, h4, h5, h6]
  rfl

/-- An index of the output array lies in point `t`'s block iff each coordinate is in the block's range on its axis. -/
theorem in_block2 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v97).slice (win2_7.rect t)).set ↔ _
  rw [View.set_slice_whole, Rect.mem_set_unit]
  exact Iff.rfl

/-- The output array after the region is `layerOut2`: every row lies in the block of some point, row r in block r / 5000. -/
theorem layer2_array (c : Dev nD) : (data2 V c).arrAt 7 cfg2.N = layerOut2 V c :=
  (data2 V c).arrAt_eq_of_cover 7 (layerOut2 V c) (fun t _ => written2 V c t) fun i => by
    have hi0 : (i 0).val < 50000 := (i 0).isLt
    have hi1 : (i 1).val < 128 := (i 1).isLt
    have hN : cfg2.N = 10 := N_2
    obtain ⟨t, htv⟩ : ∃ t : Fin cfg2.N, t.val = (i 0).val / 5000 := ⟨⟨(i 0).val / 5000, by rw [hN]; omega⟩, rfl⟩
    obtain ⟨-, -, -, -, e70, e71, -⟩ := block_index2 t
    refine ⟨t, flush2_7 t, ?_⟩
    rw [in_block2]
    intro a
    match a with
    | ⟨0, _⟩ => show win2_7.index t (0 : Fin 2) * 5000 ≤ (i 0).val ∧ (i 0).val < win2_7.index t (0 : Fin 2) * 5000 + 5000; omega
    | ⟨1, _⟩ => show win2_7.index t (1 : Fin 2) * 128 ≤ (i 1).val ∧ (i 1).val < win2_7.index t (1 : Fin 2) * 128 + 128; omega

end Cert.KernelIdeal.Layers

end
-- ==== Proof.IdealHeadArray.lean ====
/-
  The head's output array after its region, as one function of the six arrays the region reads. There is one
  grid point; every window's block is its whole array, and the point writes the whole [1, 64] row, so the array
  ends holding the read-out's arithmetic on the pooled sums, the counts and the dense layers' parameters.
-/
import proofs.«110857_j32409823216461_2_alg».proof.Proof.IdealHead
import proofs.«110857_j32409823216461_2_alg».proof.Proof.IdealPayloads
import proofs.«110857_j32409823216461_2_alg».proof.Proof.Spec
import Idealize.ShloMosaic.Lib.Pipeline.Value
import Idealize.ShloMosaic.Lib.ValueIdx

set_option maxRecDepth 16384
set_option pp.maxSteps 5000
set_option pp.deepTerms false

noncomputable section

namespace Cert.KernelIdeal.Layers

open Cert.KernelIdeal Cert.KernelIdeal.Gen Cert.KernelIdeal.Payloads GinSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin3 : (![0, 0] : Fin 2 → Nat) = fun _ => 0 := funext fun a => by fin_cases a <;> rfl

/-- The read-out as a function of the region's arrays. -/
def headOut (c : Dev nD) : S1x64.Idx → Elt Ideal .f32 :=
  headOf (V c main_v101) (V c main_v105) (V c main_v106) (fun k => V c main_v108 (ix2 (0 : Fin 1) k)) (V c main_v107) (fun j => V c main_v109 (ix2 (0 : Fin 1) j))

/-- Every window sits at block (0, 0) at the one point. -/
theorem block_index3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- What the point writes back is the whole of `headOut`. -/
theorem written3 (c : Dev nD) (t : Fin cfg3.N) :
    (data3 V c).flushed 6 t = ((cfg3.win 6).blk t).view.read (Elt Ideal) (headOut V c) := by
  show (cfg3.win 6).cut (grid3.coords t) ((data3 V c).after 6 t) = _
  rw [data3_after_6]
  unfold stored3
  rw [View.canon_unit_zero origin3]
  simp only [View.ld_unit_zero (S := S64x384) origin3, View.ld_unit_zero (S := S64x1) origin3, View.ld_unit_zero (S := S384x128) origin3,
    View.ld_unit_zero (S := S1x128) origin3, View.ld_unit_zero (S := S128x64) origin3, View.ld_unit_zero (S := S1x64) origin3]
  funext j
  obtain ⟨u, q, rfl⟩ : ∃ (u : Fin 1) (q : Fin 64), j = ix2 u q := ⟨j 0, j 1, eq_ix2 j⟩
  obtain rfl : u = 0 := Subsingleton.elim _ _
  obtain ⟨e00, e01, e10, e11, e20, e21, e30, e31, e40, e41, e50, e51, e60, e61⟩ := block_index3 t
  show k3_pay1 (F := Ideal) (blockAt3 V c 0 t) (blockAt3 V c 1 t) (blockAt3 V c 2 t) (blockAt3 V c 3 t) (blockAt3 V c 4 t) (blockAt3 V c 5 t) (ix2 (0 : Fin 1) q)
      = headOut V c (((cfg3.win 6).blk t).view.emb (ix2 (0 : Fin 1) q))
  refine (pay3_at (blockAt3 V c 0 t) (blockAt3 V c 1 t) (blockAt3 V c 2 t) (blockAt3 V c 3 t) (blockAt3 V c 4 t) (blockAt3 V c 5 t) q).trans ?_
  have hout : ((cfg3.win 6).blk t).view.emb (ix2 (0 : Fin 1) q) = ix2 (n0 := 1) (n1 := 64) (0 : Fin 1) q := by
    funext a; apply Fin.ext
    match a with
    | ⟨0, _⟩ => show win3_6.index t (0 : Fin 2) * 1 + 1 * (0 : Fin 1).val = (0 : Fin 1).val; omega
    | ⟨1, _⟩ => show win3_6.index t (1 : Fin 2) * 64 + 1 * q.val = q.val; omega
  rw [hout]
  have h0 : ∀ (g : Fin 64) (k' : Fin 384), blockAt3 V c 0 t (ix2 g k') = V c main_v101 (ix2 g k') := fun g k' => by
    show V c main_v101 (((cfg3.win 0).blk t).view.emb (ix2 g k')) = _
    refine congrArg _ (funext fun a => Fin.ext ?_)
    match a with
    | ⟨0, _⟩ => show win3_0.index t (0 : Fin 2) * 64 + 1 * (g : Fin 64).val = (g : Fin 64).val; omega
    | ⟨1, _⟩ => show win3_0.index t (1 : Fin 2) * 384 + 1 * (k' : Fin 384).val = (k' : Fin 384).val; omega
  have h1 : ∀ (g : Fin 64), blockAt3 V c 1 t (ix2 g (0 : Fin 1)) = V c main_v105 (ix2 g (0 : Fin 1)) := fun g => by
    show V c main_v105 (((cfg3.win 1).blk t).view.emb (ix2 g (0 : Fin 1))) = _
    refine congrArg _ (funext fun a => Fin.ext ?_)
    match a with
    | ⟨0, _⟩ => show win3_1.index t (0 : Fin 2) * 64 + 1 * (g : Fin 64).val = (g : Fin 64).val; omega
    | ⟨1, _⟩ => show win3_1.index t (1 : Fin 2) * 1 + 1 * ((0 : Fin 1) : Fin 1).val = ((0 : Fin 1) : Fin 1).val; omega
  have h2 : ∀ (k' : Fin 384) (k : Fin 128), blockAt3 V c 2 t (ix2 k' k) = V c main_v106 (ix2 k' k) := fun k' k => by
    show V c main_v106 (((cfg3.win 2).blk t).view.emb (ix2 k' k)) = _
    refine congrArg _ (funext fun a => Fin.ext ?_)
    match a with
    | ⟨0, _⟩ => show win3_2.index t (0 : Fin 2) * 384 + 1 * (k' : Fin 384).val = (k' : Fin 384).val; omega
    | ⟨1, _⟩ => show win3_2.index t (1 : Fin 2) * 128 + 1 * (k : Fin 128).val = (k : Fin 128).val; omega
  have h3 : ∀ (k : Fin 128), blockAt3 V c 3 t (ix2 (0 : Fin 1) k) = V c main_v108 (ix2 (0 : Fin 1) k) := fun k => by
    show V c main_v108 (((cfg3.win 3).blk t).view.emb (ix2 (0 : Fin 1) k)) = _
    refine congrArg _ (funext fun a => Fin.ext ?_)
    match a with
    | ⟨0, _⟩ => show win3_3.index t (0 : Fin 2) * 1 + 1 * ((0 : Fin 1) : Fin 1).val = ((0 : Fin 1) : Fin 1).val; omega
    | ⟨1, _⟩ => show win3_3.index t (1 : Fin 2) * 128 + 1 * (k : Fin 128).val = (k : Fin 128).val; omega
  have h4 : ∀ (k : Fin 128) (j : Fin 64), blockAt3 V c 4 t (ix2 k j) = V c main_v107 (ix2 k j) := fun k j => by
    show V c main_v107 (((cfg3.win 4).blk t).view.emb (ix2 k j)) = _
    refine congrArg _ (funext fun a => Fin.ext ?_)
    match a with
    | ⟨0, _⟩ => show win3_4.index t (0 : Fin 2) * 128 + 1 * (k : Fin 128).val = (k : Fin 128).val; omega
    | ⟨1, _⟩ => show win3_4.index t (1 : Fin 2) * 64 + 1 * (j : Fin 64).val = (j : Fin 64).val; omega
  have h5 : ∀ (j : Fin 64), blockAt3 V c 5 t (ix2 (0 : Fin 1) j) = V c main_v109 (ix2 (0 : Fin 1) j) := fun j => by
    show V c main_v109 (((cfg3.win 5).blk t).view.emb (ix2 (0 : Fin 1) j)) = _
    refine congrArg _ (funext fun a => Fin.ext ?_)
    match a with
    | ⟨0, _⟩ => show win3_5.index t (0 : Fin 2) * 1 + 1 * ((0 : Fin 1) : Fin 1).val = ((0 : Fin 1) : Fin 1).val; omega
    | ⟨1, _⟩ => show win3_5.index t (1 : Fin 2) * 64 + 1 * (j : Fin 64).val = (j : Fin 64).val; omega
  unfold headOut headOf
  simp only [h0, h1, h2, h3, h4, h5]

theorem in_block3 (t : Fin cfg3.N) (i : S1x64.Idx) :
    i ∈ ((cfg3.win 6).blk t).view.set ↔ ∀ a : Fin 2, win3_6.index t a * S1x64.size a ≤ (i a).val ∧ (i a).val < win3_6.index t a * S1x64.size a + S1x64.size a := by
  show i ∈ ((View.whole main_v110).slice (win3_6.rect t)).set ↔ _
  rw [View.set_slice_whole, Rect.mem_set_unit]
  exact Iff.rfl

/-- The result array after the region is `headOut`. -/
theorem head_array (c : Dev nD) : (data3 V c).arrAt 6 cfg3.N = headOut V c :=
  (data3 V c).arrAt_eq_of_cover 6 (headOut V c) (fun t _ => written3 V c t) fun i => by
    have hi0 : (i 0).val < 1 := (i 0).isLt
    have hi1 : (i 1).val < 64 := (i 1).isLt
    obtain ⟨-, -, -, -, -, -, -, -, -, -, -, -, e60, e61⟩ := block_index3 t3_0
    refine ⟨t3_0, flush3_6 t3_0, ?_⟩
    rw [in_block3]
    intro a
    match a with
    | ⟨0, _⟩ => show win3_6.index t3_0 (0 : Fin 2) * 1 ≤ (i 0).val ∧ (i 0).val < win3_6.index t3_0 (0 : Fin 2) * 1 + 1; omega
    | ⟨1, _⟩ => show win3_6.index t3_0 (1 : Fin 2) * 64 ≤ (i 1).val ∧ (i 1).val < win3_6.index t3_0 (1 : Fin 2) * 64 + 64; omega

end Cert.KernelIdeal.Layers

end
-- ==== Proof.Reference.lean ====
/-
  The reference program read against the specification: each layer's output stage is the layer's arithmetic
  on the stages that feed it, entry by entry; the final stage is the read-out's arithmetic on the pooled sums
  and the counts.
-/
import proofs.«110857_j32409823216461_2_alg».proof.Proof.Gen.ReferenceIdeal.Read
import proofs.«110857_j32409823216461_2_alg».proof.Proof.Spec

set_option pp.maxSteps 5000
set_option pp.deepTerms false

noncomputable section
open scoped BigOperators

namespace Cert.ReferenceIdeal.Spec

open Cert.ReferenceIdeal Cert.ReferenceIdeal.Read Idealize.ShloMosaic Idealize.ShloMosaic.ValueIdx GinSpec

/-- Layer 1 of the reference: its output stage is the layer's arithmetic on its own feature, neighbour-sum and
    parameter stages. -/
theorem layer1 (x0 : (⟨S50000x128, .f32⟩ : BufTy).Contents (Elt Ideal)) (x1 : (⟨S2x1600000, .i32⟩ : BufTy).Contents (Elt Ideal)) (x3 : (⟨S3, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) :
    val_main_v37 (F := Ideal) x0 x1 x3 x4 x5 x6 x7
      = layerOf x0 (val_main_v23 (F := Ideal) x0 x1) (val_main_v1 (F := Ideal) x3 ix0) (val_main_v3 (F := Ideal) x4)
          (fun k => val_main_v5 (F := Ideal) x5 (ix1 k)) (val_main_v7 (F := Ideal) x6) (fun k => val_main_v9 (F := Ideal) x7 (ix1 k)) := by
  funext i
  obtain ⟨p, q, rfl⟩ : ∃ (p : Fin 50000) (q : Fin 128), i = ix2 p q := ⟨i 0, i 1, eq_ix2 i⟩
  unfold layerOf layerAt
  rw [val_main_v37_apply, val_main_v34_apply, val_main_v36_apply, val_main_v35_apply, Ideal.addf_def]
  have eb2 : idx_main_v35 (idx_main_v36 (ix2 p q)) = ix1 q := funext fun a => Fin.ext (by match a with | ⟨0, _⟩ => rfl)
  rw [eb2]
  refine congrArg (· + val_main_v9 (F := Ideal) x7 (ix1 q)) ?_
  refine Finset.sum_congr rfl fun k _ => ?_
  have el : lidx_main_v34 (ix2 p q) k = ix2 p k := funext fun a => Fin.ext (by match a with | ⟨0, _⟩ => rfl | ⟨1, _⟩ => rfl)
  have er : ridx_main_v34 (ix2 p q) k = ix2 k q := funext fun a => Fin.ext (by match a with | ⟨0, _⟩ => rfl | ⟨1, _⟩ => rfl)
  rw [el, er, val_main_v33_apply, val_main_v32_apply, val_main_cst_2_apply, val_main_v31_apply, val_main_v28_apply, val_main_v30_apply,
    val_main_v29_apply, Ideal.maximumf_def, Ideal.addf_def, Ideal.ofBits_def]
  have eb1 : idx_main_v29 (idx_main_v30 (ix2 p k)) = ix1 k := funext fun a => Fin.ext (by match a with | ⟨0, _⟩ => rfl)
  rw [eb1]
  refine congrArg (fun x => max (x + val_main_v5 (F := Ideal) x5 (ix1 k)) zero * val_main_v7 (F := Ideal) x6 (ix2 k q)) ?_
  refine Finset.sum_congr rfl fun k' _ => ?_
  have el' : lidx_main_v28 (ix2 p k) k' = ix2 p k' := funext fun a => Fin.ext (by match a with | ⟨0, _⟩ => rfl | ⟨1, _⟩ => rfl)
  have er' : ridx_main_v28 (ix2 p k) k' = ix2 k' k := funext fun a => Fin.ext (by match a with | ⟨0, _⟩ => rfl | ⟨1, _⟩ => rfl)
  rw [el', er', val_main_v27_apply, val_main_v26_apply, val_main_v25_apply, val_main_v24_apply, val_main_cst_1_apply,
    Ideal.addf_def, Ideal.mulf_def, Ideal.addf_def, Ideal.ofBits_def]

/-- Layer 2 of the reference: its output stage is the layer's arithmetic on its own feature, neighbour-sum and
    parameter stages. -/
theorem layer2 (x0 : (⟨S50000x128, .f32⟩ : BufTy).Contents (Elt Ideal)) (x1 : (⟨S2x1600000, .i32⟩ : BufTy).Contents (Elt Ideal)) (x3 : (⟨S3, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) :
    val_main_v75 (F := Ideal) x0 x1 x3 x4 x5 x6 x7
      = layerOf (val_main_v37 (F := Ideal) x0 x1 x3 x4 x5 x6 x7) (val_main_v61 (F := Ideal) x0 x1 x3 x4 x5 x6 x7) (val_main_v39 (F := Ideal) x3 ix0) (val_main_v41 (F := Ideal) x4)
          (fun k => val_main_v43 (F := Ideal) x5 (ix1 k)) (val_main_v45 (F := Ideal) x6) (fun k => val_main_v47 (F := Ideal) x7 (ix1 k)) := by
  funext i
  obtain ⟨p, q, rfl⟩ : ∃ (p : Fin 50000) (q : Fin 128), i = ix2 p q := ⟨i 0, i 1, eq_ix2 i⟩
  unfold layerOf layerAt
  rw [val_main_v75_apply, val_main_v72_apply, val_main_v74_apply, val_main_v73_apply, Ideal.addf_def]
  have eb2 : idx_main_v73 (idx_main_v74 (ix2 p q)) = ix1 q := funext fun a => Fin.ext (by match a with | ⟨0, _⟩ => rfl)
  rw [eb2]
  refine congrArg (· + val_main_v47 (F := Ideal) x7 (ix1 q)) ?_
  refine Finset.sum_congr rfl fun k _ => ?_
  have el : lidx_main_v72 (ix2 p q) k = ix2 p k := funext fun a => Fin.ext (by match a with | ⟨0, _⟩ => rfl | ⟨1, _⟩ => rfl)
  have er : ridx_main_v72 (ix2 p q) k = ix2 k q := funext fun a => Fin.ext (by match a with | ⟨0, _⟩ => rfl | ⟨1, _⟩ => rfl)
  rw [el, er, val_main_v71_apply, val_main_v70_apply, val_main_cst_7_apply, val_main_v69_apply, val_main_v66_apply, val_main_v68_apply,
    val_main_v67_apply, Ideal.maximumf_def, Ideal.addf_def, Ideal.ofBits_def]
  have eb1 : idx_main_v67 (idx_main_v68 (ix2 p k)) = ix1 k := funext fun a => Fin.ext (by match a with | ⟨0, _⟩ => rfl)
  rw [eb1]
  refine congrArg (fun x => max (x + val_main_v43 (F := Ideal) x5 (ix1 k)) zero * val_main_v45 (F := Ideal) x6 (ix2 k q)) ?_
  refine Finset.sum_congr rfl fun k' _ => ?_
  have el' : lidx_main_v66 (ix2 p k) k' = ix2 p k' := funext fun a => Fin.ext (by match a with | ⟨0, _⟩ => rfl | ⟨1, _⟩ => rfl)
  have er' : ridx_main_v66 (ix2 p k) k' = ix2 k' k := funext fun a => Fin.ext (by match a with | ⟨0, _⟩ => rfl | ⟨1, _⟩ => rfl)
  rw [el', er', val_main_v65_apply, val_main_v64_apply, val_main_v63_apply, val_main_v62_apply, val_main_cst_6_apply,
    Ideal.addf_def, Ideal.mulf_def, Ideal.addf_def, Ideal.ofBits_def]

/-- Layer 3 of the reference: its output stage is the layer's arithmetic on its own feature, neighbour-sum and
    parameter stages. -/
theorem layer3 (x0 : (⟨S50000x128, .f32⟩ : BufTy).Contents (Elt Ideal)) (x1 : (⟨S2x1600000, .i32⟩ : BufTy).Contents (Elt Ideal)) (x3 : (⟨S3, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) :
    val_main_v113 (F := Ideal) x0 x1 x3 x4 x5 x6 x7
      = layerOf (val_main_v75 (F := Ideal) x0 x1 x3 x4 x5 x6 x7) (val_main_v99 (F := Ideal) x0 x1 x3 x4 x5 x6 x7) (val_main_v77 (F := Ideal) x3 ix0) (val_main_v79 (F := Ideal) x4)
          (fun k => val_main_v81 (F := Ideal) x5 (ix1 k)) (val_main_v83 (F := Ideal) x6) (fun k => val_main_v85 (F := Ideal) x7 (ix1 k)) := by
  funext i
  obtain ⟨p, q, rfl⟩ : ∃ (p : Fin 50000) (q : Fin 128), i = ix2 p q := ⟨i 0, i 1, eq_ix2 i⟩
  unfold layerOf layerAt
  rw [val_main_v113_apply, val_main_v110_apply, val_main_v112_apply, val_main_v111_apply, Ideal.addf_def]
  have eb2 : idx_main_v111 (idx_main_v112 (ix2 p q)) = ix1 q := funext fun a => Fin.ext (by match a with | ⟨0, _⟩ => rfl)
  rw [eb2]
  refine congrArg (· + val_main_v85 (F := Ideal) x7 (ix1 q)) ?_
  refine Finset.sum_congr rfl fun k _ => ?_
  have el : lidx_main_v110 (ix2 p q) k = ix2 p k := funext fun a => Fin.ext (by match a with | ⟨0, _⟩ => rfl | ⟨1, _⟩ => rfl)
  have er : ridx_main_v110 (ix2 p q) k = ix2 k q := funext fun a => Fin.ext (by match a with | ⟨0, _⟩ => rfl | ⟨1, _⟩ => rfl)
  rw [el, er, val_main_v109_apply, val_main_v108_apply, val_main_cst_12_apply, val_main_v107_apply, val_main_v104_apply, val_main_v106_apply,
    val_main_v105_apply, Ideal.maximumf_def, Ideal.addf_def, Ideal.ofBits_def]
  have eb1 : idx_main_v105 (idx_main_v106 (ix2 p k)) = ix1 k := funext fun a => Fin.ext (by match a with | ⟨0, _⟩ => rfl)
  rw [eb1]
  refine congrArg (fun x => max (x + val_main_v81 (F := Ideal) x5 (ix1 k)) zero * val_main_v83 (F := Ideal) x6 (ix2 k q)) ?_
  refine Finset.sum_congr rfl fun k' _ => ?_
  have el' : lidx_main_v104 (ix2 p k) k' = ix2 p k' := funext fun a => Fin.ext (by match a with | ⟨0, _⟩ => rfl | ⟨1, _⟩ => rfl)
  have er' : ridx_main_v104 (ix2 p k) k' = ix2 k' k := funext fun a => Fin.ext (by match a with | ⟨0, _⟩ => rfl | ⟨1, _⟩ => rfl)
  rw [el', er', val_main_v103_apply, val_main_v102_apply, val_main_v101_apply, val_main_v100_apply, val_main_cst_11_apply,
    Ideal.addf_def, Ideal.mulf_def, Ideal.addf_def, Ideal.ofBits_def]

/-- The reference's final stage is the read-out's arithmetic on its pooled-sum stage, its count stage and the
    head's parameters. -/
theorem head (x0 : (⟨S50000x128, .f32⟩ : BufTy).Contents (Elt Ideal)) (x1 : (⟨S2x1600000, .i32⟩ : BufTy).Contents (Elt Ideal)) (x2 : (⟨S50000, .i32⟩ : BufTy).Contents (Elt Ideal)) (x3 : (⟨S3, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S384x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) :
    val_main_v137 (F := Ideal) x0 x1 x2 x3 x4 x5 x6 x7 x8 x9 x10 x11
      = headOf (val_main_v117 (F := Ideal) x0 x1 x2 x3 x4 x5 x6 x7) (val_main_v121 (F := Ideal) x2) x8 (fun k => x9 (ix1 k)) x10 (fun j => x11 (ix1 j)) := by
  funext i
  obtain ⟨u, q, rfl⟩ : ∃ (u : Fin 1) (q : Fin 64), i = ix2 u q := ⟨i 0, i 1, eq_ix2 i⟩
  obtain rfl : u = 0 := Subsingleton.elim _ _
  unfold headOf headAt
  rw [val_main_v137_apply, val_main_v136_apply, val_main_cst_19_apply, val_main_v135_apply, val_main_v133_apply, val_main_v134_apply,
    Ideal.maximumf_def, Ideal.addf_def, Ideal.ofBits_def]
  have eb : idx_main_v134 (ix2 (0 : Fin 1) q) = ix1 q := funext fun a => Fin.ext (by match a with | ⟨0, _⟩ => rfl)
  rw [eb]
  refine congrArg (fun x => max (x + x11 (ix1 q)) zero) ?_
  refine Finset.sum_congr rfl fun k _ => ?_
  have el : lidx_main_v133 (ix2 (0 : Fin 1) q) k = ix2 (0 : Fin 1) k := funext fun a => Fin.ext (by match a with | ⟨0, _⟩ => rfl | ⟨1, _⟩ => rfl)
  have er : ridx_main_v133 (ix2 (0 : Fin 1) q) k = ix2 k q := funext fun a => Fin.ext (by match a with | ⟨0, _⟩ => rfl | ⟨1, _⟩ => rfl)
  rw [el, er, val_main_v132_apply, val_main_v131_apply, val_main_cst_18_apply, val_main_v130_apply, val_main_v128_apply, val_main_v129_apply,
    Ideal.maximumf_def, Ideal.addf_def, Ideal.ofBits_def]
  have ea : idx_main_v129 (ix2 (0 : Fin 1) k) = ix1 k := funext fun a => Fin.ext (by match a with | ⟨0, _⟩ => rfl)
  rw [ea]
  refine congrArg (fun x => max (x + x9 (ix1 k)) zero * x10 (ix2 k q)) ?_
  refine Finset.sum_congr rfl fun k' _ => ?_
  have el' : lidx_main_v128 (ix2 (0 : Fin 1) k) k' = ix2 (0 : Fin 1) k' := funext fun a => Fin.ext (by match a with | ⟨0, _⟩ => rfl | ⟨1, _⟩ => rfl)
  have er' : ridx_main_v128 (ix2 (0 : Fin 1) k) k' = ix2 k' k := funext fun a => Fin.ext (by match a with | ⟨0, _⟩ => rfl | ⟨1, _⟩ => rfl)
  rw [el', er', val_main_v127_apply, val_main_v126_apply, val_main_cst_17_apply, Ideal.ofBits_def, Ideal.ofBits_zero_f32, zero_add]
  refine congrArg (· * x8 (ix2 k' k)) ?_
  refine Finset.sum_congr rfl fun g _ => ?_
  have eg : idx_main_v126 (idx_main_v127 (ix2 (0 : Fin 1) k')) g = ix2 g k' := funext fun a => Fin.ext (by match a with | ⟨0, _⟩ => rfl | ⟨1, _⟩ => rfl)
  rw [eg, val_main_v125_apply, val_main_v124_apply, val_main_v123_apply, val_main_v122_apply, val_main_cst_16_apply, Ideal.hostDivf_def,
    Ideal.maximumf_def, Ideal.ofBits_def]
  have ec : idx_main_v124 (ix2 g k') = ix2 g (0 : Fin 1) := funext fun a => Fin.ext (by match a with | ⟨0, _⟩ => rfl | ⟨1, _⟩ => rfl)
  rw [ec]

end Cert.ReferenceIdeal.Spec

end
-- ==== Proof.LibEdgeIndex.lean ====
/-
  Row gather and row scatter-add read at an index.

  A table of N rows (each a row of D entries, or a single entry) is read through a column of M integer row numbers:
  * the gather produces, for position e, the row whose number is the e-th integer read as a signed number and
    clamped into [0, N - 1];
  * the accumulating scatter adds, into row v, every update row e whose integer, read as a signed number and NOT
    clamped, equals v; an integer outside [0, N) names no row and its update is dropped.
  Over the extended reals the accumulated value is the exact sum, so row v of the result is the old row plus the
  sum of the update rows over the set { e | integer e = v }.
-/
import Idealize.ShloMosaic.Lib.ValueIdx
import Idealize.ShloMosaic.PureOps.Ideal

noncomputable section

open scoped BigOperators

namespace Idealize.ShloMosaic.EdgeIndex

open Idealize.ShloMosaic Idealize.ShloMosaic.ValueIdx

theorem fin2_one_ne_zero : ¬ (1 : Fin 2) = 0 := by decide

/-- Two rank-2 indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Two rank-1 indices agree exactly when their coordinates do. -/
theorem ix1_eq_iff {n0 : Nat} (a a' : Fin n0) : ix1 a = ix1 a' ↔ a = a' :=
  ⟨fun h => congrFun h 0, fun h => by rw [h]⟩

/-! ## Gather of whole rows of an [N, D] table at an [M, 1] column of row numbers -/

section RowGather
variable {α : Type}

/-- The dimension numbers of x[idx] for x : [N, D] and idx : [M] (as an [M, 1] column): result [M, D]. -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, k) of the gathered array is entry k of the row numbered by the e-th integer, clamped. -/
theorem gather_row_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowGatherDims N M D wf) x idx (ix2 e k)
      = x (ix2 ⟨min (idx (ix2 e 0)).toInt.toNat (N - 1), by omega⟩ k) := by
  have h0 : ((rowGatherDims N M D wf).operandIdx (ix2 e k) idx (0 : Fin 2)).val
      = min (idx (ix2 e 0)).toInt.toNat (N - 1) := by
    show (rowGatherDims N M D wf).start (ix2 e k) idx (0 : Fin 2) + (rowGatherDims N M D wf).batchCoord (ix2 e k) (0 : Fin 2)
      + (rowGatherDims N M D wf).offCoord (ix2 e k) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M D wf).startIndexMap from List.mem_singleton.mpr rfl)]
    have hsi : (rowGatherDims N M D wf).siIdx (ix2 e k) ⟨List.idxOf (0 : Fin 2) (rowGatherDims N M D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGatherDims N M D wf).operandIdx (ix2 e k) idx (1 : Fin 2)).val = k.val := by
    show (rowGatherDims N M D wf).start (ix2 e k) idx (1 : Fin 2) + (rowGatherDims N M D wf).batchCoord (ix2 e k) (1 : Fin 2)
      + (rowGatherDims N M D wf).offCoord (ix2 e k) (1 : Fin 2) = _
    rw [GatherDims.batchCoord_eq_zero _ _ _ List.not_mem_nil, Nat.add_zero]
    have hs : (rowGatherDims N M D wf).start (ix2 e k) idx (1 : Fin 2) = 0 := by
      unfold GatherDims.start
      rw [dif_neg (fun h => absurd (List.mem_singleton.mp h) fin2_one_ne_zero)]
    rw [hs, Nat.zero_add]
    unfold GatherDims.offCoord
    rw [dif_pos ((GatherDims.mem_sKept _ _).mpr ⟨fun h => absurd (List.mem_singleton.mp h) fin2_one_ne_zero, List.not_mem_nil⟩)]
    rfl
  unfold Host.gather
  congr 1
  funext a
  refine Fin.ext ?_
  match a with
  | ⟨0, _⟩ => exact h0
  | ⟨1, _⟩ => exact h1

end RowGather

/-! ## Gather of single entries of an [N] table at an [M, 1] column of positions -/

section VecGather
variable {α : Type}

/-- The dimension numbers of x[idx] for x : [N] and idx : [M] (as an [M, 1] column): result [M]. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector is the entry numbered by the e-th integer, clamped. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
      + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## Accumulating scatter of [M, D] update rows into an [N, D] table at an [M, 1] column of row numbers -/

section RowScatter

/-- The dimension numbers of x.at[idx].add(u) for x : [N, D], idx : [M] (as an [M, 1] column), u : [M, D]. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update entry (e, k) lands on entry (z, k) of the table, z the e-th integer read signed, when 0 ≤ z < N, and
    nowhere otherwise. -/
theorem resultIdx_row {N M D w : Nat}
    (wf : ScatterDims.WF ⟨2, ![N, D]⟩ ⟨2, ![M, 1]⟩ ⟨2, ![M, D]⟩ [1] [0] [0] 1)
    (idx : IVec ⟨2, ![M, 1]⟩ w) (e : Fin M) (k : Fin D) :
    (rowScatterDims N M D wf).resultIdx? (ix2 e k) idx =
      if h : 0 ≤ (idx (ix2 e 0)).toInt ∧ (idx (ix2 e 0)).toInt < (N : Int) then
        some (ix2 ⟨(idx (ix2 e 0)).toInt.toNat, by omega⟩ k) else none := by
  have hs0 : (rowScatterDims N M D wf).start (ix2 e k) idx (0 : Fin 2) = (idx (ix2 e 0)).toInt := by
    unfold ScatterDims.start
    rw [dif_pos (show (0 : Fin 2) ∈ (rowScatterDims N M D wf).scatterDimsToOperandDims from
      List.mem_singleton.mpr rfl)]
    have hsi : (rowScatterDims N M D wf).siIdx (ix2 e k)
        ⟨List.idxOf (0 : Fin 2) (rowScatterDims N M D wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScatterDims N M D wf).window (ix2 e k) (0 : Fin 2) = 0 := by
    unfold ScatterDims.window
    rw [dif_neg (by simp [ScatterDims.sKept, Shape.kept])]
  have hs1 : (rowScatterDims N M D wf).start (ix2 e k) idx (1 : Fin 2) = 0 := by
    unfold ScatterDims.start
    rw [dif_neg (fun h => absurd (List.mem_singleton.mp h) fin2_one_ne_zero)]
  have hw1 : (rowScatterDims N M D wf).window (ix2 e k) (1 : Fin 2) = k.val := by
    unfold ScatterDims.window
    rw [dif_pos (by simp [ScatterDims.sKept, Shape.kept])]
    rfl
  unfold ScatterDims.resultIdx?
  by_cases h : 0 ≤ (idx (ix2 e 0)).toInt ∧ (idx (ix2 e 0)).toInt < (N : Int)
  · have hP0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) := by
      rw [hs0, hw0]; simpa using h
    have hP1 : 0 ≤ (rowScatterDims N M D wf).start (ix2 e k) idx (1 : Fin 2) + ((rowScatterDims N M D wf).window (ix2 e k) (1 : Fin 2) : Int)
        ∧ (rowScatterDims N M D wf).start (ix2 e k) idx (1 : Fin 2) + ((rowScatterDims N M D wf).window (ix2 e k) (1 : Fin 2) : Int) < (D : Int) := by
      rw [hs1, hw1]; exact ⟨by omega, by have := k.isLt; omega⟩
    have hall : ∀ a : Fin 2, 0 ≤ (rowScatterDims N M D wf).start (ix2 e k) idx a + ((rowScatterDims N M D wf).window (ix2 e k) a : Int)
        ∧ (rowScatterDims N M D wf).start (ix2 e k) idx a + ((rowScatterDims N M D wf).window (ix2 e k) a : Int)
          < (((⟨2, ![N, D]⟩ : Shape).size a : Nat) : Int) := fun a =>
      match a with
      | ⟨0, _⟩ => hP0
      | ⟨1, _⟩ => hP1
    rw [dif_pos hall, dif_pos h]
    congr 1
    funext a
    refine Fin.ext ?_
    match a with
    | ⟨0, _⟩ =>
      show ((rowScatterDims N M D wf).start (ix2 e k) idx (0 : Fin 2)
        + ((rowScatterDims N M D wf).window (ix2 e k) (0 : Fin 2) : Int)).toNat = (idx (ix2 e 0)).toInt.toNat
      rw [hs0, hw0]; simp
    | ⟨1, _⟩ =>
      show ((rowScatterDims N M D wf).start (ix2 e k) idx (1 : Fin 2)
        + ((rowScatterDims N M D wf).window (ix2 e k) (1 : Fin 2) : Int)).toNat = k.val
      rw [hs1, hw1]; simp
  · rw [dif_neg h, dif_neg]
    intro hall
    have h0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) :=
      hall 0
    rw [hs0, hw0] at h0
    exact h (by simpa using h0)

/-- Over the extended reals, entry (v, k) of the accumulated table is the old entry plus the sum of the update
    entries (e, k) over the positions e whose integer, read signed, is v. -/
theorem scatterAdd_row_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w)
    (upd : (⟨2, ![M, D]⟩ : Shape).Idx → EReal) (v : Fin N) (k : Fin D) :
    Ideal.hostScatterAdd (rowScatterDims N M D wf) x idx upd (ix2 v k)
      = x (ix2 v k) + ∑ e ∈ Finset.univ.filter (fun e : Fin M => (idx (ix2 e 0)).toInt = (v.val : Int)), upd (ix2 e k) := by
  unfold Ideal.hostScatterAdd
  congr 1
  rw [Finset.sum_filter, sum_idx2, Finset.sum_filter]
  refine Finset.sum_congr rfl fun e _ => ?_
  by_cases hz : (idx (ix2 e 0)).toInt = (v.val : Int)
  · rw [if_pos hz]
    have hin : 0 ≤ (idx (ix2 e 0)).toInt ∧ (idx (ix2 e 0)).toInt < (N : Int) := by
      rw [hz]; exact ⟨by omega, by have := v.isLt; omega⟩
    rw [Finset.sum_eq_single k]
    · rw [if_pos]
      rw [resultIdx_row, dif_pos hin]
      congr 1
      rw [ix2_eq_iff]
      exact ⟨Fin.ext (by show (idx (ix2 e 0)).toInt.toNat = v.val; omega), rfl⟩
    · intro k' _ hk'
      rw [if_neg]
      rw [resultIdx_row, dif_pos hin]
      intro hh
      exact hk' ((ix2_eq_iff _ _ _ _).mp (Option.some.inj hh)).2
    · intro hk; exact absurd (Finset.mem_univ k) hk
  · rw [if_neg hz]
    refine Finset.sum_eq_zero fun k' _ => ?_
    rw [if_neg]
    rw [resultIdx_row]
    split
    · rename_i hin
      intro hh
      have := ((ix2_eq_iff _ _ _ _).mp (Option.some.inj hh)).1
      have hv : (idx (ix2 e 0)).toInt.toNat = v.val := congrArg Fin.val this
      exact hz (by omega)
    · intro hh; cases hh

end RowScatter

/-! ## Accumulating scatter of [M] updates into an [N] vector at an [M, 1] column of positions -/

section VecScatter

/-- The dimension numbers of x.at[idx].add(u) for x : [N], idx : [M] (as an [M, 1] column), u : [M]. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry z of the vector, z the e-th integer read signed, when 0 ≤ z < N, and nowhere otherwise. -/
theorem resultIdx_vec {N M w : Nat}
    (wf : ScatterDims.WF ⟨1, ![N]⟩ ⟨2, ![M, 1]⟩ ⟨1, ![M]⟩ [] [0] [0] 1)
    (idx : IVec ⟨2, ![M, 1]⟩ w) (e : Fin M) :
    (vecScatterDims N M wf).resultIdx? (ix1 e) idx =
      if h : 0 ≤ (idx (ix2 e 0)).toInt ∧ (idx (ix2 e 0)).toInt < (N : Int) then
        some (ix1 ⟨(idx (ix2 e 0)).toInt.toNat, by omega⟩) else none := by
  have hs0 : (vecScatterDims N M wf).start (ix1 e) idx (0 : Fin 1) = (idx (ix2 e 0)).toInt := by
    unfold ScatterDims.start
    rw [dif_pos (show (0 : Fin 1) ∈ (vecScatterDims N M wf).scatterDimsToOperandDims from
      List.mem_singleton.mpr rfl)]
    have hsi : (vecScatterDims N M wf).siIdx (ix1 e)
        ⟨List.idxOf (0 : Fin 1) (vecScatterDims N M wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (vecScatterDims N M wf).window (ix1 e) (0 : Fin 1) = 0 := by
    unfold ScatterDims.window
    rw [dif_neg (by simp [ScatterDims.sKept, Shape.kept])]
  unfold ScatterDims.resultIdx?
  by_cases h : 0 ≤ (idx (ix2 e 0)).toInt ∧ (idx (ix2 e 0)).toInt < (N : Int)
  · have hP0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) := by
      rw [hs0, hw0]; simpa using h
    have hall : ∀ a : Fin 1, 0 ≤ (vecScatterDims N M wf).start (ix1 e) idx a + ((vecScatterDims N M wf).window (ix1 e) a : Int)
        ∧ (vecScatterDims N M wf).start (ix1 e) idx a + ((vecScatterDims N M wf).window (ix1 e) a : Int)
          < (((⟨1, ![N]⟩ : Shape).size a : Nat) : Int) := fun a =>
      match a with
      | ⟨0, _⟩ => hP0
    rw [dif_pos hall, dif_pos h]
    congr 1
    funext a
    refine Fin.ext ?_
    match a with
    | ⟨0, _⟩ =>
      show ((vecScatterDims N M wf).start (ix1 e) idx (0 : Fin 1)
        + ((vecScatterDims N M wf).window (ix1 e) (0 : Fin 1) : Int)).toNat = (idx (ix2 e 0)).toInt.toNat
      rw [hs0, hw0]; simp
  · rw [dif_neg h, dif_neg]
    intro hall
    have h0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) :=
      hall 0
    rw [hs0, hw0] at h0
    exact h (by simpa using h0)

/-- Over the extended reals, entry v of the accumulated vector is the old entry plus the sum of the updates over the
    positions e whose integer, read signed, is v. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e 0)).toInt = (v.val : Int)), upd (ix1 e) := by
  unfold Ideal.hostScatterAdd
  congr 1
  rw [Finset.sum_filter, Finset.sum_filter]
  rw [← Equiv.sum_comp (Equiv.ofBijective (fun e : Fin M => (ix1 e : (⟨1, ![M]⟩ : Shape).Idx))
    ⟨fun a b h => (ix1_eq_iff a b).mp h, fun j => ⟨j 0, (eq_ix1 j).symm⟩⟩)]
  refine Finset.sum_congr rfl fun e _ => ?_
  show (if (vecScatterDims N M wf).resultIdx? (ix1 e) idx = some (ix1 v) then upd (ix1 e) else 0) = _
  rw [resultIdx_vec]
  by_cases hz : (idx (ix2 e 0)).toInt = (v.val : Int)
  · have hin : 0 ≤ (idx (ix2 e 0)).toInt ∧ (idx (ix2 e 0)).toInt < (N : Int) := by
      rw [hz]; exact ⟨by omega, by have := v.isLt; omega⟩
    rw [dif_pos hin, if_pos hz, if_pos]
    congr 1
    rw [ix1_eq_iff]
    exact Fin.ext (by show (idx (ix2 e 0)).toInt.toNat = v.val; omega)
  · rw [if_neg hz, if_neg]
    split
    · intro hh
      have := (ix1_eq_iff _ _).mp (Option.some.inj hh)
      have hv : (idx (ix2 e 0)).toInt.toNat = v.val := congrArg Fin.val this
      exact hz (by omega)
    · intro hh; cases hh

end VecScatter

end Idealize.ShloMosaic.EdgeIndex

end
-- ==== Proof.Pooling.lean ====
/-
  Pooling commutes with joining columns. For three [50000, 128] arrays and one column of graph numbers, the
  graph-wise sums of each array, joined side by side into [64, 384], are the graph-wise sums of the three arrays
  joined side by side into [50000, 384]: entry (v, k) is on both sides the starting value plus the sum, over the
  nodes whose graph number is v, of column k mod 128 of piece k / 128. No finiteness is used: it is one sum
  written twice.
-/
import proofs.«110857_j32409823216461_2_alg».proof.Proof.LibEdgeIndex
import Idealize.ShloMosaic.Lib.Pipeline.Value
import Idealize.ShloMosaic.Lib.ValueIdx
import Idealize.ShloMosaic.PureOps.Ideal

set_option pp.maxSteps 5000
set_option pp.deepTerms false

noncomputable section
open scoped BigOperators

namespace GinSpec

open Idealize.ShloMosaic Idealize.ShloMosaic.ValueIdx Idealize.ShloMosaic.EdgeIndex

/-- Column `k` of three [r, 128] pieces joined into [r, 384] is column `k % 128` of piece `k / 128`. -/
theorem joined_at {r : ℕ} (hs : Fin 3 → (⟨2, ![r, 128]⟩ : Shape).Idx → EReal)
    (hc : Shape.Concatenates ((List.ofFn fun n : Fin 3 => (⟨⟨2, ![r, 128]⟩, hs n⟩ : (s : Shape) × (s.Idx → EReal))).map (·.1)) ⟨2, ![r, 384]⟩ 1)
    (v : Fin r) (k : Fin 384) :
    concatenate ⟨2, ![r, 384]⟩ 1 (List.ofFn fun n : Fin 3 => (⟨⟨2, ![r, 128]⟩, hs n⟩ : (s : Shape) × (s.Idx → EReal))) hc (ix2 v k)
      = hs ⟨k.val / 128, by have := k.isLt; omega⟩ (ix2 v ⟨k.val % 128, by omega⟩) := by
  refine concatenate_ofFn_apply (t := ⟨2, ![r, 384]⟩) (s₁ := ⟨2, ![r, 128]⟩) 1 hs hc rfl 128 rfl (ix2 v k) ⟨k.val / 128, by have := k.isLt; omega⟩ rfl
    (ix2 v ⟨k.val % 128, by omega⟩) rfl fun b hb => ?_
  match b with
  | ⟨0, _⟩ => rfl
  | ⟨1, _⟩ => exact absurd rfl hb

/-- Pooling the pieces and joining the pools is pooling the joined array. -/
theorem pool_join {w : ℕ}
    (wf1 : ScatterDims.WF ⟨2, ![64, 128]⟩ ⟨2, ![50000, 1]⟩ ⟨2, ![50000, 128]⟩ [1] [0] [0] 1)
    (wf3 : ScatterDims.WF ⟨2, ![64, 384]⟩ ⟨2, ![50000, 1]⟩ ⟨2, ![50000, 384]⟩ [1] [0] [0] 1)
    (z1 : (⟨2, ![64, 128]⟩ : Shape).Idx → EReal) (z3 : (⟨2, ![64, 384]⟩ : Shape).Idx → EReal) (z : EReal)
    (hz1 : ∀ j, z1 j = z) (hz3 : ∀ j, z3 j = z)
    (idx : IVec ⟨2, ![50000, 1]⟩ w) (hs : Fin 3 → (⟨2, ![50000, 128]⟩ : Shape).Idx → EReal)
    (hc : Shape.Concatenates ((List.ofFn fun n : Fin 3 => (⟨⟨2, ![64, 128]⟩, Ideal.hostScatterAdd (rowScatterDims 64 50000 128 wf1) z1 idx (hs n)⟩ : (s : Shape) × (s.Idx → EReal))).map (·.1)) ⟨2, ![64, 384]⟩ 1)
    (hc' : Shape.Concatenates ((List.ofFn fun n : Fin 3 => (⟨⟨2, ![50000, 128]⟩, hs n⟩ : (s : Shape) × (s.Idx → EReal))).map (·.1)) ⟨2, ![50000, 384]⟩ 1) :
    concatenate ⟨2, ![64, 384]⟩ 1 (List.ofFn fun n : Fin 3 => (⟨⟨2, ![64, 128]⟩, Ideal.hostScatterAdd (rowScatterDims 64 50000 128 wf1) z1 idx (hs n)⟩ : (s : Shape) × (s.Idx → EReal))) hc
      = Ideal.hostScatterAdd (rowScatterDims 64 50000 384 wf3) z3 idx
          (concatenate ⟨2, ![50000, 384]⟩ 1 (List.ofFn fun n : Fin 3 => (⟨⟨2, ![50000, 128]⟩, hs n⟩ : (s : Shape) × (s.Idx → EReal))) hc') := by
  funext j
  obtain ⟨v, k, rfl⟩ : ∃ (v : Fin 64) (k : Fin 384), j = ix2 v k := ⟨j 0, j 1, eq_ix2 j⟩
  rw [joined_at (fun n => Ideal.hostScatterAdd (rowScatterDims 64 50000 128 wf1) z1 idx (hs n)) hc v k,
    scatterAdd_row_apply, scatterAdd_row_apply, hz1, hz3]
  refine congrArg (z + ·) (Finset.sum_congr rfl fun e _ => ?_)
  exact (joined_at hs hc' e k).symm

end GinSpec

end
-- ==== Proof.IdealChain.lean ====
/-
  The kernel program's values, stage by stage, against the reference's. Each layer stage's output array is the
  reference's layer stage: the region's seven arrays are the reference's own stages (the features by the previous
  step, the neighbour sums by reading the stretch with the previous output substituted, the parameters as slices
  of the arguments), and both sides are then the layer's arithmetic on them. The pooled sums the head reads — the
  three layers' outputs pooled one by one and joined — are the reference's pooling of the joined outputs. The
  result is the read-out's arithmetic on the same pooled sums, counts and parameters on both sides.
-/
import proofs.«110857_j32409823216461_2_alg».proof.Proof.IdealKept
import proofs.«110857_j32409823216461_2_alg».proof.Proof.IdealParams0
import proofs.«110857_j32409823216461_2_alg».proof.Proof.IdealParams1
import proofs.«110857_j32409823216461_2_alg».proof.Proof.IdealParams2
import proofs.«110857_j32409823216461_2_alg».proof.Proof.IdealParams3
import proofs.«110857_j32409823216461_2_alg».proof.Proof.IdealLayerArray0
import proofs.«110857_j32409823216461_2_alg».proof.Proof.IdealLayerArray1
import proofs.«110857_j32409823216461_2_alg».proof.Proof.IdealLayerArray2
import proofs.«110857_j32409823216461_2_alg».proof.Proof.IdealHeadArray
import proofs.«110857_j32409823216461_2_alg».proof.Proof.Reference
import proofs.«110857_j32409823216461_2_alg».proof.Proof.Pooling
import proofs.«110857_j32409823216461_2_alg».proof.Proof.Gen.ReferenceIdeal.Read

set_option maxRecDepth 16384
set_option pp.maxSteps 5000
set_option pp.deepTerms false

noncomputable section

namespace Cert.KernelIdeal.Layers

open Cert.KernelIdeal Cert.KernelIdeal.Gen GinSpec
open Cert.ReferenceIdeal.Read
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- One layer's output summed by graph number, as a host stretch computes it: a scatter-add into zeros. -/
def pooled (i : (⟨S50000, .i32⟩ : BufTy).Contents (Elt Ideal)) (u : (⟨S50000x128, .f32⟩ : BufTy).Contents (Elt Ideal)) : (⟨S64x128, .f32⟩ : BufTy).Contents (Elt Ideal) :=
  Host.scatterAdd (F := Ideal) scatter_S64x128_S50000x1_S50000x128_1_0_0_1 (broadcastInDim S64x128 ![] bcast_S_S64x128 (constant (F := Ideal) S_ .f32 0x00000000#32))
    (broadcastInDim S50000x1 ![0] bcast_S50000_S50000x1_0 i) u

/-! ## Layer 1 -/

/-- The node features region 0 reads are the argument. -/
theorem found0_h (c : Dev nD) : entry0 m c main_arg0 = (m ((c : Thread nD τ).loc main_arg0)) := mem1_of m c main_arg0 (by decide)

set_option maxHeartbeats 4000000 in
/-- The neighbour sums: the reference's first scatter stage. -/
theorem found0_agg (c : Dev nD) : entry0 m c main_v17 = val_main_v23 (F := Ideal) (m ((c : Thread nD τ).loc main_arg0)) (m ((c : Thread nD τ).loc main_arg1)) := by
  dsimp only [entry0, mem1, mem0, hostOps0]
  after_results_simp
  rfl

/-- Layer stage 1's output array is the reference's first layer stage. -/
theorem out1 (c : Dev nD) : mem2 m c (Proc.devRef .tc main_v31) = val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show mem2 m c (Proc.devRef .tc main_v31) = (data0 (entry0 m) c).arrAt 7 cfg0.N from mem2_arr m c 7, layer0_array (entry0 m) c]
  unfold layerOut0
  rw [found0_h m c, found0_agg m c, found0_eps m c, found0_W1 m c, found0_W2 m c, funext (found0_b1 m c), funext (found0_b2 m c)]
  exact (Cert.ReferenceIdeal.Spec.layer1 _ _ _ _ _ _ _).symm

/-! ## Layer 2 -/

/-- The node features layer stage 2 reads are the previous stage's output: the stretch before it does not write them. -/
theorem found1_h (c : Dev nD) : entry1 m c main_v31 = val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (mem3_of m c main_v31 (by decide)).trans (out1 m c)

set_option maxHeartbeats 4000000 in
/-- Its neighbour sums: the reference's scatter stage of the same layer, the previous output being the reference's. -/
theorem found1_agg (c : Dev nD) : entry1 m c main_v50 = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [entry1, mem3, hostOps1]
  after_results_simp
  rw [out1 m c, kept2_arg1 m c]
  rfl

set_option maxHeartbeats 4000000 in
/-- The previous output pooled by graph, as this stretch leaves it. -/
theorem pooled1 (c : Dev nD) : mem3 m c (Proc.devRef .tc main_v34) = pooled (m ((c : Thread nD τ).loc main_arg2)) (val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  dsimp only [mem3, hostOps1]
  after_results_simp
  rw [out1 m c, kept2_arg2 m c]
  rfl

/-- Layer stage 2's output array is the reference's layer stage. -/
theorem out2 (c : Dev nD) : mem4 m c (Proc.devRef .tc main_v64) = val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show mem4 m c (Proc.devRef .tc main_v64) = (data1 (entry1 m) c).arrAt 7 cfg1.N from mem4_arr m c 7, layer1_array (entry1 m) c]
  unfold layerOut1
  rw [found1_h m c, found1_agg m c, found1_eps m c, found1_W1 m c, found1_W2 m c, funext (found1_b1 m c), funext (found1_b2 m c)]
  exact (Cert.ReferenceIdeal.Spec.layer2 _ _ _ _ _ _ _).symm

/-! ## Layer 3 -/

/-- The node features layer stage 3 reads are the previous stage's output: the stretch before it does not write them. -/
theorem found2_h (c : Dev nD) : entry2 m c main_v64 = val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (mem5_of m c main_v64 (by decide)).trans (out2 m c)

set_option maxHeartbeats 4000000 in
/-- Its neighbour sums: the reference's scatter stage of the same layer, the previous output being the reference's. -/
theorem found2_agg (c : Dev nD) : entry2 m c main_v83 = val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [entry2, mem5, hostOps2]
  after_results_simp
  rw [out2 m c, kept4_arg1 m c]
  rfl

set_option maxHeartbeats 4000000 in
/-- The previous output pooled by graph, as this stretch leaves it. -/
theorem pooled2 (c : Dev nD) : mem5 m c (Proc.devRef .tc main_v67) = pooled (m ((c : Thread nD τ).loc main_arg2)) (val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  dsimp only [mem5, hostOps2]
  after_results_simp
  rw [out2 m c, kept4_arg2 m c]
  rfl

/-- Layer stage 3's output array is the reference's layer stage. -/
theorem out3 (c : Dev nD) : mem6 m c (Proc.devRef .tc main_v97) = val_main_v113 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show mem6 m c (Proc.devRef .tc main_v97) = (data2 (entry2 m) c).arrAt 7 cfg2.N from mem6_arr m c 7, layer2_array (entry2 m) c]
  unfold layerOut2
  rw [found2_h m c, found2_agg m c, found2_eps m c, found2_W1 m c, found2_W2 m c, funext (found2_b1 m c), funext (found2_b2 m c)]
  exact (Cert.ReferenceIdeal.Spec.layer3 _ _ _ _ _ _ _).symm

/-! ## The head -/

theorem kept6_v34 (c : Dev nD) : mem6 m c (Proc.devRef .tc main_v34) = pooled (m ((c : Thread nD τ).loc main_arg2)) (val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (mem6_of_ne m c main_v34 (by decide)).trans ((mem5_of m c main_v34 (by decide)).trans ((mem4_of_ne m c main_v34 (by decide)).trans (pooled1 m c)))

theorem kept6_v67 (c : Dev nD) : mem6 m c (Proc.devRef .tc main_v67) = pooled (m ((c : Thread nD τ).loc main_arg2)) (val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (mem6_of_ne m c main_v67 (by decide)).trans (pooled2 m c)

set_option maxHeartbeats 4000000 in
/-- The pooled sums the head reads, as the last stretch computes them: the two earlier pools, kept, and the third
    layer's output pooled, joined along the columns. -/
theorem found3_sums_raw (c : Dev nD) : entry3 m c main_v101 =
    concatenate S64x384 1 [⟨S64x128, mem6 m c (Proc.devRef .tc main_v34)⟩, ⟨S64x128, mem6 m c (Proc.devRef .tc main_v67)⟩,
      ⟨S64x128, pooled (mem6 m c (Proc.devRef .tc main_arg2)) (mem6 m c (Proc.devRef .tc main_v97))⟩] concatenates_S64x128_S64x128_S64x128_S64x384_d1 := by
  dsimp only [entry3, mem7, hostOps3]
  after_results_simp <;> rfl

set_option maxHeartbeats 4000000 in
/-- The pooled sums the head reads are the reference's pooling of the joined layer outputs. -/
theorem found3_sums (c : Dev nD) : entry3 m c main_v101 = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [found3_sums_raw m c, kept6_v34 m c, kept6_v67 m c, out3 m c, kept6_arg2 m c]
  unfold val_main_v117 val_main_v114 val_main_v115 val_main_v116 pooled
  generalize val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) = h1
  generalize val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) = h2
  generalize val_main_v113 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) = h3
  exact pool_join scatter_S64x128_S50000x1_S50000x128_1_0_0_1_wf Cert.ReferenceIdeal.Gen.scatter_S64x384_S50000x1_S50000x384_1_0_0_1_wf
    _ _ (Ideal.ofBits .f32 0x00000000#32) (fun _ => rfl) (fun _ => rfl) _ ![h1, h2, h3] _ _

/-- The result array is the reference's final stage at the same arguments. -/
theorem result_is (c : Dev nD) : (data3 (entry3 m) c).arrAt 6 cfg3.N = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [head_array (entry3 m) c]
  unfold headOut
  rw [found3_sums m c, found3_counts m c, found3_A m c, found3_B m c, funext (found3_a m c), funext (found3_b m c)]
  exact (Cert.ReferenceIdeal.Spec.head _ _ _ _ _ _ _ _ _ _ _ _).symm

/-- The idealized kernel program's run with its result named: the reference's final stage at the launch arguments. -/
theorem run_value (ρ : Dev nD → PrngReg) : θ_run defs (onTc (τ := τ) (main (F := Ideal))) ⟨m, fun _ => 0, ρ⟩ (fun r => ∀ c : Dev nD,
      r.2.mem ((c.tc : Thread nD τ).loc main_v110) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_is m c), (h c).2⟩) (run_result m ρ)

end Cert.KernelIdeal.Layers
end
-- ==== Proof.lean ====
/-
  The certificate of a three-layer graph-isomorphism network with a mean-then-sum read-out and a two-layer
  head: a program of four kernel calls among host operations, against a plain array reference.

  Frames. The kernel program, word-level and idealized, is run as eight segments (a host stretch before each
  kernel call); every buffer's contents at each boundary is a fold from the launch memory, and no stretch writes
  an argument and no call changes one. The reference is a straight-line host program; its frame is its run
  with the result dropped.

  Idealization. The ideal pass rewrote nothing, so there is no conjunct to show.

  Values. Over the extended reals a change of float format is the identity, so the gather of rounded rows is
  the gather of the rows; a layer's two products, its bias additions and rectifier are the same sums on both
  sides, row block by row block; pooling each layer's output and joining the three [64,128] pools is pooling
  the joined [50000,384] array, column by column; the head is the same arithmetic on the pooled sums.
-/
import proofs.«110857_j32409823216461_2_alg».proof.Defs
import proofs.«110857_j32409823216461_2_alg».proof.Proof.Gen.Kernel
import proofs.«110857_j32409823216461_2_alg».proof.Proof.Gen.KernelIdeal
import proofs.«110857_j32409823216461_2_alg».proof.Proof.Gen.ReferenceIdeal
import proofs.«110857_j32409823216461_2_alg».proof.Proof.Gen.Pre_finite_inputs
import proofs.«110857_j32409823216461_2_alg».proof.Proof.Gen.ReferenceIdeal.Run
import proofs.«110857_j32409823216461_2_alg».proof.Proof.WordRun
import proofs.«110857_j32409823216461_2_alg».proof.Proof.IdealRun
import proofs.«110857_j32409823216461_2_alg».proof.Proof.IdealChain
import proofs.«110857_j32409823216461_2_alg».proof.Proof.Gen.ReferenceIdeal.Read
import Idealize.ShloMosaic.Adequacy
import Idealize.ShloMosaic.Init

noncomputable section

namespace Cert.Proof

open Idealize.ShloMosaic Idealize.SL.Sem

/-- The word-level kernel program terminates, faults nowhere and leaves its arguments as launched. -/
theorem frame_word : Cert.frame_Kernel := fun m ρ _ => Cert.Kernel.Layers.frame m ρ

/-- So does the idealized kernel program. -/
theorem frame_ideal : Cert.frame_KernelIdeal := fun m ρ _ => Cert.KernelIdeal.Layers.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs, from memories that agree on the arguments, end with the same result: the kernel
    program's result array is the reference's final stage at the launch arguments (the chain of layer stages, the
    pooling and the read-out, each the same arithmetic on both sides), and the reference's run ends at that stage. -/
theorem algebraic : Cert.algebraic_KernelIdeal_ReferenceIdeal := by
  intro m ρ m' ρ' _ hagree
  refine ⟨_, Cert.KernelIdeal.Layers.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v137_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
